-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_arg7 : FVec F S1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128x128 .f32) (main_arg6 : FVec F S1 .f32) (main_arg7 : FVec F S1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x1 : Shape := ⟨2, ![1, 1]⟩
abbrev S1x128 : Shape := ⟨2, ![1, 128]⟩
abbrev S128 : Shape := ⟨1, ![128]⟩
abbrev S1x384 : Shape := ⟨2, ![1, 384]⟩

abbrev nBuf : Space → Nat
  | .hbm => 87
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S1x1, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S1x1, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S1x1, .f32⟩
  | .hbm, ⟨84, _⟩ => ⟨S50000x128, .f32⟩
  | .hbm, ⟨85, _⟩ => ⟨S1x128, .f32⟩
  | .hbm, ⟨86, _⟩ => ⟨S1x384, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x1, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x1, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x1, .f32⟩
  | .local _ .vmem, ⟨42, _⟩ => ⟨S5000x1, .f32⟩
  | .local _ .vmem, ⟨43, _⟩ => ⟨S1x1, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40_0 : Ref sig .tc := ⟨.hbm, 67, rfl⟩
abbrev main_v40_1 : Ref sig .tc := ⟨.hbm, 68, rfl⟩
abbrev main_v41 : Ref sig .tc := ⟨.hbm, 69, rfl⟩
abbrev main_c_11 : Ref sig .tc := ⟨.hbm, 70, rfl⟩
abbrev main_v42 : Ref sig .tc := ⟨.hbm, 71, rfl⟩
abbrev main_v43 : Ref sig .tc := ⟨.hbm, 72, rfl⟩
abbrev main_c_12 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_13 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53_0 : Ref sig .tc := ⟨.hbm, 84, rfl⟩
abbrev main_v53_1 : Ref sig .tc := ⟨.hbm, 85, rfl⟩
abbrev main_v54 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28
abbrev cc3_sem4_0 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem3_1 : DmaSem sig := 43
abbrev cc5_sem4_0 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  reduces_S5000x128_S128 : S5000x128.Reduces [0] S128
  shapeCasts_S128_S1x128 : S128.ShapeCasts S1x128
  concatenates_S1x128_S1x128_S1x128_S1x384_d1 : Shape.Concatenates [S1x128, S1x128, S1x128] S1x384 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v27_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v40_1) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v40_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v51) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53_0) S5000x128.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v53_1) S1x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x1 : Shape := ⟨2, ![1, 1]⟩
abbrev S128 : Shape := ⟨1, ![128]⟩
abbrev S1x128 : Shape := ⟨2, ![1, 128]⟩
abbrev S1x256 : Shape := ⟨2, ![1, 256]⟩
abbrev S1x384 : Shape := ⟨2, ![1, 384]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .i1⟩
  | .hbm, ⟨56, _⟩ => ⟨S1x1, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .i1⟩
  | .hbm, ⟨86, _⟩ => ⟨S1x1, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S128, .f32⟩
  | .hbm, ⟨92, _⟩ => ⟨S1x128, .f32⟩
  | .hbm, ⟨93, _⟩ => ⟨S1x256, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S_, .i32⟩
  | .hbm, ⟨99, _⟩ => ⟨S800000, .i32⟩
  | .hbm, ⟨100, _⟩ => ⟨S800000, .i1⟩
  | .hbm, ⟨101, _⟩ => ⟨S_, .i32⟩
  | .hbm, ⟨102, _⟩ => ⟨S800000, .i32⟩
  | .hbm, ⟨103, _⟩ => ⟨S800000, .i32⟩
  | .hbm, ⟨104, _⟩ => ⟨S800000, .i32⟩
  | .hbm, ⟨105, _⟩ => ⟨S800000x1, .i32⟩
  | .hbm, ⟨106, _⟩ => ⟨S800000x128, .f32⟩
  | .hbm, ⟨107, _⟩ => ⟨S_, .f32⟩
  | .hbm, ⟨108, _⟩ => ⟨S50000x128, .f32⟩
  | .hbm, ⟨109, _⟩ => ⟨S800000x1, .i32⟩
  | .hbm, ⟨110, _⟩ => ⟨S50000x128, .f32⟩
  | .hbm, ⟨111, _⟩ => ⟨S50000x1, .f32⟩
  | .hbm, ⟨112, _⟩ => ⟨S50000x128, .f32⟩
  | .hbm, ⟨113, _⟩ => ⟨S50000x128, .f32⟩
  | .hbm, ⟨114, _⟩ => ⟨S_, .f32⟩
  | .hbm, ⟨115, _⟩ => ⟨S50000x128, .f32⟩
  | .hbm, ⟨116, _⟩ => ⟨S50000x128, .i1⟩
  | .hbm, ⟨117, _⟩ => ⟨S1x1, .f32⟩
  | .hbm, ⟨118, _⟩ => ⟨S50000x128, .f32⟩
  | .hbm, ⟨119, _⟩ => ⟨S50000x128, .f32⟩
  | .hbm, ⟨120, _⟩ => ⟨S50000x128, .f32⟩
  | .hbm, ⟨121, _⟩ => ⟨S_, .f32⟩
  | .hbm, ⟨122, _⟩ => ⟨S128, .f32⟩
  | .hbm, ⟨123, _⟩ => ⟨S1x128, .f32⟩
  | .hbm, ⟨124, _⟩ => ⟨S1x384, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  reducesTo_S50000x128_S128_d0 : S50000x128.ReducesTo [0] S128
  h_S_ : 0 < S_.numel
  bcast_S128_S1x128_1 : S128.BroadcastsInDim S1x128 (![1] : Fin 1 → Fin S1x128.rank)
  concatenates_S1x128_S1x128_S1x256_d1 : Shape.Concatenates [S1x128, S1x128] S1x256 1
  concatenates_S1x256_S1x128_S1x384_d1 : Shape.Concatenates [S1x256, S1x128] S1x384 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.ProjectRegion0.lean ====
/- Region 0 of @main (`cc0__project_kernel`, pipeline 0), at a parameter `V` — the TensorCore's buffer contents
   when the region is entered: each window's block at a grid point, what the body leaves in the output window's
   staging buffer as a function of the three input blocks, the body's triple, the pipeline's proof data and the body
   obligation the launch theorems take. The body loads its three inputs whole, loads the output buffer once (unused)
   and stores one payload over the whole output buffer; there is one control case. -/
import proofs.«172984_j19241453486477_1_alg».proof.Proof.Gen.KernelIdeal.Launch
import proofs.«172984_j19241453486477_1_alg».proof.Proof.Gen.KernelIdeal.Skeleton
import proofs.«172984_j19241453486477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2, which is fetched at the first point only: where it is not fetched its block index
    has not moved, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0
abbrev r0_2 : Rect S128x128 := Rect.unit (s := S128x128) ![0, 0] S128x128.size inb_S128x128_S128x128_0_0

/-- The offsets `![0, 0]` are the zero offsets. -/
theorem hz0 : (![0, 0] : Fin 2 → Nat) = fun _ => 0 := funext fun a => by fin_cases a <;> rfl

/-! ## What the body leaves in the output window's buffer -/

/-- Window 3's staging buffer after the body, from the input windows' blocks: its one store as a piece. -/
def out0_3 (x0 : Vec F S5000x128 .f32) (x1 : Vec F S5000x1 .f32) (x2 : Vec F S128x128 .f32) : Vec F S5000x128 .f32 :=
  View.canon [⟨r0_0, k0_pay1 (View.ld x0 r0_0) (View.ld x1 r0_1) (View.ld x2 r0_2)⟩]

/-- The one store is of the whole buffer, so it covers it. -/
theorem cover0_3 (p0 : Vec F S5000x128 .f32) (y : S5000x128.Idx) :
    ∃ pc ∈ ([⟨r0_0, p0⟩] : List (View.Piece (Elt F) S5000x128 .f32)), y ∈ pc.1.set :=
  ⟨_, List.mem_singleton_self _, View.mem_set_unit_zero hz0 inb_S5000x128_S5000x128_0_0 y⟩

/-- The store covers the whole buffer and every load is of a whole buffer: the output buffer is left at the payload
    of the three input buffers. -/
theorem out0_3_eq (x0 : Vec F S5000x128 .f32) (x1 : Vec F S5000x1 .f32) (x2 : Vec F S128x128 .f32) :
    out0_3 x0 x1 x2 = k0_pay1 x0 x1 x2 := by
  unfold out0_3
  rw [View.canon_unit_zero hz0]
  rw [View.ld_unit_zero (S := S5000x128) hz0, View.ld_unit_zero (S := S5000x1) hz0, View.ld_unit_zero (S := S128x128) hz0]

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.ProjectRegion2.lean ====
/- Region 2 of @main (`cc2__project_kernel`, pipeline 2), at a parameter `V` — the TensorCore's buffer contents
   when the region is entered: each window's block at a grid point, what the body leaves in the output window's
   staging buffer as a function of the three input blocks, the body's triple, the pipeline's proof data and the body
   obligation the launch theorems take. The body loads its three inputs whole, loads the output buffer once (unused)
   and stores one payload over the whole output buffer; there is one control case. -/
import proofs.«172984_j19241453486477_1_alg».proof.Proof.Gen.KernelIdeal.Launch
import proofs.«172984_j19241453486477_1_alg».proof.Proof.Gen.KernelIdeal.Skeleton
import proofs.«172984_j19241453486477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2, which is fetched at the first point only: where it is not fetched its block index
    has not moved, so the buffer still holds this point's block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole buffer -/

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0
abbrev r2_2 : Rect S128x128 := Rect.unit (s := S128x128) ![0, 0] S128x128.size inb_S128x128_S128x128_0_0

/-- The offsets `![0, 0]` are the zero offsets. -/
theorem hz2 : (![0, 0] : Fin 2 → Nat) = fun _ => 0 := funext fun a => by fin_cases a <;> rfl

/-! ## What the body leaves in the output window's buffer -/

/-- Window 3's staging buffer after the body, from the input windows' blocks: its one store as a piece. -/
def out2_3 (x0 : Vec F S5000x128 .f32) (x1 : Vec F S5000x1 .f32) (x2 : Vec F S128x128 .f32) : Vec F S5000x128 .f32 :=
  View.canon [⟨r2_0, k2_pay1 (View.ld x0 r2_0) (View.ld x1 r2_1) (View.ld x2 r2_2)⟩]

/-- The one store is of the whole buffer, so it covers it. -/
theorem cover2_3 (p0 : Vec F S5000x128 .f32) (y : S5000x128.Idx) :
    ∃ pc ∈ ([⟨r2_0, p0⟩] : List (View.Piece (Elt F) S5000x128 .f32)), y ∈ pc.1.set :=
  ⟨_, List.mem_singleton_self _, View.mem_set_unit_zero hz2 inb_S5000x128_S5000x128_0_0 y⟩

/-- The store covers the whole buffer and every load is of a whole buffer: the output buffer is left at the payload
    of the three input buffers. -/
theorem out2_3_eq (x0 : Vec F S5000x128 .f32) (x1 : Vec F S5000x1 .f32) (x2 : Vec F S128x128 .f32) :
    out2_3 x0 x1 x2 = k2_pay1 x0 x1 x2 := by
  unfold out2_3
  rw [View.canon_unit_zero hz2]
  rw [View.ld_unit_zero (S := S5000x128) hz2, View.ld_unit_zero (S := S5000x1) hz2, View.ld_unit_zero (S := S128x128) hz2]

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords)
    (arg1 : Memref sig .tc .vmem S5000x128 .f32) (harg1 : arg1.IsWhole) (arg2 : Memref sig .tc .vmem S5000x1 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__project_kernel i arg1 harg1 arg2 harg2 arg3 harg3 arg4 harg4) K := by
  simp only [cc2__project_kernel_eq_skeleton]; unfold cc2__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.ProjectRegion4.lean ====
/- Region 4 of @main (`cc4__project_kernel`, pipeline 4), at a parameter `V` — the TensorCore's buffer contents
   when the region is entered: each window's block at a grid point, what the body leaves in the output window's
   staging buffer as a function of the three input blocks, the body's triple, the pipeline's proof data and the body
   obligation the launch theorems take. The body loads its three inputs whole, loads the output buffer once (unused)
   and stores one payload over the whole output buffer; there is one control case. -/
import proofs.«172984_j19241453486477_1_alg».proof.Proof.Gen.KernelIdeal.Launch
import proofs.«172984_j19241453486477_1_alg».proof.Proof.Gen.KernelIdeal.Skeleton
import proofs.«172984_j19241453486477_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s (`hA`) and whose body leaves the block in place (`hafter`): the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same for input window 2, which is fetched at the first point only: where it is not fetched its block index
    has not moved, so the buffer still holds this point's block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole buffer -/

abbrev r4_0 : Rect S5000x128 := Rect.unit (s := S5000x128) ![0, 0] S5000x128.size inb_S5000x128_S5000x128_0_0
abbrev r4_1 : Rect S5000x1 := Rect.unit (s := S5000x1) ![0, 0] S5000x1.size inb_S5000x1_S5000x1_0_0
abbrev r4_2 : Rect S128x128 := Rect.unit (s := S128x128) ![0, 0] S128x128.size inb_S128x128_S128x128_0_0

/-- The offsets `![0, 0]` are the zero offsets. -/
theorem hz4 : (![0, 0] : Fin 2 → Nat) = fun _ => 0 := funext fun a => by fin_cases a <;> rfl

/-! ## What the body leaves in the output window's buffer -/

/-- Window 3's staging buffer after the body, from the input windows' blocks: its one store as a piece. -/
def out4_3 (x0 : Vec F S5000x128 .f32) (x1 : Vec F S5000x1 .f32) (x2 : Vec F S128x128 .f32) : Vec F S5000x128 .f32 :=
  View.canon [⟨r4_0, k4_pay1 (View.ld x0 r4_0) (View.ld x1 r4_1) (View.ld x2 r4_2)⟩]

/-- The one store is of the whole buffer, so it covers it. -/
theorem cover4_3 (p0 : Vec F S5000x128 .f32) (y : S5000x128.Idx) :
    ∃ pc ∈ ([⟨r4_0, p0⟩] : List (View.Piece (Elt F) S5000x128 .f32)), y ∈ pc.1.set :=
  ⟨_, List.mem_singleton_self _, View.mem_set_unit_zero hz4 inb_S5000x128_S5000x128_0_0 y⟩

/-- The store covers the whole buffer and every load is of a whole buffer: the output buffer is left at the payload
    of the three input buffers. -/
theorem out4_3_eq (x0 : Vec F S5000x128 .f32) (x1 : Vec F S5000x1 .f32) (x2 : Vec F S128x128 .f32) :
    out4_3 x0 x1 x2 = k4_pay1 x0 x1 x2 := by
  unfold out4_3
  rw [View.canon_unit_zero hz4]
  rw [View.ld_unit_zero (S := S5000x128) hz4, View.ld_unit_zero (S := S5000x1) hz4, View.ld_unit_zero (S := S128x128) hz4]

/-! ## The body's triple -/

set_option maxHeartbeats 1000000 in
/-- The kernel body on whole staging memrefs, the inputs' at read contents `xW` and the output's at anything, runs to
    the continuation holding the inputs' as they were and the output's at `out4_3` of the inputs'. -/
theorem sound_kernel4 (c : Dev nD) (E : Set ℕ) (i : grid4.Coords)
    (arg1 : Memref sig .tc .vmem S5000x128 .f32) (harg1 : arg1.IsWhole) (arg2 : Memref sig .tc .vmem S5000x1 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__project_kernel i arg1 harg1 arg2 harg2 arg3 harg3 arg4 harg4) K := by
  simp only [cc4__project_kernel_eq_skeleton]; unfold cc4__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.PostRegion1.lean ====
/- The three-layer graph convolution's POST region 1 (custom_call 1, `cc1__post_kernel`), at a parameter `V` — the
   TensorCore's buffer contents when the region is entered: each window's block at a point, the accumulator the
   kernel carries between grid points in its scratch operand stated by recursion on the point, the body's triple
   in each of its three control cases (first point, middle points, last point), the proof data, the body
   obligation, and the invariant's entry and exit. Every store of this body covers its whole buffer, so what a
   buffer holds after the body is stated directly as the store's payload. -/
import proofs.«172984_j19241453486477_1_alg».proof.Proof.Gen.KernelIdeal.Launch
import proofs.«172984_j19241453486477_1_alg».proof.Proof.Gen.KernelIdeal.Skeleton
import proofs.«172984_j19241453486477_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: an unfetched input's block index has not
    moved. Windows 0 and 1 are fetched at every point, window 2 (one constant block) at the first only. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

/-- The body's first conditional: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The body's second conditional: the point is the grid's last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last point the second output is idle (the body stores nothing into it) and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last point it is live. -/
theorem liveAt1_4 : ∀ t : Fin cfg1.N, cond1_1 (grid1.coords t) → cfg1.idle 4 (grid1.coords t) = false := by decide +kernel

/-! ## The body's triple, case by case -/

/-- Every access of this body is through the whole-buffer rectangle: its offsets are zero. -/
theorem postHz : (![0, 0] : Fin 2 → Nat) = fun _ => 0 := funext fun a => by fin_cases a <;> rfl

/-- After writes the last of which stores `w` through the whole-buffer rectangle, any view of the buffer reads `w`,
    whatever the earlier writes and the prior contents were. -/
theorem post_read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- MIDDLE POINTS (neither conditional taken): the inputs stay, the first output is left at the activation
    `k1_pay2` of the input blocks, the second output untouched, the scratch at `k1_pay3` of the inputs and of what
    it held. -/
theorem sound_kernel1_B (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i)
    (x0 : Vec F S5000x128 .f32) (x1 : Vec F S5000x1 .f32) (x2 : Vec F S1x1 .f32) (xi : Vec F S1x128 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare xi
            ∗ owns (c : Thread nD τ) arg6 fullShare (k1_pay3 x0 x1 x2 xs)) -∗ K ⟨⟩))
      ⊢ wp frame (wpE (defs₀ (F := F)) Variants.none c none) E (cc1__post_kernel i arg1 harg1 arg2 harg2 arg3 harg3 arg4 harg4 arg5 harg5 arg6 harg6) K := by
  simp only [cc1__post_kernel_eq_skeleton]; unfold cc1__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  subst hf0; subst hf1; subst hf2; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE FIRST POINT (first conditional taken, second not): the scratch, found at anything, is zeroed (`k1_pay1`)
    and then left at `k1_pay3` of the inputs and of that zero. -/
theorem sound_kernel1_A (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i)
    (x0 : Vec F S5000x128 .f32) (x1 : Vec F S5000x1 .f32) (x2 : Vec F S1x1 .f32) (xi : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare xi
            ∗ owns (c : Thread nD τ) arg6 fullShare (k1_pay3 x0 x1 x2 (k1_pay1 (F := F)))) -∗ K ⟨⟩))
      ⊢ wp frame (wpE (defs₀ (F := F)) Variants.none c none) E (cc1__post_kernel i arg1 harg1 arg2 harg2 arg3 harg3 arg4 harg4 arg5 harg5 arg6 harg6) K := by
  simp only [cc1__post_kernel_eq_skeleton]; unfold cc1__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  sl_unfold_words
  rw [post_read_writes_whole _ _ postHz, View.readCov_unit_zero (S := S1x128) _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE LAST POINT (first conditional not taken, second taken): as at a middle point, and then the scratch's new
    contents are stored whole into the second output, found at anything. -/
theorem sound_kernel1_C (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i)
    (x0 : Vec F S5000x128 .f32) (x1 : Vec F S5000x1 .f32) (x2 : Vec F S1x1 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare (k1_pay3 x0 x1 x2 xs)
            ∗ owns (c : Thread nD τ) arg6 fullShare (k1_pay3 x0 x1 x2 xs)) -∗ K ⟨⟩))
      ⊢ wp frame (wpE (defs₀ (F := F)) Variants.none c none) E (cc1__post_kernel i arg1 harg1 arg2 harg2 arg3 harg3 arg4 harg4 arg5 harg5 arg6 harg6) K := by
  simp only [cc1__post_kernel_eq_skeleton]; unfold cc1__post_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists _; isplitr
    swap; · iexact H4
    ipureintro
    sl_unfold_words
    rw [post_read_writes_whole _ _ postHz, View.readCov_unit_zero (S := S1x128) _ postHz]
    simp only [View.readAt_eq_ld, View.ld_unit_zero (S := S5000x128) postHz, View.ld_unit_zero (S := S5000x1) postHz, View.ld_unit_zero (S := S1x1) postHz, View.ld_unit_zero (S := S1x128) postHz]
  iexists _; isplitr
  swap; · iexact HS
  ipureintro
  sl_unfold_words
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

/-! ## The accumulator the kernel carries between the points -/

/-- The scratch operand: a whole scoped buffer of the kernel's own, passed beside the windows. -/
abbrev scM1 : Memref sig .tc .vmem S1x128 .f32 := Memref.whole cc1_scratch0

/-- What the scratch holds after the body at point `n`: at the first point the zero block `k1_pay1` with that
    point's column sums added (`k1_pay3`), afterwards what the point before left with this point's added. -/
def acc1 (c : Dev nD) : (n : ℕ) → n < cfg1.N → Vec F S1x128 .f32
  | 0, hn => k1_pay3 (iblk1 V c 0 ⟨0, hn⟩) (iblk1 V c 1 ⟨0, hn⟩) (iblk1 V c 2 ⟨0, hn⟩) (k1_pay1 (F := F))
  | n + 1, hn => k1_pay3 (iblk1 V c 0 ⟨n + 1, hn⟩) (iblk1 V c 1 ⟨n + 1, hn⟩) (iblk1 V c 2 ⟨n + 1, hn⟩) (acc1 c n (Nat.lt_of_succ_lt hn))

theorem acc1_zero (c : Dev nD) (hn : 0 < cfg1.N) :
    acc1 V c 0 hn = k1_pay3 (iblk1 V c 0 ⟨0, hn⟩) (iblk1 V c 1 ⟨0, hn⟩) (iblk1 V c 2 ⟨0, hn⟩) (k1_pay1 (F := F)) := rfl
theorem acc1_succ (c : Dev nD) (n : ℕ) (hn : n + 1 < cfg1.N) :
    acc1 V c (n + 1) hn = k1_pay3 (iblk1 V c 0 ⟨n + 1, hn⟩) (iblk1 V c 1 ⟨n + 1, hn⟩) (iblk1 V c 2 ⟨n + 1, hn⟩) (acc1 V c n (Nat.lt_of_succ_lt hn)) := rfl

/-- The accumulator at the first point, -/
theorem acc1_first (c : Dev nD) (t : Fin cfg1.N) (h0 : t.val = 0) :
    acc1 V c t.val t.isLt = k1_pay3 (iblk1 V c 0 t) (iblk1 V c 1 t) (iblk1 V c 2 t) (k1_pay1 (F := F)) := by
  obtain ⟨n, hn⟩ := t
  cases n with
  | zero => rfl
  | succ n => exact absurd h0 (Nat.succ_ne_zero n)
/-- and at a later one, over what the point before left. -/
theorem acc1_pos (c : Dev nD) (t : Fin cfg1.N) (h0 : t.val ≠ 0) :
    acc1 V c t.val t.isLt = k1_pay3 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd rfl h0
  | succ n => rfl

/-! ## The region invariant -/

/-- The class invariant with the scratch operand as a memref owned at some contents, the other scoped buffers
    unopened beside it. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The invariant before position `n`: before the first point the class's (the scratch at anything); afterwards the
    scratch at what the point before left in it, the other scoped buffers unopened, the generator register at some
    state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block, the first output's at the activation of the input blocks, the second
    output's at the accumulator (consulted at the last point only: elsewhere the window is idle); the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay2 (iblk1 V c 0 t) (iblk1 V c 1 t) (iblk1 V c 2 t)
    | ⟨4, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay2 (iblk1 V c 0 t) (iblk1 V c 1 t) (iblk1 V c 2 t) := by dsimp only [dat1]
theorem after1_4 (c : Dev nD) (t : Fin cfg1.N) : (dat1 V c).after 4 t = acc1 V c t.val t.isLt := by dsimp only [dat1]
/-- What the second output's buffer holds when it is written back: the accumulator after the last point. -/
theorem after1_4_last (c : Dev nD) (h : 9 < cfg1.N) : (dat1 V c).after 4 ⟨9, h⟩ = acc1 V c 9 h := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the scratch at what the point before left (at anything at the first point) and
    takes it back at this point's accumulator; off the last point the second output's buffer is handed back as
    found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h9 : t.val = 9
  · have h0 : t.val ≠ 0 := by omega
    rw [show (dat1 V c).leavesExact 4 t = owns (c : Thread nD τ) (st1_4 t) fullShare ((dat1 V c).after 4 t) from by
      unfold Dat.leavesExact; rw [liveAt1_4 t ((hcond1_1 t).mpr h9)], after1_4]
    rw [acc1_pos V c t h0]
    rw [PhiS1_castSucc V c t, PhiS1_pos V c _ _ h0]
    iintro ⟨⟨⟨HS, HR⟩, Hg⟩, Ho, ⟨%d0, H0⟩, ⟨%d1, H1⟩, ⟨%d2, H2⟩, ⟨%d3, H3⟩, ⟨%d4, H4⟩⟩
    iapply (sound_kernel1_C c Set.univ (grid1.coords t) _ _ _ _ _ _ _ _ _ _ _ _ (fun h => h0 ((hcond1_0 t).mp h)) ((hcond1_1 t).mpr h9)
      (iblk1 V c 0 t) (iblk1 V c 1 t) (iblk1 V c 2 t) _ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h9 ((hcond1_1 t).mp h))) (noFlush1_4 t (fun h => h9 ((hcond1_1 t).mp h)))]
    by_cases h0 : t.val = 0
    · rw [acc1_first V c t h0]
      rw [PhiS1_castSucc V c t, PhiS1_zero V c _ _ h0, PhiA1_eq]
      iintro ⟨⟨⟨HS, HR⟩, Hg⟩, Ho, ⟨%d0, H0⟩, ⟨%d1, H1⟩, ⟨%d2, H2⟩, ⟨%d3, H3⟩, ⟨%d4, H4⟩⟩
      iapply (sound_kernel1_A c Set.univ (grid1.coords t) _ _ _ _ _ _ _ _ _ _ _ _ ((hcond1_0 t).mpr h0) (fun h => h9 ((hcond1_1 t).mp h))
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [acc1_pos V c t h0]
      rw [PhiS1_castSucc V c t, PhiS1_pos V c _ _ h0]
      iintro ⟨⟨⟨HS, HR⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ (fun h => h0 ((hcond1_0 t).mp h)) (fun h => h9 ((hcond1_1 t).mp h))
        (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]; · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

/-- info: 'Cert.KernelIdeal.Hand.body_obligation1' depends on axioms: [propext, Classical.choice, Quot.sound] -/
#guard_msgs in #print axioms body_obligation1

end Cert.KernelIdeal.Hand

end
-- ==== Proof.PostRegion3.lean ====
/- The three-layer graph convolution's POST region 3 (custom_call 3, `cc3__post_kernel`), at a parameter `V` — the
   TensorCore's buffer contents when the region is entered: each window's block at a point, the accumulator the
   kernel carries between grid points in its scratch operand stated by recursion on the point, the body's triple
   in each of its three control cases (first point, middle points, last point), the proof data, the body
   obligation, and the invariant's entry and exit. Every store of this body covers its whole buffer, so what a
   buffer holds after the body is stated directly as the store's payload. -/
import proofs.«172984_j19241453486477_1_alg».proof.Proof.Gen.KernelIdeal.Launch
import proofs.«172984_j19241453486477_1_alg».proof.Proof.Gen.KernelIdeal.Skeleton
import proofs.«172984_j19241453486477_1_alg».proof.Proof.Gen.KernelIdeal.Points
import proofs.«172984_j19241453486477_1_alg».proof.Proof.PostRegion1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: an unfetched input's block index has not
    moved. Windows 0 and 1 are fetched at every point, window 2 (one constant block) at the first only. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions, decided over the grid -/

/-- The body's first conditional: the point is the grid's first. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
/-- The body's second conditional: the point is the grid's last. -/
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Off the last point the second output is idle (the body stores nothing into it) and is not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last point it is live. -/
theorem liveAt3_4 : ∀ t : Fin cfg3.N, cond3_1 (grid3.coords t) → cfg3.idle 4 (grid3.coords t) = false := by decide +kernel

/-! ## The body's triple, case by case -/

set_option maxHeartbeats 1000000 in
/-- MIDDLE POINTS (neither conditional taken): the inputs stay, the first output is left at the activation
    `k3_pay2` of the input blocks, the second output untouched, the scratch at `k3_pay3` of the inputs and of what
    it held. -/
theorem sound_kernel3_B (c : Dev nD) (E : Set ℕ) (i : grid3.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond3_0 i) (hc1 : ¬cond3_1 i)
    (x0 : Vec F S5000x128 .f32) (x1 : Vec F S5000x1 .f32) (x2 : Vec F S1x1 .f32) (xi : Vec F S1x128 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare xi
            ∗ owns (c : Thread nD τ) arg6 fullShare (k3_pay3 x0 x1 x2 xs)) -∗ K ⟨⟩))
      ⊢ wp frame (wpE (defs₀ (F := F)) Variants.none c none) E (cc3__post_kernel i arg1 harg1 arg2 harg2 arg3 harg3 arg4 harg4 arg5 harg5 arg6 harg6) K := by
  simp only [cc3__post_kernel_eq_skeleton]; unfold cc3__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  subst hf0; subst hf1; subst hf2; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE FIRST POINT (first conditional taken, second not): the scratch, found at anything, is zeroed (`k3_pay1`)
    and then left at `k3_pay3` of the inputs and of that zero. -/
theorem sound_kernel3_A (c : Dev nD) (E : Set ℕ) (i : grid3.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : cond3_0 i) (hc1 : ¬cond3_1 i)
    (x0 : Vec F S5000x128 .f32) (x1 : Vec F S5000x1 .f32) (x2 : Vec F S1x1 .f32) (xi : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare xi
            ∗ owns (c : Thread nD τ) arg6 fullShare (k3_pay3 x0 x1 x2 (k3_pay1 (F := F)))) -∗ K ⟨⟩))
      ⊢ wp frame (wpE (defs₀ (F := F)) Variants.none c none) E (cc3__post_kernel i arg1 harg1 arg2 harg2 arg3 harg3 arg4 harg4 arg5 harg5 arg6 harg6) K := by
  simp only [cc3__post_kernel_eq_skeleton]; unfold cc3__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  sl_unfold_words
  rw [post_read_writes_whole _ _ postHz, View.readCov_unit_zero (S := S1x128) _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE LAST POINT (first conditional not taken, second taken): as at a middle point, and then the scratch's new
    contents are stored whole into the second output, found at anything. -/
theorem sound_kernel3_C (c : Dev nD) (E : Set ℕ) (i : grid3.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond3_0 i) (hc1 : cond3_1 i)
    (x0 : Vec F S5000x128 .f32) (x1 : Vec F S5000x1 .f32) (x2 : Vec F S1x1 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare (k3_pay3 x0 x1 x2 xs)
            ∗ owns (c : Thread nD τ) arg6 fullShare (k3_pay3 x0 x1 x2 xs)) -∗ K ⟨⟩))
      ⊢ wp frame (wpE (defs₀ (F := F)) Variants.none c none) E (cc3__post_kernel i arg1 harg1 arg2 harg2 arg3 harg3 arg4 harg4 arg5 harg5 arg6 harg6) K := by
  simp only [cc3__post_kernel_eq_skeleton]; unfold cc3__post_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists _; isplitr
    swap; · iexact H4
    ipureintro
    sl_unfold_words
    rw [post_read_writes_whole _ _ postHz, View.readCov_unit_zero (S := S1x128) _ postHz]
    simp only [View.readAt_eq_ld, View.ld_unit_zero (S := S5000x128) postHz, View.ld_unit_zero (S := S5000x1) postHz, View.ld_unit_zero (S := S1x1) postHz, View.ld_unit_zero (S := S1x128) postHz]
  iexists _; isplitr
  swap; · iexact HS
  ipureintro
  sl_unfold_words
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

/-! ## The accumulator the kernel carries between the points -/

/-- The scratch operand: a whole scoped buffer of the kernel's own, passed beside the windows. -/
abbrev scM3 : Memref sig .tc .vmem S1x128 .f32 := Memref.whole cc3_scratch0

/-- What the scratch holds after the body at point `n`: at the first point the zero block `k3_pay1` with that
    point's column sums added (`k3_pay3`), afterwards what the point before left with this point's added. -/
def acc3 (c : Dev nD) : (n : ℕ) → n < cfg3.N → Vec F S1x128 .f32
  | 0, hn => k3_pay3 (iblk3 V c 0 ⟨0, hn⟩) (iblk3 V c 1 ⟨0, hn⟩) (iblk3 V c 2 ⟨0, hn⟩) (k3_pay1 (F := F))
  | n + 1, hn => k3_pay3 (iblk3 V c 0 ⟨n + 1, hn⟩) (iblk3 V c 1 ⟨n + 1, hn⟩) (iblk3 V c 2 ⟨n + 1, hn⟩) (acc3 c n (Nat.lt_of_succ_lt hn))

theorem acc3_zero (c : Dev nD) (hn : 0 < cfg3.N) :
    acc3 V c 0 hn = k3_pay3 (iblk3 V c 0 ⟨0, hn⟩) (iblk3 V c 1 ⟨0, hn⟩) (iblk3 V c 2 ⟨0, hn⟩) (k3_pay1 (F := F)) := rfl
theorem acc3_succ (c : Dev nD) (n : ℕ) (hn : n + 1 < cfg3.N) :
    acc3 V c (n + 1) hn = k3_pay3 (iblk3 V c 0 ⟨n + 1, hn⟩) (iblk3 V c 1 ⟨n + 1, hn⟩) (iblk3 V c 2 ⟨n + 1, hn⟩) (acc3 V c n (Nat.lt_of_succ_lt hn)) := rfl

/-- The accumulator at the first point, -/
theorem acc3_first (c : Dev nD) (t : Fin cfg3.N) (h0 : t.val = 0) :
    acc3 V c t.val t.isLt = k3_pay3 (iblk3 V c 0 t) (iblk3 V c 1 t) (iblk3 V c 2 t) (k3_pay1 (F := F)) := by
  obtain ⟨n, hn⟩ := t
  cases n with
  | zero => rfl
  | succ n => exact absurd h0 (Nat.succ_ne_zero n)
/-- and at a later one, over what the point before left. -/
theorem acc3_pos (c : Dev nD) (t : Fin cfg3.N) (h0 : t.val ≠ 0) :
    acc3 V c t.val t.isLt = k3_pay3 (iblk3 V c 0 t) (iblk3 V c 1 t) (iblk3 V c 2 t) (acc3 V c (t.val - 1) (Nat.lt_of_le_of_lt (Nat.sub_le _ _) t.isLt)) := by
  obtain ⟨n, hn⟩ := t
  cases n with
  | zero => exact absurd rfl h0
  | succ n => rfl

/-! ## The region invariant -/

/-- The class invariant with the scratch operand as a memref owned at some contents, the other scoped buffers
    unopened beside it. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- The invariant before position `n`: before the first point the class's (the scratch at anything); afterwards the
    scratch at what the point before left in it, the other scoped buffers unopened, the generator register at some
    state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block, the first output's at the activation of the input blocks, the second
    output's at the accumulator (consulted at the last point only: elsewhere the window is idle); the invariant
    `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay2 (iblk3 V c 0 t) (iblk3 V c 1 t) (iblk3 V c 2 t)
    | ⟨4, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay2 (iblk3 V c 0 t) (iblk3 V c 1 t) (iblk3 V c 2 t) := by dsimp only [dat3]
theorem after3_4 (c : Dev nD) (t : Fin cfg3.N) : (dat3 V c).after 4 t = acc3 V c t.val t.isLt := by dsimp only [dat3]
/-- What the second output's buffer holds when it is written back: the accumulator after the last point. -/
theorem after3_4_last (c : Dev nD) (h : 9 < cfg3.N) : (dat3 V c).after 4 ⟨9, h⟩ = acc3 V c 9 h := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the closed forms say which case the point is in;
    the invariant hands the body the scratch at what the point before left (at anything at the first point) and
    takes it back at this point's accumulator; off the last point the second output's buffer is handed back as
    found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  by_cases h9 : t.val = 9
  · have h0 : t.val ≠ 0 := by omega
    rw [show (dat3 V c).leavesExact 4 t = owns (c : Thread nD τ) (st3_4 t) fullShare ((dat3 V c).after 4 t) from by
      unfold Dat.leavesExact; rw [liveAt3_4 t ((hcond3_1 t).mpr h9)], after3_4]
    rw [acc3_pos V c t h0]
    rw [PhiS3_castSucc V c t, PhiS3_pos V c _ _ h0]
    iintro ⟨⟨⟨HS, HR⟩, Hg⟩, Ho, ⟨%d0, H0⟩, ⟨%d1, H1⟩, ⟨%d2, H2⟩, ⟨%d3, H3⟩, ⟨%d4, H4⟩⟩
    iapply (sound_kernel3_C c Set.univ (grid3.coords t) _ _ _ _ _ _ _ _ _ _ _ _ (fun h => h0 ((hcond3_0 t).mp h)) ((hcond3_1 t).mpr h9)
      (iblk3 V c 0 t) (iblk3 V c 1 t) (iblk3 V c 2 t) _ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat3 V c) 4 t (idleAt3_4 t (fun h => h9 ((hcond3_1 t).mp h))) (noFlush3_4 t (fun h => h9 ((hcond3_1 t).mp h)))]
    by_cases h0 : t.val = 0
    · rw [acc3_first V c t h0]
      rw [PhiS3_castSucc V c t, PhiS3_zero V c _ _ h0, PhiA3_eq]
      iintro ⟨⟨⟨HS, HR⟩, Hg⟩, Ho, ⟨%d0, H0⟩, ⟨%d1, H1⟩, ⟨%d2, H2⟩, ⟨%d3, H3⟩, ⟨%d4, H4⟩⟩
      iapply (sound_kernel3_A c Set.univ (grid3.coords t) _ _ _ _ _ _ _ _ _ _ _ _ ((hcond3_0 t).mpr h0) (fun h => h9 ((hcond3_1 t).mp h))
        (iblk3 V c 0 t) (iblk3 V c 1 t) (iblk3 V c 2 t) _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [acc3_pos V c t h0]
      rw [PhiS3_castSucc V c t, PhiS3_pos V c _ _ h0]
      iintro ⟨⟨⟨HS, HR⟩, Hg⟩, Ho, ⟨%d0, H0⟩, ⟨%d1, H1⟩, ⟨%d2, H2⟩, ⟨%d3, H3⟩, ⟨%d4, H4⟩⟩
      iapply (sound_kernel3_B c Set.univ (grid3.coords t) _ _ _ _ _ _ _ _ _ _ _ _ (fun h => h0 ((hcond3_0 t).mp h)) (fun h => h9 ((hcond3_1 t).mp h))
        (iblk3 V c 0 t) (iblk3 V c 1 t) (iblk3 V c 2 t) _ _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (the class invariant) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class invariant back: the scratch's named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]; · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 10 := N_3; omega)

/-- info: 'Cert.KernelIdeal.Hand.body_obligation3' depends on axioms: [propext, Classical.choice, Quot.sound] -/
#guard_msgs in #print axioms body_obligation3

end Cert.KernelIdeal.Hand

end
-- ==== Proof.PostRegion5.lean ====
/- The three-layer graph convolution's POST region 5 (custom_call 5, `cc5__post_kernel`), at a parameter `V` — the
   TensorCore's buffer contents when the region is entered: each window's block at a point, the accumulator the
   kernel carries between grid points in its scratch operand stated by recursion on the point, the body's triple
   in each of its three control cases (first point, middle points, last point), the proof data, the body
   obligation, and the invariant's entry and exit. Every store of this body covers its whole buffer, so what a
   buffer holds after the body is stated directly as the store's payload. -/
import proofs.«172984_j19241453486477_1_alg».proof.Proof.Gen.KernelIdeal.Launch
import proofs.«172984_j19241453486477_1_alg».proof.Proof.Gen.KernelIdeal.Skeleton
import proofs.«172984_j19241453486477_1_alg».proof.Proof.Gen.KernelIdeal.Points
import proofs.«172984_j19241453486477_1_alg».proof.Proof.PostRegion1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is `V`'s and whose body leaves the block in place: an unfetched input's block index has not
    moved. Windows 0 and 1 are fetched at every point, window 2 (one constant block) at the first only. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions, decided over the grid -/

/-- The body's first conditional: the point is the grid's first. -/
abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)
/-- The body's second conditional: the point is the grid's last. -/
abbrev cond5_1 (i : grid5.Coords) : Prop := k5_cond2 i = 1#1
theorem hcond5_1 : ∀ t : Fin cfg5.N, cond5_1 (grid5.coords t) ↔ t.val = 9 :=
  (by decide +kernel : ∀ t : Fin grid5.N, cond5_1 (grid5.coords t) ↔ t.val = 9)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
/-- Off the last point the second output is idle (the body stores nothing into it) and is not written back. -/
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
/-- At the last point it is live. -/
theorem liveAt5_4 : ∀ t : Fin cfg5.N, cond5_1 (grid5.coords t) → cfg5.idle 4 (grid5.coords t) = false := by decide +kernel

/-! ## The body's triple, case by case -/

set_option maxHeartbeats 1000000 in
/-- MIDDLE POINTS (neither conditional taken): the inputs stay, the first output is left at the activation
    `k5_pay2` of the input blocks, the second output untouched, the scratch at `k5_pay3` of the inputs and of what
    it held. -/
theorem sound_kernel5_B (c : Dev nD) (E : Set ℕ) (i : grid5.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond5_0 i) (hc1 : ¬cond5_1 i)
    (x0 : Vec F S5000x128 .f32) (x1 : Vec F S5000x1 .f32) (x2 : Vec F S1x1 .f32) (xi : Vec F S1x128 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k5_pay2 x0 x1 x2) ∗ owns (c : Thread nD τ) arg5 fullShare xi
            ∗ owns (c : Thread nD τ) arg6 fullShare (k5_pay3 x0 x1 x2 xs)) -∗ K ⟨⟩))
      ⊢ wp frame (wpE (defs₀ (F := F)) Variants.none c none) E (cc5__post_kernel i arg1 harg1 arg2 harg2 arg3 harg3 arg4 harg4 arg5 harg5 arg6 harg6) K := by
  simp only [cc5__post_kernel_eq_skeleton]; unfold cc5__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  subst hf0; subst hf1; subst hf2; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE FIRST POINT (first conditional taken, second not): the scratch, found at anything, is zeroed (`k5_pay1`)
    and then left at `k5_pay3` of the inputs and of that zero. -/
theorem sound_kernel5_A (c : Dev nD) (E : Set ℕ) (i : grid5.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : cond5_0 i) (hc1 : ¬cond5_1 i)
    (x0 : Vec F S5000x128 .f32) (x1 : Vec F S5000x1 .f32) (x2 : Vec F S1x1 .f32) (xi : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k5_pay2 x0 x1 x2) ∗ owns (c : Thread nD τ) arg5 fullShare xi
            ∗ owns (c : Thread nD τ) arg6 fullShare (k5_pay3 x0 x1 x2 (k5_pay1 (F := F)))) -∗ K ⟨⟩))
      ⊢ wp frame (wpE (defs₀ (F := F)) Variants.none c none) E (cc5__post_kernel i arg1 harg1 arg2 harg2 arg3 harg3 arg4 harg4 arg5 harg5 arg6 harg6) K := by
  simp only [cc5__post_kernel_eq_skeleton]; unfold cc5__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  sl_unfold_words
  rw [post_read_writes_whole _ _ postHz, View.readCov_unit_zero (S := S1x128) _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE LAST POINT (first conditional not taken, second taken): as at a middle point, and then the scratch's new
    contents are stored whole into the second output, found at anything. -/
theorem sound_kernel5_C (c : Dev nD) (E : Set ℕ) (i : grid5.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond5_0 i) (hc1 : cond5_1 i)
    (x0 : Vec F S5000x128 .f32) (x1 : Vec F S5000x1 .f32) (x2 : Vec F S1x1 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k5_pay2 x0 x1 x2) ∗ owns (c : Thread nD τ) arg5 fullShare (k5_pay3 x0 x1 x2 xs)
            ∗ owns (c : Thread nD τ) arg6 fullShare (k5_pay3 x0 x1 x2 xs)) -∗ K ⟨⟩))
      ⊢ wp frame (wpE (defs₀ (F := F)) Variants.none c none) E (cc5__post_kernel i arg1 harg1 arg2 harg2 arg3 harg3 arg4 harg4 arg5 harg5 arg6 harg6) K := by
  simp only [cc5__post_kernel_eq_skeleton]; unfold cc5__post_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists _; isplitr
    swap; · iexact H4
    ipureintro
    sl_unfold_words
    rw [post_read_writes_whole _ _ postHz, View.readCov_unit_zero (S := S1x128) _ postHz]
    simp only [View.readAt_eq_ld, View.ld_unit_zero (S := S5000x128) postHz, View.ld_unit_zero (S := S5000x1) postHz, View.ld_unit_zero (S := S1x1) postHz, View.ld_unit_zero (S := S1x128) postHz]
  iexists _; isplitr
  swap; · iexact HS
  ipureintro
  sl_unfold_words
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

/-! ## The accumulator the kernel carries between the points -/

/-- The scratch operand: a whole scoped buffer of the kernel's own, passed beside the windows. -/
abbrev scM5 : Memref sig .tc .vmem S1x128 .f32 := Memref.whole cc5_scratch0

/-- What the scratch holds after the body at point `n`: at the first point the zero block `k5_pay1` with that
    point's column sums added (`k5_pay3`), afterwards what the point before left with this point's added. -/
def acc5 (c : Dev nD) : (n : ℕ) → n < cfg5.N → Vec F S1x128 .f32
  | 0, hn => k5_pay3 (iblk5 V c 0 ⟨0, hn⟩) (iblk5 V c 1 ⟨0, hn⟩) (iblk5 V c 2 ⟨0, hn⟩) (k5_pay1 (F := F))
  | n + 1, hn => k5_pay3 (iblk5 V c 0 ⟨n + 1, hn⟩) (iblk5 V c 1 ⟨n + 1, hn⟩) (iblk5 V c 2 ⟨n + 1, hn⟩) (acc5 c n (Nat.lt_of_succ_lt hn))

theorem acc5_zero (c : Dev nD) (hn : 0 < cfg5.N) :
    acc5 V c 0 hn = k5_pay3 (iblk5 V c 0 ⟨0, hn⟩) (iblk5 V c 1 ⟨0, hn⟩) (iblk5 V c 2 ⟨0, hn⟩) (k5_pay1 (F := F)) := rfl
theorem acc5_succ (c : Dev nD) (n : ℕ) (hn : n + 1 < cfg5.N) :
    acc5 V c (n + 1) hn = k5_pay3 (iblk5 V c 0 ⟨n + 1, hn⟩) (iblk5 V c 1 ⟨n + 1, hn⟩) (iblk5 V c 2 ⟨n + 1, hn⟩) (acc5 V c n (Nat.lt_of_succ_lt hn)) := rfl

/-- The accumulator at the first point, -/
theorem acc5_first (c : Dev nD) (t : Fin cfg5.N) (h0 : t.val = 0) :
    acc5 V c t.val t.isLt = k5_pay3 (iblk5 V c 0 t) (iblk5 V c 1 t) (iblk5 V c 2 t) (k5_pay1 (F := F)) := by
  obtain ⟨n, hn⟩ := t
  cases n with
  | zero => rfl
  | succ n => exact absurd h0 (Nat.succ_ne_zero n)
/-- and at a later one, over what the point before left. -/
theorem acc5_pos (c : Dev nD) (t : Fin cfg5.N) (h0 : t.val ≠ 0) :
    acc5 V c t.val t.isLt = k5_pay3 (iblk5 V c 0 t) (iblk5 V c 1 t) (iblk5 V c 2 t) (acc5 V c (t.val - 1) (Nat.lt_of_le_of_lt (Nat.sub_le _ _) t.isLt)) := by
  obtain ⟨n, hn⟩ := t
  cases n with
  | zero => exact absurd rfl h0
  | succ n => rfl

/-! ## The region invariant -/

/-- The class invariant with the scratch operand as a memref owned at some contents, the other scoped buffers
    unopened beside it. -/
theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-- The invariant before position `n`: before the first point the class's (the scratch at anything); afterwards the
    scratch at what the point before left in it, the other scoped buffers unopened, the generator register at some
    state. -/
def PhiS5 (c : Dev nD) : (n : ℕ) → n ≤ cfg5.N → sProp 𝕄
  | 0, _ => Pipeline.ΦA spec5 c
  | n + 1, hn => iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of pipeline 5 on core `c`: the arrays as the region finds them (`V`); after the body at point `t`
    each input's buffer at its block, the first output's at the activation of the input blocks, the second
    output's at the accumulator (consulted at the last point only: elsewhere the window is idle); the invariant
    `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay2 (iblk5 V c 0 t) (iblk5 V c 1 t) (iblk5 V c 2 t)
    | ⟨4, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k5_pay2 (iblk5 V c 0 t) (iblk5 V c 1 t) (iblk5 V c 2 t) := by dsimp only [dat5]
theorem after5_4 (c : Dev nD) (t : Fin cfg5.N) : (dat5 V c).after 4 t = acc5 V c t.val t.isLt := by dsimp only [dat5]
/-- What the second output's buffer holds when it is written back: the accumulator after the last point. -/
theorem after5_4_last (c : Dev nD) (h : 9 < cfg5.N) : (dat5 V c).after 4 ⟨9, h⟩ = acc5 V c 9 h := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: the inputs' memrefs hold their blocks; the closed forms say which case the point is in;
    the invariant hands the body the scratch at what the point before left (at anything at the first point) and
    takes it back at this point's accumulator; off the last point the second output's buffer is handed back as
    found; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  rw [show (dat5 V c).leavesExact 2 t = owns (c : Thread nD τ) (st5_2 t) fullShare ((dat5 V c).after 2 t) from by
    unfold Dat.leavesExact; rw [liveAt5_2 t], after5_2]
  rw [show (dat5 V c).leavesExact 3 t = owns (c : Thread nD τ) (st5_3 t) fullShare ((dat5 V c).after 3 t) from by
    unfold Dat.leavesExact; rw [liveAt5_3 t], after5_3]
  by_cases h9 : t.val = 9
  · have h0 : t.val ≠ 0 := by omega
    rw [show (dat5 V c).leavesExact 4 t = owns (c : Thread nD τ) (st5_4 t) fullShare ((dat5 V c).after 4 t) from by
      unfold Dat.leavesExact; rw [liveAt5_4 t ((hcond5_1 t).mpr h9)], after5_4]
    rw [acc5_pos V c t h0]
    rw [PhiS5_castSucc V c t, PhiS5_pos V c _ _ h0]
    iintro ⟨⟨⟨HS, HR⟩, Hg⟩, Ho, ⟨%d0, H0⟩, ⟨%d1, H1⟩, ⟨%d2, H2⟩, ⟨%d3, H3⟩, ⟨%d4, H4⟩⟩
    iapply (sound_kernel5_C c Set.univ (grid5.coords t) _ _ _ _ _ _ _ _ _ _ _ _ (fun h => h0 ((hcond5_0 t).mp h)) ((hcond5_1 t).mpr h9)
      (iblk5 V c 0 t) (iblk5 V c 1 t) (iblk5 V c 2 t) _ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat5 V c) 4 t (idleAt5_4 t (fun h => h9 ((hcond5_1 t).mp h))) (noFlush5_4 t (fun h => h9 ((hcond5_1 t).mp h)))]
    by_cases h0 : t.val = 0
    · rw [acc5_first V c t h0]
      rw [PhiS5_castSucc V c t, PhiS5_zero V c _ _ h0, PhiA5_eq]
      iintro ⟨⟨⟨HS, HR⟩, Hg⟩, Ho, ⟨%d0, H0⟩, ⟨%d1, H1⟩, ⟨%d2, H2⟩, ⟨%d3, H3⟩, ⟨%d4, H4⟩⟩
      iapply (sound_kernel5_A c Set.univ (grid5.coords t) _ _ _ _ _ _ _ _ _ _ _ _ ((hcond5_0 t).mpr h0) (fun h => h9 ((hcond5_1 t).mp h))
        (iblk5 V c 0 t) (iblk5 V c 1 t) (iblk5 V c 2 t) _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [acc5_pos V c t h0]
      rw [PhiS5_castSucc V c t, PhiS5_pos V c _ _ h0]
      iintro ⟨⟨⟨HS, HR⟩, Hg⟩, Ho, ⟨%d0, H0⟩, ⟨%d1, H1⟩, ⟨%d2, H2⟩, ⟨%d3, H3⟩, ⟨%d4, H4⟩⟩
      iapply (sound_kernel5_B c Set.univ (grid5.coords t) _ _ _ _ _ _ _ _ _ _ _ _ (fun h => h0 ((hcond5_0 t).mp h)) (fun h => h9 ((hcond5_1 t).mp h))
        (iblk5 V c 0 t) (iblk5 V c 1 t) (iblk5 V c 2 t) _ _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region (the class invariant) is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class invariant back: the scratch's named contents are
    forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]; · iexists _; iexact HS
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 10 := N_5; omega)

/-- info: 'Cert.KernelIdeal.Hand.body_obligation5' depends on axioms: [propext, Classical.choice, Quot.sound] -/
#guard_msgs in #print axioms body_obligation5

end Cert.KernelIdeal.Hand

end
-- ==== Proof.RunAll.lean ====
/- THE RUN of @main: its fifteen items — nine stretches of host operations and six kernel regions — as segments from
   the launch to the return. The buffer contents at each boundary are a fold from the launch memory (a stretch: what its
   operations leave; a region: its windows' arrays at what the write-backs leave, every other buffer as entered). Each
   region is entered from "every unscoped buffer at the boundary's contents, the generator register at some state,
   nothing owed" and left at the same over the next boundary's contents. `run_all`: every weakly fair execution
   terminates without a fault and every final memory holds the last boundary's contents at every unscoped buffer;
   `frame_all`: in particular every argument array ends as launched, because no stretch and no region writes one. -/
import proofs.«172984_j19241453486477_1_alg».proof.Proof.Gen.KernelIdeal.Regions
import proofs.«172984_j19241453486477_1_alg».proof.Proof.ProjectRegion0
import proofs.«172984_j19241453486477_1_alg».proof.Proof.ProjectRegion2
import proofs.«172984_j19241453486477_1_alg».proof.Proof.ProjectRegion4
import proofs.«172984_j19241453486477_1_alg».proof.Proof.PostRegion1
import proofs.«172984_j19241453486477_1_alg».proof.Proof.PostRegion3
import proofs.«172984_j19241453486477_1_alg».proof.Proof.PostRegion5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After item 0, the host stretch `hostOps0`. -/
abbrev W1 : Dev nD → Valuation τ sig (Elt F) := fun c => StableHlo.after hostOps0 (W0 m ρ c)
/-- After item 1, the host stretch `hostOps0_1`. -/
abbrev W2 : Dev nD → Valuation τ sig (Elt F) := fun c => StableHlo.after hostOps0_1 (W1 m ρ c)
/-- After item 2, the host stretch `hostOps0_2`. -/
abbrev W3 : Dev nD → Valuation τ sig (Elt F) := fun c => StableHlo.after hostOps0_2 (W2 m ρ c)
/-- After item 3, the host stretch `hostOps0_3`. -/
abbrev W4 : Dev nD → Valuation τ sig (Elt F) := fun c => StableHlo.after hostOps0_3 (W3 m ρ c)
/-- After item 4, the host stretch `hostOps0_4`. -/
abbrev W5 : Dev nD → Valuation τ sig (Elt F) := fun c => StableHlo.after hostOps0_4 (W4 m ρ c)
/-- Region 0's entry contents read at the TensorCore's references (what its proof data take). -/
abbrev Vin0 : (c : Dev nD) → (b : Ref sig .tc) → Buf (Elt F) ((c : Thread nD τ).loc b) := fun c b => W5 m ρ c b
/-- After item 5, region 0: its arrays at what the pipeline leaves (an input as entered, an output's write-backs
    folded), every other buffer as entered. -/
def W6 (c : Dev nD) : Valuation τ sig (Elt F) :=
  Pipeline.withArrays spec0 c (W5 m ρ c) fun w => (dat0 (Vin0 m ρ) c).arrAt w cfg0.N
theorem W6_arr (c : Dev nD) (w : Fin cfg0.W) :
    W6 m ρ c (Proc.devRef .tc (Pipeline.arrRef spec0 w)) = (dat0 (Vin0 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- Region 0's exit contents read at the TensorCore's references. -/
abbrev Vout0 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (Vin0 m ρ) c).arrAt w cfg0.N = Vout0 m ρ c (Pipeline.arrRef spec0 w) :=
  (W6_arr m ρ c w).symm
theorem hrest0 (c : Dev nD) : ∀ b, b ∉ Finset.univ.image (Pipeline.arrRef spec0) → Vout0 m ρ c b = Vin0 m ρ c b :=
  fun b hb => W6_of_ne m ρ c b fun w e => hb (Finset.mem_image.mpr ⟨w, Finset.mem_univ _, e⟩)
/-- After item 6, the host stretch `hostOps1`. -/
abbrev W7 : Dev nD → Valuation τ sig (Elt F) := fun c => StableHlo.after hostOps1 (W6 m ρ c)
/-- Region 1's entry contents read at the TensorCore's references (what its proof data take). -/
abbrev Vin1 : (c : Dev nD) → (b : Ref sig .tc) → Buf (Elt F) ((c : Thread nD τ).loc b) := fun c b => W7 m ρ c b
/-- After item 7, region 1: its arrays at what the pipeline leaves (an input as entered, an output's write-backs
    folded), every other buffer as entered. -/
def W8 (c : Dev nD) : Valuation τ sig (Elt F) :=
  Pipeline.withArrays spec1 c (W7 m ρ c) fun w => (dat1 (Vin1 m ρ) c).arrAt w cfg1.N
theorem W8_arr (c : Dev nD) (w : Fin cfg1.W) :
    W8 m ρ c (Proc.devRef .tc (Pipeline.arrRef spec1 w)) = (dat1 (Vin1 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- Region 1's exit contents read at the TensorCore's references. -/
abbrev Vout1 : (c : Dev nD) → (b : Ref sig .tc) → Buf (Elt F) ((c : Thread nD τ).loc b) := fun c b => W8 m ρ c b
/-- At region 1's exit each of its arrays holds what the pipeline leaves and every other buffer what it held at entry. -/
theorem hF1 (c : Dev nD) (w : Fin cfg1.W) : (dat1 (Vin1 m ρ) c).arrAt w cfg1.N = Vout1 m ρ c (Pipeline.arrRef spec1 w) :=
  (W8_arr m ρ c w).symm
theorem hrest1 (c : Dev nD) : ∀ b, b ∉ Finset.univ.image (Pipeline.arrRef spec1) → Vout1 m ρ c b = Vin1 m ρ c b :=
  fun b hb => W8_of_ne m ρ c b fun w e => hb (Finset.mem_image.mpr ⟨w, Finset.mem_univ _, e⟩)
/-- Region 2's entry contents read at the TensorCore's references (what its proof data take). -/
abbrev Vin2 : (c : Dev nD) → (b : Ref sig .tc) → Buf (Elt F) ((c : Thread nD τ).loc b) := fun c b => W8 m ρ c b
/-- After item 8, region 2: its arrays at what the pipeline leaves (an input as entered, an output's write-backs
    folded), every other buffer as entered. -/
def W9 (c : Dev nD) : Valuation τ sig (Elt F) :=
  Pipeline.withArrays spec2 c (W8 m ρ c) fun w => (dat2 (Vin2 m ρ) c).arrAt w cfg2.N
theorem W9_arr (c : Dev nD) (w : Fin cfg2.W) :
    W9 m ρ c (Proc.devRef .tc (Pipeline.arrRef spec2 w)) = (dat2 (Vin2 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- Region 2's exit contents read at the TensorCore's references. -/
abbrev Vout2 : (c : Dev nD) → (b : Ref sig .tc) → Buf (Elt F) ((c : Thread nD τ).loc b) := fun c b => W9 m ρ c b
/-- At region 2's exit each of its arrays holds what the pipeline leaves and every other buffer what it held at entry. -/
theorem hF2 (c : Dev nD) (w : Fin cfg2.W) : (dat2 (Vin2 m ρ) c).arrAt w cfg2.N = Vout2 m ρ c (Pipeline.arrRef spec2 w) :=
  (W9_arr m ρ c w).symm
theorem hrest2 (c : Dev nD) : ∀ b, b ∉ Finset.univ.image (Pipeline.arrRef spec2) → Vout2 m ρ c b = Vin2 m ρ c b :=
  fun b hb => W9_of_ne m ρ c b fun w e => hb (Finset.mem_image.mpr ⟨w, Finset.mem_univ _, e⟩)
/-- After item 9, the host stretch `hostOps3`. -/
abbrev W10 : Dev nD → Valuation τ sig (Elt F) := fun c => StableHlo.after hostOps3 (W9 m ρ c)
/-- Region 3's entry contents read at the TensorCore's references (what its proof data take). -/
abbrev Vin3 : (c : Dev nD) → (b : Ref sig .tc) → Buf (Elt F) ((c : Thread nD τ).loc b) := fun c b => W10 m ρ c b
/-- After item 10, region 3: its arrays at what the pipeline leaves (an input as entered, an output's write-backs
    folded), every other buffer as entered. -/
def W11 (c : Dev nD) : Valuation τ sig (Elt F) :=
  Pipeline.withArrays spec3 c (W10 m ρ c) fun w => (dat3 (Vin3 m ρ) c).arrAt w cfg3.N
theorem W11_arr (c : Dev nD) (w : Fin cfg3.W) :
    W11 m ρ c (Proc.devRef .tc (Pipeline.arrRef spec3 w)) = (dat3 (Vin3 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- Region 3's exit contents read at the TensorCore's references. -/
abbrev Vout3 : (c : Dev nD) → (b : Ref sig .tc) → Buf (Elt F) ((c : Thread nD τ).loc b) := fun c b => W11 m ρ c b
/-- At region 3's exit each of its arrays holds what the pipeline leaves and every other buffer what it held at entry. -/
theorem hF3 (c : Dev nD) (w : Fin cfg3.W) : (dat3 (Vin3 m ρ) c).arrAt w cfg3.N = Vout3 m ρ c (Pipeline.arrRef spec3 w) :=
  (W11_arr m ρ c w).symm
theorem hrest3 (c : Dev nD) : ∀ b, b ∉ Finset.univ.image (Pipeline.arrRef spec3) → Vout3 m ρ c b = Vin3 m ρ c b :=
  fun b hb => W11_of_ne m ρ c b fun w e => hb (Finset.mem_image.mpr ⟨w, Finset.mem_univ _, e⟩)
/-- Region 4's entry contents read at the TensorCore's references (what its proof data take). -/
abbrev Vin4 : (c : Dev nD) → (b : Ref sig .tc) → Buf (Elt F) ((c : Thread nD τ).loc b) := fun c b => W11 m ρ c b
/-- After item 11, region 4: its arrays at what the pipeline leaves (an input as entered, an output's write-backs
    folded), every other buffer as entered. -/
def W12 (c : Dev nD) : Valuation τ sig (Elt F) :=
  Pipeline.withArrays spec4 c (W11 m ρ c) fun w => (dat4 (Vin4 m ρ) c).arrAt w cfg4.N
theorem W12_arr (c : Dev nD) (w : Fin cfg4.W) :
    W12 m ρ c (Proc.devRef .tc (Pipeline.arrRef spec4 w)) = (dat4 (Vin4 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- Region 4's exit contents read at the TensorCore's references. -/
abbrev Vout4 : (c : Dev nD) → (b : Ref sig .tc) → Buf (Elt F) ((c : Thread nD τ).loc b) := fun c b => W12 m ρ c b
/-- At region 4's exit each of its arrays holds what the pipeline leaves and every other buffer what it held at entry. -/
theorem hF4 (c : Dev nD) (w : Fin cfg4.W) : (dat4 (Vin4 m ρ) c).arrAt w cfg4.N = Vout4 m ρ c (Pipeline.arrRef spec4 w) :=
  (W12_arr m ρ c w).symm
theorem hrest4 (c : Dev nD) : ∀ b, b ∉ Finset.univ.image (Pipeline.arrRef spec4) → Vout4 m ρ c b = Vin4 m ρ c b :=
  fun b hb => W12_of_ne m ρ c b fun w e => hb (Finset.mem_image.mpr ⟨w, Finset.mem_univ _, e⟩)
/-- After item 12, the host stretch `hostOps5`. -/
abbrev W13 : Dev nD → Valuation τ sig (Elt F) := fun c => StableHlo.after hostOps5 (W12 m ρ c)
/-- Region 5's entry contents read at the TensorCore's references (what its proof data take). -/
abbrev Vin5 : (c : Dev nD) → (b : Ref sig .tc) → Buf (Elt F) ((c : Thread nD τ).loc b) := fun c b => W13 m ρ c b
/-- After item 13, region 5: its arrays at what the pipeline leaves (an input as entered, an output's write-backs
    folded), every other buffer as entered. -/
def W14 (c : Dev nD) : Valuation τ sig (Elt F) :=
  Pipeline.withArrays spec5 c (W13 m ρ c) fun w => (dat5 (Vin5 m ρ) c).arrAt w cfg5.N
theorem W14_arr (c : Dev nD) (w : Fin cfg5.W) :
    W14 m ρ c (Proc.devRef .tc (Pipeline.arrRef spec5 w)) = (dat5 (Vin5 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
/-- Region 5's exit contents read at the TensorCore's references. -/
abbrev Vout5 : (c : Dev nD) → (b : Ref sig .tc) → Buf (Elt F) ((c : Thread nD τ).loc b) := fun c b => W14 m ρ c b
/-- At region 5's exit each of its arrays holds what the pipeline leaves and every other buffer what it held at entry. -/
theorem hF5 (c : Dev nD) (w : Fin cfg5.W) : (dat5 (Vin5 m ρ) c).arrAt w cfg5.N = Vout5 m ρ c (Pipeline.arrRef spec5 w) :=
  (W14_arr m ρ c w).symm
theorem hrest5 (c : Dev nD) : ∀ b, b ∉ Finset.univ.image (Pipeline.arrRef spec5) → Vout5 m ρ c b = Vin5 m ρ c b :=
  fun b hb => W14_of_ne m ρ c b fun w e => hb (Finset.mem_image.mpr ⟨w, Finset.mem_univ _, e⟩)
/-- After item 14, the host stretch `hostOps6`. -/
abbrev W15 : Dev nD → Valuation τ sig (Elt F) := fun c => StableHlo.after hostOps6 (W14 m ρ c)

/-! ### The arguments end as launched: no host operation and no region writes one (a region reads one through an
    input window or bypasses it), so the fold at an argument's buffer walks back to the launch memory -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := StableHlo.after_of_writes_sub hostOps6 _ hostOps6_writes (by decide)
    _ = W13 m ρ c (Proc.devRef .tc main_arg0) := W14_of_ne m ρ c main_arg0 (by decide)
    _ = W12 m ρ c (Proc.devRef .tc main_arg0) := StableHlo.after_of_writes_sub hostOps5 _ hostOps5_writes (by decide)
    _ = W11 m ρ c (Proc.devRef .tc main_arg0) := W12_of_ne m ρ c main_arg0 (by decide)
    _ = W10 m ρ c (Proc.devRef .tc main_arg0) := W11_of_ne m ρ c main_arg0 (by decide)
    _ = W9 m ρ c (Proc.devRef .tc main_arg0) := StableHlo.after_of_writes_sub hostOps3 _ hostOps3_writes (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps1 _ hostOps1_writes (by decide)
    _ = W5 m ρ c (Proc.devRef .tc main_arg0) := (W6_arr m ρ c 0).trans (((dat0 (Vin0 m ρ) c).arrAt_in 0 rfl _).trans (A_eq0 (Vin0 m ρ) c 0))
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := StableHlo.after_of_writes_sub hostOps6 _ hostOps6_writes (by decide)
    _ = W13 m ρ c (Proc.devRef .tc main_arg1) := W14_of_ne m ρ c main_arg1 (by decide)
    _ = W12 m ρ c (Proc.devRef .tc main_arg1) := StableHlo.after_of_writes_sub hostOps5 _ hostOps5_writes (by decide)
    _ = W11 m ρ c (Proc.devRef .tc main_arg1) := W12_of_ne m ρ c main_arg1 (by decide)
    _ = W10 m ρ c (Proc.devRef .tc main_arg1) := W11_of_ne m ρ c main_arg1 (by decide)
    _ = W9 m ρ c (Proc.devRef .tc main_arg1) := StableHlo.after_of_writes_sub hostOps3 _ hostOps3_writes (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := StableHlo.after_of_writes_sub hostOps6 _ hostOps6_writes (by decide)
    _ = W13 m ρ c (Proc.devRef .tc main_arg2) := W14_of_ne m ρ c main_arg2 (by decide)
    _ = W12 m ρ c (Proc.devRef .tc main_arg2) := StableHlo.after_of_writes_sub hostOps5 _ hostOps5_writes (by decide)
    _ = W11 m ρ c (Proc.devRef .tc main_arg2) := W12_of_ne m ρ c main_arg2 (by decide)
    _ = W10 m ρ c (Proc.devRef .tc main_arg2) := W11_of_ne m ρ c main_arg2 (by decide)
    _ = W9 m ρ c (Proc.devRef .tc main_arg2) := StableHlo.after_of_writes_sub hostOps3 _ hostOps3_writes (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := StableHlo.after_of_writes_sub hostOps6 _ hostOps6_writes (by decide)
    _ = W13 m ρ c (Proc.devRef .tc main_arg3) := W14_of_ne m ρ c main_arg3 (by decide)
    _ = W12 m ρ c (Proc.devRef .tc main_arg3) := StableHlo.after_of_writes_sub hostOps5 _ hostOps5_writes (by decide)
    _ = W11 m ρ c (Proc.devRef .tc main_arg3) := W12_of_ne m ρ c main_arg3 (by decide)
    _ = W10 m ρ c (Proc.devRef .tc main_arg3) := W11_of_ne m ρ c main_arg3 (by decide)
    _ = W9 m ρ c (Proc.devRef .tc main_arg3) := StableHlo.after_of_writes_sub hostOps3 _ hostOps3_writes (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := (W6_arr m ρ c 2).trans (((dat0 (Vin0 m ρ) c).arrAt_in 2 rfl _).trans (A_eq0 (Vin0 m ρ) c 2))
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := StableHlo.after_of_writes_sub hostOps6 _ hostOps6_writes (by decide)
    _ = W13 m ρ c (Proc.devRef .tc main_arg4) := W14_of_ne m ρ c main_arg4 (by decide)
    _ = W12 m ρ c (Proc.devRef .tc main_arg4) := StableHlo.after_of_writes_sub hostOps5 _ hostOps5_writes (by decide)
    _ = W11 m ρ c (Proc.devRef .tc main_arg4) := W12_of_ne m ρ c main_arg4 (by decide)
    _ = W10 m ρ c (Proc.devRef .tc main_arg4) := W11_of_ne m ρ c main_arg4 (by decide)
    _ = W9 m ρ c (Proc.devRef .tc main_arg4) := StableHlo.after_of_writes_sub hostOps3 _ hostOps3_writes (by decide)
    _ = W8 m ρ c (Proc.devRef .tc main_arg4) := (W9_arr m ρ c 2).trans (((dat2 (Vin2 m ρ) c).arrAt_in 2 rfl _).trans (A_eq2 (Vin2 m ρ) c 2))
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := W6_of_ne m ρ c main_arg4 (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := StableHlo.after_of_writes_sub hostOps6 _ hostOps6_writes (by decide)
    _ = W13 m ρ c (Proc.devRef .tc main_arg5) := W14_of_ne m ρ c main_arg5 (by decide)
    _ = W12 m ρ c (Proc.devRef .tc main_arg5) := StableHlo.after_of_writes_sub hostOps5 _ hostOps5_writes (by decide)
    _ = W11 m ρ c (Proc.devRef .tc main_arg5) := (W12_arr m ρ c 2).trans (((dat4 (Vin4 m ρ) c).arrAt_in 2 rfl _).trans (A_eq4 (Vin4 m ρ) c 2))
    _ = W10 m ρ c (Proc.devRef .tc main_arg5) := W11_of_ne m ρ c main_arg5 (by decide)
    _ = W9 m ρ c (Proc.devRef .tc main_arg5) := StableHlo.after_of_writes_sub hostOps3 _ hostOps3_writes (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := W6_of_ne m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W15_main_arg6 (c : Dev nD) : W15 m ρ c (Proc.devRef .tc main_arg6) = m ((c : Thread nD τ).loc main_arg6) :=
  calc W15 m ρ c (Proc.devRef .tc main_arg6)
    _ = W14 m ρ c (Proc.devRef .tc main_arg6) := StableHlo.after_of_writes_sub hostOps6 _ hostOps6_writes (by decide)
    _ = W13 m ρ c (Proc.devRef .tc main_arg6) := W14_of_ne m ρ c main_arg6 (by decide)
    _ = W12 m ρ c (Proc.devRef .tc main_arg6) := StableHlo.after_of_writes_sub hostOps5 _ hostOps5_writes (by decide)
    _ = W11 m ρ c (Proc.devRef .tc main_arg6) := W12_of_ne m ρ c main_arg6 (by decide)
    _ = W10 m ρ c (Proc.devRef .tc main_arg6) := W11_of_ne m ρ c main_arg6 (by decide)
    _ = W9 m ρ c (Proc.devRef .tc main_arg6) := StableHlo.after_of_writes_sub hostOps3 _ hostOps3_writes (by decide)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := StableHlo.after_of_writes_sub hostOps6 _ hostOps6_writes (by decide)
    _ = W13 m ρ c (Proc.devRef .tc main_arg7) := W14_of_ne m ρ c main_arg7 (by decide)
    _ = W12 m ρ c (Proc.devRef .tc main_arg7) := StableHlo.after_of_writes_sub hostOps5 _ hostOps5_writes (by decide)
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := StableHlo.after_of_writes_sub hostOps3 _ hostOps3_writes (by decide)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps1 _ hostOps1_writes (by decide)
    _ = W5 m ρ c (Proc.devRef .tc main_arg7) := W6_of_ne m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := StableHlo.after_of_writes_sub hostOps6 _ hostOps6_writes (by decide)
    _ = W13 m ρ c (Proc.devRef .tc main_arg8) := W14_of_ne m ρ c main_arg8 (by decide)
    _ = W12 m ρ c (Proc.devRef .tc main_arg8) := StableHlo.after_of_writes_sub hostOps5 _ hostOps5_writes (by decide)
    _ = W11 m ρ c (Proc.devRef .tc main_arg8) := W12_of_ne m ρ c main_arg8 (by decide)
    _ = W10 m ρ c (Proc.devRef .tc main_arg8) := W11_of_ne m ρ c main_arg8 (by decide)
    _ = W9 m ρ c (Proc.devRef .tc main_arg8) := StableHlo.after_of_writes_sub hostOps3 _ hostOps3_writes (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_writes_sub hostOps1 _ hostOps1_writes (by decide)
    _ = W5 m ρ c (Proc.devRef .tc main_arg8) := W6_of_ne m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state and its `owes`, at nothing. -/
abbrev Rc (c : Dev nD) : sProp 𝕄 := iprop((∃ r, prngReg c r) ∗ ∃ W, owes (c : Thread nD τ) (0 : CellTallies nD τ sig Unit) W)
/-- A host stretch as a segment over the unscoped references from the contents `W`, `Rc` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- REGION 0 over the thread state: entered from every unscoped buffer at `W5`, left at `W6`. Its arrays are split
    out of the unscoped buffers at entry and put back at the exit contents; the generator register goes into the region's
    invariant and comes back; nothing is owed; the kernel has no semaphore of its own. -/
def reg0 : Pipeline.RegionSeg (pcfgs (F := F)) adm (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L₀ lv₀ 0 fun _ _ => rfl
  pre c := iprop(StableHlo.held (c : Thread nD τ) (Pipeline.ucRefs τ sig) (W5 m ρ c) ∗ Rc c)
  post c := iprop(StableHlo.held (c : Thread nD τ) (Pipeline.ucRefs τ sig) (W6 m ρ c) ∗ Rc c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. Its arrays are split
    out of the unscoped buffers at entry and put back at the exit contents; the generator register goes into the region's
    invariant and comes back; nothing is owed; the kernel has no semaphore of its own. -/
def reg1 : Pipeline.RegionSeg (pcfgs (F := F)) adm (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L₀ lv₀ 1 fun _ _ => rfl
  pre c := iprop(StableHlo.held (c : Thread nD τ) (Pipeline.ucRefs τ sig) (W7 m ρ c) ∗ Rc c)
  post c := iprop(StableHlo.held (c : Thread nD τ) (Pipeline.ucRefs τ sig) (W8 m ρ c) ∗ Rc c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (Vin1 m ρ) c).Φ 0 from rfl]
    refine .trans ?_ (hin1 (Vin1 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (Vin1 m ρ) c).Φ (Fin.last cfg1.N) from rfl]
    refine (hout1 (Vin1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are split
    out of the unscoped buffers at entry and put back at the exit contents; the generator register goes into the region's
    invariant and comes back; nothing is owed; the kernel has no semaphore of its own. -/
def reg2 : Pipeline.RegionSeg (pcfgs (F := F)) adm (pdats m ρ) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L₀ lv₀ 2 fun _ _ => rfl
  pre c := iprop(StableHlo.held (c : Thread nD τ) (Pipeline.ucRefs τ sig) (W8 m ρ c) ∗ Rc c)
  post c := iprop(StableHlo.held (c : Thread nD τ) (Pipeline.ucRefs τ sig) (W9 m ρ c) ∗ Rc c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W10`, left at `W11`. Its arrays are split
    out of the unscoped buffers at entry and put back at the exit contents; the generator register goes into the region's
    invariant and comes back; nothing is owed; the kernel has no semaphore of its own. -/
def reg3 : Pipeline.RegionSeg (pcfgs (F := F)) adm (pdats m ρ) () defs₀ 𝒱₀ L₀ lv₀ 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L₀ lv₀ 3 fun _ _ => rfl
  pre c := iprop(StableHlo.held (c : Thread nD τ) (Pipeline.ucRefs τ sig) (W10 m ρ c) ∗ Rc c)
  post c := iprop(StableHlo.held (c : Thread nD τ) (Pipeline.ucRefs τ sig) (W11 m ρ c) ∗ Rc c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (Vin3 m ρ) c).Φ 0 from rfl]
    refine .trans ?_ (hin3 (Vin3 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (Vin3 m ρ) c).Φ (Fin.last cfg3.N) from rfl]
    refine (hout3 (Vin3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W11`, left at `W12`. Its arrays are split
    out of the unscoped buffers at entry and put back at the exit contents; the generator register goes into the region's
    invariant and comes back; nothing is owed; the kernel has no semaphore of its own. -/
def reg4 : Pipeline.RegionSeg (pcfgs (F := F)) adm (pdats m ρ) () defs₀ 𝒱₀ L₀ lv₀ 4 where
  win := launch4.win.to₀
  block_pos := launch4.block_pos
  stage_whole := launch4.stage_whole
  K := PEmpty
  osem k := k.elim
  ho := Pipeline.OwnSemFacts.none _
  hbody c := (body_obligation4 (Vin4 m ρ) c).loose
  hwaits := Pipeline.hwaits_of_owed_zero _ _ _ _ L₀ lv₀ 4 fun _ _ => rfl
  pre c := iprop(StableHlo.held (c : Thread nD τ) (Pipeline.ucRefs τ sig) (W11 m ρ c) ∗ Rc c)
  post c := iprop(StableHlo.held (c : Thread nD τ) (Pipeline.ucRefs τ sig) (W12 m ρ c) ∗ Rc c)
  X c := iprop(∃ r, prngReg c r)
  Y c := iprop(∃ r, prngReg c r)
  Z c := Pipeline.unscopedRest (Ix := Unit) (Name := ℕ) (U := UR sig nD τ) (Lvl := ℕ) spec4 c (Vin4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vin4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vin4 m ρ c) (Vout4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W13`, left at `W14`. Its arrays are split
    out of the unscoped buffers at entry and put back at the exit contents; the generator register goes into the region's
    invariant and comes back; nothing is owed; the kernel has no semaphore of its own. -/
def reg5 : Pipeline.RegionSeg (pcfgs (F := F)) adm (pdats m ρ) () defs₀ 𝒱₀ L₀ lv₀ 5 where
  win := launch5.win.to₀
  block_pos := launch5.block_pos
  stage_whole := launch5.stage_whole
  K := PEmpty
  osem k := k.elim
  ho := Pipeline.OwnSemFacts.none _
  hbody c := (body_obligation5 (Vin5 m ρ) c).loose
  hwaits := Pipeline.hwaits_of_owed_zero _ _ _ _ L₀ lv₀ 5 fun _ _ => rfl
  pre c := iprop(StableHlo.held (c : Thread nD τ) (Pipeline.ucRefs τ sig) (W13 m ρ c) ∗ Rc c)
  post c := iprop(StableHlo.held (c : Thread nD τ) (Pipeline.ucRefs τ sig) (W14 m ρ c) ∗ Rc c)
  X c := iprop(∃ r, prngReg c r)
  Y c := iprop(∃ r, prngReg c r)
  Z c := Pipeline.unscopedRest (Ix := Unit) (Name := ℕ) (U := UR sig nD τ) (Lvl := ℕ) spec5 c (Vin5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vin5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (Vin5 m ρ) c).Φ 0 from rfl]
    refine .trans ?_ (hin5 (Vin5 m ρ) c)
    unfold Pipeline.ΦA
    iintro ⟨Hp, -, Hr⟩
    isplitl [Hr]; · iexact Hr
    iexact Hp
  hout c := by
    rw [Pipeline.ownSems0_none, show (pdats m ρ 5 c).Φ (Fin.last _) = (dat5 (Vin5 m ρ) c).Φ (Fin.last cfg5.N) from rfl]
    refine (hout5 (Vin5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vin5 m ρ c) (Vout5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fifteen segments in order: a host segment per stretch from its boundary's contents, a region per kernel call. -/
abbrev segsAll : List (Pipeline.Seg (pcfgs (F := F)) adm (pdats m ρ) () defs₀ 𝒱₀ L₀ lv₀) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .region (reg2 m ρ),
    .host (hseg hostOps3 hostOps3_sub hostOps3_fresh (W9 m ρ)),
    .region (reg3 m ρ),
    .region (reg4 m ρ),
    .host (hseg hostOps5 hostOps5_sub hostOps5_fresh (W12 m ρ)),
    .region (reg5 m ρ),
    .host (hseg hostOps6 hostOps6_sub hostOps6_fresh (W14 m ρ)) ]

set_option backward.isDefEq.respectTransparency.types false in
/-- THE RUN: from any memory with zero counters, every weakly fair execution of @main on the TensorCores terminates,
    nothing faulting, and every final memory holds the last boundary's contents `W15` at every unscoped buffer. -/
theorem run_all : θ_run defs (onTc (τ := τ) (main (F := F))) ⟨m, fun _ => 0, ρ⟩
    (fun r => ∀ c : Dev nD, ∀ b ∈ Pipeline.ucRefs τ sig, r.2.mem ((c : Thread nD τ).1, b) = W15 m ρ c b) :=
  Pipeline.θ_run_regions_kit (pcfgs (F := F)) adm (pdats m ρ) () cellOf_inj emb₁ defs₀ 𝒱₀ L₀ lv₀ m ρ main (segsAll m ρ)
    (fun c Q => by
      rewrite [main_chain c, Pipeline.Seg.run_eq_chain,
        show (segsAll m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6 ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rc c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W15 m ρ c) ∗ Rc c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- THE FRAME at any `F`: every weakly fair execution of @main terminates, nothing faulting, and every final memory has
    each argument array as launched — `run_all`, each argument read back through the fold (`W15_main_argK`). -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c)⟩) (run_all m ρ)

end Cert.KernelIdeal.Hand

end
-- ==== Proof.ProjectRegion0B.lean ====
/- Region 0 of @main (`cc0__project_kernel`, pipeline 0), at a parameter `V` — the TensorCore's buffer contents
   when the region is entered: each window's block at a grid point, what the body leaves in the output window's
   staging buffer as a function of the three input blocks, the body's triple, the pipeline's proof data and the body
   obligation the launch theorems take. The body loads its three inputs whole, loads the output buffer once (unused)
   and stores one payload over the whole output buffer; there is one control case. -/
import proofs.«172984_j19241453486477_1_alg».proof.Proof.Gen.Kernel.Launch
import proofs.«172984_j19241453486477_1_alg».proof.Proof.Gen.Kernel.Skeleton
import proofs.«172984_j19241453486477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2, which is fetched at the first point only: where it is not fetched its block index
    has not moved, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0
abbrev r0_2 : Rect S128x128 := Rect.unit (s := S128x128) ![0, 0] S128x128.size inb_S128x128_S128x128_0_0

/-- The offsets `![0, 0]` are the zero offsets. -/
theorem hz0 : (![0, 0] : Fin 2 → Nat) = fun _ => 0 := funext fun a => by fin_cases a <;> rfl

/-! ## What the body leaves in the output window's buffer -/

/-- Window 3's staging buffer after the body, from the input windows' blocks: its one store as a piece. -/
def out0_3 (x0 : Vec F S5000x128 .f32) (x1 : Vec F S5000x1 .f32) (x2 : Vec F S128x128 .f32) : Vec F S5000x128 .f32 :=
  View.canon [⟨r0_0, k0_pay1 (View.ld x0 r0_0) (View.ld x1 r0_1) (View.ld x2 r0_2)⟩]

/-- The one store is of the whole buffer, so it covers it. -/
theorem cover0_3 (p0 : Vec F S5000x128 .f32) (y : S5000x128.Idx) :
    ∃ pc ∈ ([⟨r0_0, p0⟩] : List (View.Piece (Elt F) S5000x128 .f32)), y ∈ pc.1.set :=
  ⟨_, List.mem_singleton_self _, View.mem_set_unit_zero hz0 inb_S5000x128_S5000x128_0_0 y⟩

/-- The store covers the whole buffer and every load is of a whole buffer: the output buffer is left at the payload
    of the three input buffers. -/
theorem out0_3_eq (x0 : Vec F S5000x128 .f32) (x1 : Vec F S5000x1 .f32) (x2 : Vec F S128x128 .f32) :
    out0_3 x0 x1 x2 = k0_pay1 x0 x1 x2 := by
  unfold out0_3
  rw [View.canon_unit_zero hz0]
  rw [View.ld_unit_zero (S := S5000x128) hz0, View.ld_unit_zero (S := S5000x1) hz0, View.ld_unit_zero (S := S128x128) hz0]

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__project_kernel i arg1 harg1 arg2 harg2 arg3 harg3 arg4 harg4) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.ProjectRegion2B.lean ====
/- Region 2 of @main (`cc2__project_kernel`, pipeline 2), at a parameter `V` — the TensorCore's buffer contents
   when the region is entered: each window's block at a grid point, what the body leaves in the output window's
   staging buffer as a function of the three input blocks, the body's triple, the pipeline's proof data and the body
   obligation the launch theorems take. The body loads its three inputs whole, loads the output buffer once (unused)
   and stores one payload over the whole output buffer; there is one control case. -/
import proofs.«172984_j19241453486477_1_alg».proof.Proof.Gen.Kernel.Launch
import proofs.«172984_j19241453486477_1_alg».proof.Proof.Gen.Kernel.Skeleton
import proofs.«172984_j19241453486477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2, which is fetched at the first point only: where it is not fetched its block index
    has not moved, so the buffer still holds this point's block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole buffer -/

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0
abbrev r2_2 : Rect S128x128 := Rect.unit (s := S128x128) ![0, 0] S128x128.size inb_S128x128_S128x128_0_0

/-- The offsets `![0, 0]` are the zero offsets. -/
theorem hz2 : (![0, 0] : Fin 2 → Nat) = fun _ => 0 := funext fun a => by fin_cases a <;> rfl

/-! ## What the body leaves in the output window's buffer -/

/-- Window 3's staging buffer after the body, from the input windows' blocks: its one store as a piece. -/
def out2_3 (x0 : Vec F S5000x128 .f32) (x1 : Vec F S5000x1 .f32) (x2 : Vec F S128x128 .f32) : Vec F S5000x128 .f32 :=
  View.canon [⟨r2_0, k2_pay1 (View.ld x0 r2_0) (View.ld x1 r2_1) (View.ld x2 r2_2)⟩]

/-- The one store is of the whole buffer, so it covers it. -/
theorem cover2_3 (p0 : Vec F S5000x128 .f32) (y : S5000x128.Idx) :
    ∃ pc ∈ ([⟨r2_0, p0⟩] : List (View.Piece (Elt F) S5000x128 .f32)), y ∈ pc.1.set :=
  ⟨_, List.mem_singleton_self _, View.mem_set_unit_zero hz2 inb_S5000x128_S5000x128_0_0 y⟩

/-- The store covers the whole buffer and every load is of a whole buffer: the output buffer is left at the payload
    of the three input buffers. -/
theorem out2_3_eq (x0 : Vec F S5000x128 .f32) (x1 : Vec F S5000x1 .f32) (x2 : Vec F S128x128 .f32) :
    out2_3 x0 x1 x2 = k2_pay1 x0 x1 x2 := by
  unfold out2_3
  rw [View.canon_unit_zero hz2]
  rw [View.ld_unit_zero (S := S5000x128) hz2, View.ld_unit_zero (S := S5000x1) hz2, View.ld_unit_zero (S := S128x128) hz2]

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords)
    (arg1 : Memref sig .tc .vmem S5000x128 .f32) (harg1 : arg1.IsWhole) (arg2 : Memref sig .tc .vmem S5000x1 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__project_kernel i arg1 harg1 arg2 harg2 arg3 harg3 arg4 harg4) K := by
  simp only [cc2__project_kernel_eq_skeleton]; unfold cc2__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.ProjectRegion4B.lean ====
/- Region 4 of @main (`cc4__project_kernel`, pipeline 4), at a parameter `V` — the TensorCore's buffer contents
   when the region is entered: each window's block at a grid point, what the body leaves in the output window's
   staging buffer as a function of the three input blocks, the body's triple, the pipeline's proof data and the body
   obligation the launch theorems take. The body loads its three inputs whole, loads the output buffer once (unused)
   and stores one payload over the whole output buffer; there is one control case. -/
import proofs.«172984_j19241453486477_1_alg».proof.Proof.Gen.Kernel.Launch
import proofs.«172984_j19241453486477_1_alg».proof.Proof.Gen.Kernel.Skeleton
import proofs.«172984_j19241453486477_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s (`hA`) and whose body leaves the block in place (`hafter`): the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same for input window 2, which is fetched at the first point only: where it is not fetched its block index
    has not moved, so the buffer still holds this point's block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole buffer -/

abbrev r4_0 : Rect S5000x128 := Rect.unit (s := S5000x128) ![0, 0] S5000x128.size inb_S5000x128_S5000x128_0_0
abbrev r4_1 : Rect S5000x1 := Rect.unit (s := S5000x1) ![0, 0] S5000x1.size inb_S5000x1_S5000x1_0_0
abbrev r4_2 : Rect S128x128 := Rect.unit (s := S128x128) ![0, 0] S128x128.size inb_S128x128_S128x128_0_0

/-- The offsets `![0, 0]` are the zero offsets. -/
theorem hz4 : (![0, 0] : Fin 2 → Nat) = fun _ => 0 := funext fun a => by fin_cases a <;> rfl

/-! ## What the body leaves in the output window's buffer -/

/-- Window 3's staging buffer after the body, from the input windows' blocks: its one store as a piece. -/
def out4_3 (x0 : Vec F S5000x128 .f32) (x1 : Vec F S5000x1 .f32) (x2 : Vec F S128x128 .f32) : Vec F S5000x128 .f32 :=
  View.canon [⟨r4_0, k4_pay1 (View.ld x0 r4_0) (View.ld x1 r4_1) (View.ld x2 r4_2)⟩]

/-- The one store is of the whole buffer, so it covers it. -/
theorem cover4_3 (p0 : Vec F S5000x128 .f32) (y : S5000x128.Idx) :
    ∃ pc ∈ ([⟨r4_0, p0⟩] : List (View.Piece (Elt F) S5000x128 .f32)), y ∈ pc.1.set :=
  ⟨_, List.mem_singleton_self _, View.mem_set_unit_zero hz4 inb_S5000x128_S5000x128_0_0 y⟩

/-- The store covers the whole buffer and every load is of a whole buffer: the output buffer is left at the payload
    of the three input buffers. -/
theorem out4_3_eq (x0 : Vec F S5000x128 .f32) (x1 : Vec F S5000x1 .f32) (x2 : Vec F S128x128 .f32) :
    out4_3 x0 x1 x2 = k4_pay1 x0 x1 x2 := by
  unfold out4_3
  rw [View.canon_unit_zero hz4]
  rw [View.ld_unit_zero (S := S5000x128) hz4, View.ld_unit_zero (S := S5000x1) hz4, View.ld_unit_zero (S := S128x128) hz4]

/-! ## The body's triple -/

set_option maxHeartbeats 1000000 in
/-- The kernel body on whole staging memrefs, the inputs' at read contents `xW` and the output's at anything, runs to
    the continuation holding the inputs' as they were and the output's at `out4_3` of the inputs'. -/
theorem sound_kernel4 (c : Dev nD) (E : Set ℕ) (i : grid4.Coords)
    (arg1 : Memref sig .tc .vmem S5000x128 .f32) (harg1 : arg1.IsWhole) (arg2 : Memref sig .tc .vmem S5000x1 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__project_kernel i arg1 harg1 arg2 harg2 arg3 harg3 arg4 harg4) K := by
  simp only [cc4__project_kernel_eq_skeleton]; unfold cc4__project_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.PostRegion1B.lean ====
/- The three-layer graph convolution's POST region 1 (custom_call 1, `cc1__post_kernel`), at a parameter `V` — the
   TensorCore's buffer contents when the region is entered: each window's block at a point, the accumulator the
   kernel carries between grid points in its scratch operand stated by recursion on the point, the body's triple
   in each of its three control cases (first point, middle points, last point), the proof data, the body
   obligation, and the invariant's entry and exit. Every store of this body covers its whole buffer, so what a
   buffer holds after the body is stated directly as the store's payload. -/
import proofs.«172984_j19241453486477_1_alg».proof.Proof.Gen.Kernel.Launch
import proofs.«172984_j19241453486477_1_alg».proof.Proof.Gen.Kernel.Skeleton
import proofs.«172984_j19241453486477_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: an unfetched input's block index has not
    moved. Windows 0 and 1 are fetched at every point, window 2 (one constant block) at the first only. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

/-- The body's first conditional: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The body's second conditional: the point is the grid's last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last point the second output is idle (the body stores nothing into it) and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last point it is live. -/
theorem liveAt1_4 : ∀ t : Fin cfg1.N, cond1_1 (grid1.coords t) → cfg1.idle 4 (grid1.coords t) = false := by decide +kernel

/-! ## The body's triple, case by case -/

/-- Every access of this body is through the whole-buffer rectangle: its offsets are zero. -/
theorem postHz : (![0, 0] : Fin 2 → Nat) = fun _ => 0 := funext fun a => by fin_cases a <;> rfl

/-- After writes the last of which stores `w` through the whole-buffer rectangle, any view of the buffer reads `w`,
    whatever the earlier writes and the prior contents were. -/
theorem post_read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- MIDDLE POINTS (neither conditional taken): the inputs stay, the first output is left at the activation
    `k1_pay2` of the input blocks, the second output untouched, the scratch at `k1_pay3` of the inputs and of what
    it held. -/
theorem sound_kernel1_B (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i)
    (x0 : Vec F S5000x128 .f32) (x1 : Vec F S5000x1 .f32) (x2 : Vec F S1x1 .f32) (xi : Vec F S1x128 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare xi
            ∗ owns (c : Thread nD τ) arg6 fullShare (k1_pay3 x0 x1 x2 xs)) -∗ K ⟨⟩))
      ⊢ wp frame (wpE (defs₀ (F := F)) Variants.none c none) E (cc1__post_kernel i arg1 harg1 arg2 harg2 arg3 harg3 arg4 harg4 arg5 harg5 arg6 harg6) K := by
  simp only [cc1__post_kernel_eq_skeleton]; unfold cc1__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  subst hf0; subst hf1; subst hf2; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE FIRST POINT (first conditional taken, second not): the scratch, found at anything, is zeroed (`k1_pay1`)
    and then left at `k1_pay3` of the inputs and of that zero. -/
theorem sound_kernel1_A (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i)
    (x0 : Vec F S5000x128 .f32) (x1 : Vec F S5000x1 .f32) (x2 : Vec F S1x1 .f32) (xi : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare xi
            ∗ owns (c : Thread nD τ) arg6 fullShare (k1_pay3 x0 x1 x2 (k1_pay1 (F := F)))) -∗ K ⟨⟩))
      ⊢ wp frame (wpE (defs₀ (F := F)) Variants.none c none) E (cc1__post_kernel i arg1 harg1 arg2 harg2 arg3 harg3 arg4 harg4 arg5 harg5 arg6 harg6) K := by
  simp only [cc1__post_kernel_eq_skeleton]; unfold cc1__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  sl_unfold_words
  rw [post_read_writes_whole _ _ postHz, View.readCov_unit_zero (S := S1x128) _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE LAST POINT (first conditional not taken, second taken): as at a middle point, and then the scratch's new
    contents are stored whole into the second output, found at anything. -/
theorem sound_kernel1_C (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i)
    (x0 : Vec F S5000x128 .f32) (x1 : Vec F S5000x1 .f32) (x2 : Vec F S1x1 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare (k1_pay3 x0 x1 x2 xs)
            ∗ owns (c : Thread nD τ) arg6 fullShare (k1_pay3 x0 x1 x2 xs)) -∗ K ⟨⟩))
      ⊢ wp frame (wpE (defs₀ (F := F)) Variants.none c none) E (cc1__post_kernel i arg1 harg1 arg2 harg2 arg3 harg3 arg4 harg4 arg5 harg5 arg6 harg6) K := by
  simp only [cc1__post_kernel_eq_skeleton]; unfold cc1__post_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists _; isplitr
    swap; · iexact H4
    ipureintro
    sl_unfold_words
    rw [post_read_writes_whole _ _ postHz, View.readCov_unit_zero (S := S1x128) _ postHz]
    simp only [View.readAt_eq_ld, View.ld_unit_zero (S := S5000x128) postHz, View.ld_unit_zero (S := S5000x1) postHz, View.ld_unit_zero (S := S1x1) postHz, View.ld_unit_zero (S := S1x128) postHz]
  iexists _; isplitr
  swap; · iexact HS
  ipureintro
  sl_unfold_words
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

/-! ## The accumulator the kernel carries between the points -/

/-- The scratch operand: a whole scoped buffer of the kernel's own, passed beside the windows. -/
abbrev scM1 : Memref sig .tc .vmem S1x128 .f32 := Memref.whole cc1_scratch0

/-- What the scratch holds after the body at point `n`: at the first point the zero block `k1_pay1` with that
    point's column sums added (`k1_pay3`), afterwards what the point before left with this point's added. -/
def acc1 (c : Dev nD) : (n : ℕ) → n < cfg1.N → Vec F S1x128 .f32
  | 0, hn => k1_pay3 (iblk1 V c 0 ⟨0, hn⟩) (iblk1 V c 1 ⟨0, hn⟩) (iblk1 V c 2 ⟨0, hn⟩) (k1_pay1 (F := F))
  | n + 1, hn => k1_pay3 (iblk1 V c 0 ⟨n + 1, hn⟩) (iblk1 V c 1 ⟨n + 1, hn⟩) (iblk1 V c 2 ⟨n + 1, hn⟩) (acc1 c n (Nat.lt_of_succ_lt hn))

theorem acc1_zero (c : Dev nD) (hn : 0 < cfg1.N) :
    acc1 V c 0 hn = k1_pay3 (iblk1 V c 0 ⟨0, hn⟩) (iblk1 V c 1 ⟨0, hn⟩) (iblk1 V c 2 ⟨0, hn⟩) (k1_pay1 (F := F)) := rfl
theorem acc1_succ (c : Dev nD) (n : ℕ) (hn : n + 1 < cfg1.N) :
    acc1 V c (n + 1) hn = k1_pay3 (iblk1 V c 0 ⟨n + 1, hn⟩) (iblk1 V c 1 ⟨n + 1, hn⟩) (iblk1 V c 2 ⟨n + 1, hn⟩) (acc1 V c n (Nat.lt_of_succ_lt hn)) := rfl

/-- The accumulator at the first point, -/
theorem acc1_first (c : Dev nD) (t : Fin cfg1.N) (h0 : t.val = 0) :
    acc1 V c t.val t.isLt = k1_pay3 (iblk1 V c 0 t) (iblk1 V c 1 t) (iblk1 V c 2 t) (k1_pay1 (F := F)) := by
  obtain ⟨n, hn⟩ := t
  cases n with
  | zero => rfl
  | succ n => exact absurd h0 (Nat.succ_ne_zero n)
/-- and at a later one, over what the point before left. -/
theorem acc1_pos (c : Dev nD) (t : Fin cfg1.N) (h0 : t.val ≠ 0) :
    acc1 V c t.val t.isLt = k1_pay3 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd rfl h0
  | succ n => rfl

/-! ## The region invariant -/

/-- The class invariant with the scratch operand as a memref owned at some contents, the other scoped buffers
    unopened beside it. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The invariant before position `n`: before the first point the class's (the scratch at anything); afterwards the
    scratch at what the point before left in it, the other scoped buffers unopened, the generator register at some
    state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block, the first output's at the activation of the input blocks, the second
    output's at the accumulator (consulted at the last point only: elsewhere the window is idle); the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay2 (iblk1 V c 0 t) (iblk1 V c 1 t) (iblk1 V c 2 t)
    | ⟨4, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay2 (iblk1 V c 0 t) (iblk1 V c 1 t) (iblk1 V c 2 t) := by dsimp only [dat1]
theorem after1_4 (c : Dev nD) (t : Fin cfg1.N) : (dat1 V c).after 4 t = acc1 V c t.val t.isLt := by dsimp only [dat1]
/-- What the second output's buffer holds when it is written back: the accumulator after the last point. -/
theorem after1_4_last (c : Dev nD) (h : 9 < cfg1.N) : (dat1 V c).after 4 ⟨9, h⟩ = acc1 V c 9 h := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the scratch at what the point before left (at anything at the first point) and
    takes it back at this point's accumulator; off the last point the second output's buffer is handed back as
    found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h9 : t.val = 9
  · have h0 : t.val ≠ 0 := by omega
    rw [show (dat1 V c).leavesExact 4 t = owns (c : Thread nD τ) (st1_4 t) fullShare ((dat1 V c).after 4 t) from by
      unfold Dat.leavesExact; rw [liveAt1_4 t ((hcond1_1 t).mpr h9)], after1_4]
    rw [acc1_pos V c t h0]
    rw [PhiS1_castSucc V c t, PhiS1_pos V c _ _ h0]
    iintro ⟨⟨⟨HS, HR⟩, Hg⟩, Ho, ⟨%d0, H0⟩, ⟨%d1, H1⟩, ⟨%d2, H2⟩, ⟨%d3, H3⟩, ⟨%d4, H4⟩⟩
    iapply (sound_kernel1_C c Set.univ (grid1.coords t) _ _ _ _ _ _ _ _ _ _ _ _ (fun h => h0 ((hcond1_0 t).mp h)) ((hcond1_1 t).mpr h9)
      (iblk1 V c 0 t) (iblk1 V c 1 t) (iblk1 V c 2 t) _ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h9 ((hcond1_1 t).mp h))) (noFlush1_4 t (fun h => h9 ((hcond1_1 t).mp h)))]
    by_cases h0 : t.val = 0
    · rw [acc1_first V c t h0]
      rw [PhiS1_castSucc V c t, PhiS1_zero V c _ _ h0, PhiA1_eq]
      iintro ⟨⟨⟨HS, HR⟩, Hg⟩, Ho, ⟨%d0, H0⟩, ⟨%d1, H1⟩, ⟨%d2, H2⟩, ⟨%d3, H3⟩, ⟨%d4, H4⟩⟩
      iapply (sound_kernel1_A c Set.univ (grid1.coords t) _ _ _ _ _ _ _ _ _ _ _ _ ((hcond1_0 t).mpr h0) (fun h => h9 ((hcond1_1 t).mp h))
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [acc1_pos V c t h0]
      rw [PhiS1_castSucc V c t, PhiS1_pos V c _ _ h0]
      iintro ⟨⟨⟨HS, HR⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ (fun h => h0 ((hcond1_0 t).mp h)) (fun h => h9 ((hcond1_1 t).mp h))
        (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]; · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

/-- info: 'Cert.Kernel.Hand.body_obligation1' depends on axioms: [propext, Classical.choice, Quot.sound] -/
#guard_msgs in #print axioms body_obligation1

end Cert.Kernel.Hand

end
-- ==== Proof.PostRegion3B.lean ====
/- The three-layer graph convolution's POST region 3 (custom_call 3, `cc3__post_kernel`), at a parameter `V` — the
   TensorCore's buffer contents when the region is entered: each window's block at a point, the accumulator the
   kernel carries between grid points in its scratch operand stated by recursion on the point, the body's triple
   in each of its three control cases (first point, middle points, last point), the proof data, the body
   obligation, and the invariant's entry and exit. Every store of this body covers its whole buffer, so what a
   buffer holds after the body is stated directly as the store's payload. -/
import proofs.«172984_j19241453486477_1_alg».proof.Proof.Gen.Kernel.Launch
import proofs.«172984_j19241453486477_1_alg».proof.Proof.Gen.Kernel.Skeleton
import proofs.«172984_j19241453486477_1_alg».proof.Proof.Gen.Kernel.Points
import proofs.«172984_j19241453486477_1_alg».proof.Proof.PostRegion1B
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: an unfetched input's block index has not
    moved. Windows 0 and 1 are fetched at every point, window 2 (one constant block) at the first only. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions, decided over the grid -/

/-- The body's first conditional: the point is the grid's first. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
/-- The body's second conditional: the point is the grid's last. -/
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Off the last point the second output is idle (the body stores nothing into it) and is not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last point it is live. -/
theorem liveAt3_4 : ∀ t : Fin cfg3.N, cond3_1 (grid3.coords t) → cfg3.idle 4 (grid3.coords t) = false := by decide +kernel

/-! ## The body's triple, case by case -/

set_option maxHeartbeats 1000000 in
/-- MIDDLE POINTS (neither conditional taken): the inputs stay, the first output is left at the activation
    `k3_pay2` of the input blocks, the second output untouched, the scratch at `k3_pay3` of the inputs and of what
    it held. -/
theorem sound_kernel3_B (c : Dev nD) (E : Set ℕ) (i : grid3.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond3_0 i) (hc1 : ¬cond3_1 i)
    (x0 : Vec F S5000x128 .f32) (x1 : Vec F S5000x1 .f32) (x2 : Vec F S1x1 .f32) (xi : Vec F S1x128 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare xi
            ∗ owns (c : Thread nD τ) arg6 fullShare (k3_pay3 x0 x1 x2 xs)) -∗ K ⟨⟩))
      ⊢ wp frame (wpE (defs₀ (F := F)) Variants.none c none) E (cc3__post_kernel i arg1 harg1 arg2 harg2 arg3 harg3 arg4 harg4 arg5 harg5 arg6 harg6) K := by
  simp only [cc3__post_kernel_eq_skeleton]; unfold cc3__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  subst hf0; subst hf1; subst hf2; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE FIRST POINT (first conditional taken, second not): the scratch, found at anything, is zeroed (`k3_pay1`)
    and then left at `k3_pay3` of the inputs and of that zero. -/
theorem sound_kernel3_A (c : Dev nD) (E : Set ℕ) (i : grid3.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : cond3_0 i) (hc1 : ¬cond3_1 i)
    (x0 : Vec F S5000x128 .f32) (x1 : Vec F S5000x1 .f32) (x2 : Vec F S1x1 .f32) (xi : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare xi
            ∗ owns (c : Thread nD τ) arg6 fullShare (k3_pay3 x0 x1 x2 (k3_pay1 (F := F)))) -∗ K ⟨⟩))
      ⊢ wp frame (wpE (defs₀ (F := F)) Variants.none c none) E (cc3__post_kernel i arg1 harg1 arg2 harg2 arg3 harg3 arg4 harg4 arg5 harg5 arg6 harg6) K := by
  simp only [cc3__post_kernel_eq_skeleton]; unfold cc3__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  sl_unfold_words
  rw [post_read_writes_whole _ _ postHz, View.readCov_unit_zero (S := S1x128) _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE LAST POINT (first conditional not taken, second taken): as at a middle point, and then the scratch's new
    contents are stored whole into the second output, found at anything. -/
theorem sound_kernel3_C (c : Dev nD) (E : Set ℕ) (i : grid3.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond3_0 i) (hc1 : cond3_1 i)
    (x0 : Vec F S5000x128 .f32) (x1 : Vec F S5000x1 .f32) (x2 : Vec F S1x1 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare (k3_pay3 x0 x1 x2 xs)
            ∗ owns (c : Thread nD τ) arg6 fullShare (k3_pay3 x0 x1 x2 xs)) -∗ K ⟨⟩))
      ⊢ wp frame (wpE (defs₀ (F := F)) Variants.none c none) E (cc3__post_kernel i arg1 harg1 arg2 harg2 arg3 harg3 arg4 harg4 arg5 harg5 arg6 harg6) K := by
  simp only [cc3__post_kernel_eq_skeleton]; unfold cc3__post_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists _; isplitr
    swap; · iexact H4
    ipureintro
    sl_unfold_words
    rw [post_read_writes_whole _ _ postHz, View.readCov_unit_zero (S := S1x128) _ postHz]
    simp only [View.readAt_eq_ld, View.ld_unit_zero (S := S5000x128) postHz, View.ld_unit_zero (S := S5000x1) postHz, View.ld_unit_zero (S := S1x1) postHz, View.ld_unit_zero (S := S1x128) postHz]
  iexists _; isplitr
  swap; · iexact HS
  ipureintro
  sl_unfold_words
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

/-! ## The accumulator the kernel carries between the points -/

/-- The scratch operand: a whole scoped buffer of the kernel's own, passed beside the windows. -/
abbrev scM3 : Memref sig .tc .vmem S1x128 .f32 := Memref.whole cc3_scratch0

/-- What the scratch holds after the body at point `n`: at the first point the zero block `k3_pay1` with that
    point's column sums added (`k3_pay3`), afterwards what the point before left with this point's added. -/
def acc3 (c : Dev nD) : (n : ℕ) → n < cfg3.N → Vec F S1x128 .f32
  | 0, hn => k3_pay3 (iblk3 V c 0 ⟨0, hn⟩) (iblk3 V c 1 ⟨0, hn⟩) (iblk3 V c 2 ⟨0, hn⟩) (k3_pay1 (F := F))
  | n + 1, hn => k3_pay3 (iblk3 V c 0 ⟨n + 1, hn⟩) (iblk3 V c 1 ⟨n + 1, hn⟩) (iblk3 V c 2 ⟨n + 1, hn⟩) (acc3 c n (Nat.lt_of_succ_lt hn))

theorem acc3_zero (c : Dev nD) (hn : 0 < cfg3.N) :
    acc3 V c 0 hn = k3_pay3 (iblk3 V c 0 ⟨0, hn⟩) (iblk3 V c 1 ⟨0, hn⟩) (iblk3 V c 2 ⟨0, hn⟩) (k3_pay1 (F := F)) := rfl
theorem acc3_succ (c : Dev nD) (n : ℕ) (hn : n + 1 < cfg3.N) :
    acc3 V c (n + 1) hn = k3_pay3 (iblk3 V c 0 ⟨n + 1, hn⟩) (iblk3 V c 1 ⟨n + 1, hn⟩) (iblk3 V c 2 ⟨n + 1, hn⟩) (acc3 V c n (Nat.lt_of_succ_lt hn)) := rfl

/-- The accumulator at the first point, -/
theorem acc3_first (c : Dev nD) (t : Fin cfg3.N) (h0 : t.val = 0) :
    acc3 V c t.val t.isLt = k3_pay3 (iblk3 V c 0 t) (iblk3 V c 1 t) (iblk3 V c 2 t) (k3_pay1 (F := F)) := by
  obtain ⟨n, hn⟩ := t
  cases n with
  | zero => rfl
  | succ n => exact absurd h0 (Nat.succ_ne_zero n)
/-- and at a later one, over what the point before left. -/
theorem acc3_pos (c : Dev nD) (t : Fin cfg3.N) (h0 : t.val ≠ 0) :
    acc3 V c t.val t.isLt = k3_pay3 (iblk3 V c 0 t) (iblk3 V c 1 t) (iblk3 V c 2 t) (acc3 V c (t.val - 1) (Nat.lt_of_le_of_lt (Nat.sub_le _ _) t.isLt)) := by
  obtain ⟨n, hn⟩ := t
  cases n with
  | zero => exact absurd rfl h0
  | succ n => rfl

/-! ## The region invariant -/

/-- The class invariant with the scratch operand as a memref owned at some contents, the other scoped buffers
    unopened beside it. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- The invariant before position `n`: before the first point the class's (the scratch at anything); afterwards the
    scratch at what the point before left in it, the other scoped buffers unopened, the generator register at some
    state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of pipeline 3 on core `c`: the arrays as the region finds them (`V`); after the body at point `t`
    each input's buffer at its block, the first output's at the activation of the input blocks, the second
    output's at the accumulator (consulted at the last point only: elsewhere the window is idle); the invariant
    `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay2 (iblk3 V c 0 t) (iblk3 V c 1 t) (iblk3 V c 2 t)
    | ⟨4, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay2 (iblk3 V c 0 t) (iblk3 V c 1 t) (iblk3 V c 2 t) := by dsimp only [dat3]
theorem after3_4 (c : Dev nD) (t : Fin cfg3.N) : (dat3 V c).after 4 t = acc3 V c t.val t.isLt := by dsimp only [dat3]
/-- What the second output's buffer holds when it is written back: the accumulator after the last point. -/
theorem after3_4_last (c : Dev nD) (h : 9 < cfg3.N) : (dat3 V c).after 4 ⟨9, h⟩ = acc3 V c 9 h := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the closed forms say which case the point is in;
    the invariant hands the body the scratch at what the point before left (at anything at the first point) and
    takes it back at this point's accumulator; off the last point the second output's buffer is handed back as
    found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  by_cases h9 : t.val = 9
  · have h0 : t.val ≠ 0 := by omega
    rw [show (dat3 V c).leavesExact 4 t = owns (c : Thread nD τ) (st3_4 t) fullShare ((dat3 V c).after 4 t) from by
      unfold Dat.leavesExact; rw [liveAt3_4 t ((hcond3_1 t).mpr h9)], after3_4]
    rw [acc3_pos V c t h0]
    rw [PhiS3_castSucc V c t, PhiS3_pos V c _ _ h0]
    iintro ⟨⟨⟨HS, HR⟩, Hg⟩, Ho, ⟨%d0, H0⟩, ⟨%d1, H1⟩, ⟨%d2, H2⟩, ⟨%d3, H3⟩, ⟨%d4, H4⟩⟩
    iapply (sound_kernel3_C c Set.univ (grid3.coords t) _ _ _ _ _ _ _ _ _ _ _ _ (fun h => h0 ((hcond3_0 t).mp h)) ((hcond3_1 t).mpr h9)
      (iblk3 V c 0 t) (iblk3 V c 1 t) (iblk3 V c 2 t) _ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat3 V c) 4 t (idleAt3_4 t (fun h => h9 ((hcond3_1 t).mp h))) (noFlush3_4 t (fun h => h9 ((hcond3_1 t).mp h)))]
    by_cases h0 : t.val = 0
    · rw [acc3_first V c t h0]
      rw [PhiS3_castSucc V c t, PhiS3_zero V c _ _ h0, PhiA3_eq]
      iintro ⟨⟨⟨HS, HR⟩, Hg⟩, Ho, ⟨%d0, H0⟩, ⟨%d1, H1⟩, ⟨%d2, H2⟩, ⟨%d3, H3⟩, ⟨%d4, H4⟩⟩
      iapply (sound_kernel3_A c Set.univ (grid3.coords t) _ _ _ _ _ _ _ _ _ _ _ _ ((hcond3_0 t).mpr h0) (fun h => h9 ((hcond3_1 t).mp h))
        (iblk3 V c 0 t) (iblk3 V c 1 t) (iblk3 V c 2 t) _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [acc3_pos V c t h0]
      rw [PhiS3_castSucc V c t, PhiS3_pos V c _ _ h0]
      iintro ⟨⟨⟨HS, HR⟩, Hg⟩, Ho, ⟨%d0, H0⟩, ⟨%d1, H1⟩, ⟨%d2, H2⟩, ⟨%d3, H3⟩, ⟨%d4, H4⟩⟩
      iapply (sound_kernel3_B c Set.univ (grid3.coords t) _ _ _ _ _ _ _ _ _ _ _ _ (fun h => h0 ((hcond3_0 t).mp h)) (fun h => h9 ((hcond3_1 t).mp h))
        (iblk3 V c 0 t) (iblk3 V c 1 t) (iblk3 V c 2 t) _ _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region (the class invariant) is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class invariant back: the scratch's named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]; · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 10 := N_3; omega)

/-- info: 'Cert.Kernel.Hand.body_obligation3' depends on axioms: [propext, Classical.choice, Quot.sound] -/
#guard_msgs in #print axioms body_obligation3

end Cert.Kernel.Hand

end
-- ==== Proof.PostRegion5B.lean ====
/- The three-layer graph convolution's POST region 5 (custom_call 5, `cc5__post_kernel`), at a parameter `V` — the
   TensorCore's buffer contents when the region is entered: each window's block at a point, the accumulator the
   kernel carries between grid points in its scratch operand stated by recursion on the point, the body's triple
   in each of its three control cases (first point, middle points, last point), the proof data, the body
   obligation, and the invariant's entry and exit. Every store of this body covers its whole buffer, so what a
   buffer holds after the body is stated directly as the store's payload. -/
import proofs.«172984_j19241453486477_1_alg».proof.Proof.Gen.Kernel.Launch
import proofs.«172984_j19241453486477_1_alg».proof.Proof.Gen.Kernel.Skeleton
import proofs.«172984_j19241453486477_1_alg».proof.Proof.Gen.Kernel.Points
import proofs.«172984_j19241453486477_1_alg».proof.Proof.PostRegion1B
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is `V`'s and whose body leaves the block in place: an unfetched input's block index has not
    moved. Windows 0 and 1 are fetched at every point, window 2 (one constant block) at the first only. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions, decided over the grid -/

/-- The body's first conditional: the point is the grid's first. -/
abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)
/-- The body's second conditional: the point is the grid's last. -/
abbrev cond5_1 (i : grid5.Coords) : Prop := k5_cond2 i = 1#1
theorem hcond5_1 : ∀ t : Fin cfg5.N, cond5_1 (grid5.coords t) ↔ t.val = 9 :=
  (by decide +kernel : ∀ t : Fin grid5.N, cond5_1 (grid5.coords t) ↔ t.val = 9)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
/-- Off the last point the second output is idle (the body stores nothing into it) and is not written back. -/
theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
/-- At the last point it is live. -/
theorem liveAt5_4 : ∀ t : Fin cfg5.N, cond5_1 (grid5.coords t) → cfg5.idle 4 (grid5.coords t) = false := by decide +kernel

/-! ## The body's triple, case by case -/

set_option maxHeartbeats 1000000 in
/-- MIDDLE POINTS (neither conditional taken): the inputs stay, the first output is left at the activation
    `k5_pay2` of the input blocks, the second output untouched, the scratch at `k5_pay3` of the inputs and of what
    it held. -/
theorem sound_kernel5_B (c : Dev nD) (E : Set ℕ) (i : grid5.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond5_0 i) (hc1 : ¬cond5_1 i)
    (x0 : Vec F S5000x128 .f32) (x1 : Vec F S5000x1 .f32) (x2 : Vec F S1x1 .f32) (xi : Vec F S1x128 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k5_pay2 x0 x1 x2) ∗ owns (c : Thread nD τ) arg5 fullShare xi
            ∗ owns (c : Thread nD τ) arg6 fullShare (k5_pay3 x0 x1 x2 xs)) -∗ K ⟨⟩))
      ⊢ wp frame (wpE (defs₀ (F := F)) Variants.none c none) E (cc5__post_kernel i arg1 harg1 arg2 harg2 arg3 harg3 arg4 harg4 arg5 harg5 arg6 harg6) K := by
  simp only [cc5__post_kernel_eq_skeleton]; unfold cc5__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  subst hf0; subst hf1; subst hf2; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE FIRST POINT (first conditional taken, second not): the scratch, found at anything, is zeroed (`k5_pay1`)
    and then left at `k5_pay3` of the inputs and of that zero. -/
theorem sound_kernel5_A (c : Dev nD) (E : Set ℕ) (i : grid5.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : cond5_0 i) (hc1 : ¬cond5_1 i)
    (x0 : Vec F S5000x128 .f32) (x1 : Vec F S5000x1 .f32) (x2 : Vec F S1x1 .f32) (xi : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k5_pay2 x0 x1 x2) ∗ owns (c : Thread nD τ) arg5 fullShare xi
            ∗ owns (c : Thread nD τ) arg6 fullShare (k5_pay3 x0 x1 x2 (k5_pay1 (F := F)))) -∗ K ⟨⟩))
      ⊢ wp frame (wpE (defs₀ (F := F)) Variants.none c none) E (cc5__post_kernel i arg1 harg1 arg2 harg2 arg3 harg3 arg4 harg4 arg5 harg5 arg6 harg6) K := by
  simp only [cc5__post_kernel_eq_skeleton]; unfold cc5__post_kernel_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists f4; isplitr; · ipureintro; rfl
    iexact H4
  iexists _; isplitr
  swap; · iexact HS
  ipureintro
  sl_unfold_words
  rw [post_read_writes_whole _ _ postHz, View.readCov_unit_zero (S := S1x128) _ postHz]
  simp only [View.readAt_eq_ld, View.ld_unit_zero (S := S5000x128) postHz, View.ld_unit_zero (S := S5000x1) postHz, View.ld_unit_zero (S := S1x1) postHz, View.ld_unit_zero (S := S1x128) postHz]

set_option maxHeartbeats 1000000 in
/-- THE LAST POINT (first conditional not taken, second taken): as at a middle point, and then the scratch's new
    contents are stored whole into the second output, found at anything. -/
theorem sound_kernel5_C (c : Dev nD) (E : Set ℕ) (i : grid5.Coords)
    (arg1 : Memref sig .tc .vmem S5000x128 .f32) (harg1 : arg1.IsWhole) (arg2 : Memref sig .tc .vmem S5000x1 .f32) (harg2 : arg2.IsWhole)
    (arg3 : Memref sig .tc .vmem S1x1 .f32) (harg3 : arg3.IsWhole) (arg4 : Memref sig .tc .vmem S5000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond5_0 i) (hc1 : cond5_1 i)
    (x0 : Vec F S5000x128 .f32) (x1 : Vec F S5000x1 .f32) (x2 : Vec F S1x1 .f32) (xs : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k5_pay2 x0 x1 x2) ∗ owns (c : Thread nD τ) arg5 fullShare (k5_pay3 x0 x1 x2 xs)
            ∗ owns (c : Thread nD τ) arg6 fullShare (k5_pay3 x0 x1 x2 xs)) -∗ K ⟨⟩))
      ⊢ wp frame (wpE (defs₀ (F := F)) Variants.none c none) E (cc5__post_kernel i arg1 harg1 arg2 harg2 arg3 harg3 arg4 harg4 arg5 harg5 arg6 harg6) K := by
  simp only [cc5__post_kernel_eq_skeleton]; unfold cc5__post_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [post_read_writes_whole _ _ postHz]
    simp only [View.readAt_eq_ld, View.ld_unit_zero (S := S5000x128) postHz, View.ld_unit_zero (S := S5000x1) postHz, View.ld_unit_zero (S := S1x1) postHz, View.ld_unit_zero (S := S1x128) postHz]
  isplitl [H4]
  · iexists _; isplitr
    swap; · iexact H4
    ipureintro
    sl_unfold_words
    rw [post_read_writes_whole _ _ postHz, View.readCov_unit_zero (S := S1x128) _ postHz]
    simp only [View.readAt_eq_ld, View.ld_unit_zero (S := S5000x128) postHz, View.ld_unit_zero (S := S5000x1) postHz, View.ld_unit_zero (S := S1x1) postHz, View.ld_unit_zero (S := S1x128) postHz]
  iexists _; isplitr
  swap; · iexact HS
  ipureintro
  sl_unfold_words
  rw [post_read_writes_whole _ _ postHz]
  simp only [View.readAt_eq_ld, View.ld_unit_zero (S := S5000x128) postHz, View.ld_unit_zero (S := S5000x1) postHz, View.ld_unit_zero (S := S1x1) postHz, View.ld_unit_zero (S := S1x128) postHz]

/-! ## The accumulator the kernel carries between the points -/

/-- The scratch operand: a whole scoped buffer of the kernel's own, passed beside the windows. -/
abbrev scM5 : Memref sig .tc .vmem S1x128 .f32 := Memref.whole cc5_scratch0

/-- What the scratch holds after the body at point `n`: at the first point the zero block `k5_pay1` with that
    point's column sums added (`k5_pay3`), afterwards what the point before left with this point's added. -/
def acc5 (c : Dev nD) : (n : ℕ) → n < cfg5.N → Vec F S1x128 .f32
  | 0, hn => k5_pay3 (iblk5 V c 0 ⟨0, hn⟩) (iblk5 V c 1 ⟨0, hn⟩) (iblk5 V c 2 ⟨0, hn⟩) (k5_pay1 (F := F))
  | n + 1, hn => k5_pay3 (iblk5 V c 0 ⟨n + 1, hn⟩) (iblk5 V c 1 ⟨n + 1, hn⟩) (iblk5 V c 2 ⟨n + 1, hn⟩) (acc5 c n (Nat.lt_of_succ_lt hn))

theorem acc5_zero (c : Dev nD) (hn : 0 < cfg5.N) :
    acc5 V c 0 hn = k5_pay3 (iblk5 V c 0 ⟨0, hn⟩) (iblk5 V c 1 ⟨0, hn⟩) (iblk5 V c 2 ⟨0, hn⟩) (k5_pay1 (F := F)) := rfl
theorem acc5_succ (c : Dev nD) (n : ℕ) (hn : n + 1 < cfg5.N) :
    acc5 V c (n + 1) hn = k5_pay3 (iblk5 V c 0 ⟨n + 1, hn⟩) (iblk5 V c 1 ⟨n + 1, hn⟩) (iblk5 V c 2 ⟨n + 1, hn⟩) (acc5 V c n (Nat.lt_of_succ_lt hn)) := rfl

/-- The accumulator at the first point, -/
theorem acc5_first (c : Dev nD) (t : Fin cfg5.N) (h0 : t.val = 0) :
    acc5 V c t.val t.isLt = k5_pay3 (iblk5 V c 0 t) (iblk5 V c 1 t) (iblk5 V c 2 t) (k5_pay1 (F := F)) := by
  obtain ⟨n, hn⟩ := t
  cases n with
  | zero => rfl
  | succ n => exact absurd h0 (Nat.succ_ne_zero n)
/-- and at a later one, over what the point before left. -/
theorem acc5_pos (c : Dev nD) (t : Fin cfg5.N) (h0 : t.val ≠ 0) :
    acc5 V c t.val t.isLt = k5_pay3 (iblk5 V c 0 t) (iblk5 V c 1 t) (iblk5 V c 2 t) (acc5 V c (t.val - 1) (Nat.lt_of_le_of_lt (Nat.sub_le _ _) t.isLt)) := by
  obtain ⟨n, hn⟩ := t
  cases n with
  | zero => exact absurd rfl h0
  | succ n => rfl

/-! ## The region invariant -/

/-- The class invariant with the scratch operand as a memref owned at some contents, the other scoped buffers
    unopened beside it. -/
theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-- The invariant before position `n`: before the first point the class's (the scratch at anything); afterwards the
    scratch at what the point before left in it, the other scoped buffers unopened, the generator register at some
    state. -/
def PhiS5 (c : Dev nD) : (n : ℕ) → n ≤ cfg5.N → sProp 𝕄
  | 0, _ => Pipeline.ΦA spec5 c
  | n + 1, hn => iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5 fullShare (acc5 V c n hn)
      ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of pipeline 5 on core `c`: the arrays as the region finds them (`V`); after the body at point `t`
    each input's buffer at its block, the first output's at the activation of the input blocks, the second
    output's at the accumulator (consulted at the last point only: elsewhere the window is idle); the invariant
    `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay2 (iblk5 V c 0 t) (iblk5 V c 1 t) (iblk5 V c 2 t)
    | ⟨4, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k5_pay2 (iblk5 V c 0 t) (iblk5 V c 1 t) (iblk5 V c 2 t) := by dsimp only [dat5]
theorem after5_4 (c : Dev nD) (t : Fin cfg5.N) : (dat5 V c).after 4 t = acc5 V c t.val t.isLt := by dsimp only [dat5]
/-- What the second output's buffer holds when it is written back: the accumulator after the last point. -/
theorem after5_4_last (c : Dev nD) (h : 9 < cfg5.N) : (dat5 V c).after 4 ⟨9, h⟩ = acc5 V c 9 h := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: the inputs' memrefs hold their blocks; the closed forms say which case the point is in;
    the invariant hands the body the scratch at what the point before left (at anything at the first point) and
    takes it back at this point's accumulator; off the last point the second output's buffer is handed back as
    found; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  rw [show (dat5 V c).leavesExact 2 t = owns (c : Thread nD τ) (st5_2 t) fullShare ((dat5 V c).after 2 t) from by
    unfold Dat.leavesExact; rw [liveAt5_2 t], after5_2]
  rw [show (dat5 V c).leavesExact 3 t = owns (c : Thread nD τ) (st5_3 t) fullShare ((dat5 V c).after 3 t) from by
    unfold Dat.leavesExact; rw [liveAt5_3 t], after5_3]
  by_cases h9 : t.val = 9
  · have h0 : t.val ≠ 0 := by omega
    rw [show (dat5 V c).leavesExact 4 t = owns (c : Thread nD τ) (st5_4 t) fullShare ((dat5 V c).after 4 t) from by
      unfold Dat.leavesExact; rw [liveAt5_4 t ((hcond5_1 t).mpr h9)], after5_4]
    rw [acc5_pos V c t h0]
    rw [PhiS5_castSucc V c t, PhiS5_pos V c _ _ h0]
    iintro ⟨⟨⟨HS, HR⟩, Hg⟩, Ho, ⟨%d0, H0⟩, ⟨%d1, H1⟩, ⟨%d2, H2⟩, ⟨%d3, H3⟩, ⟨%d4, H4⟩⟩
    iapply (sound_kernel5_C c Set.univ (grid5.coords t) _ _ _ _ _ _ _ _ _ _ _ _ (fun h => h0 ((hcond5_0 t).mp h)) ((hcond5_1 t).mpr h9)
      (iblk5 V c 0 t) (iblk5 V c 1 t) (iblk5 V c 2 t) _ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat5 V c) 4 t (idleAt5_4 t (fun h => h9 ((hcond5_1 t).mp h))) (noFlush5_4 t (fun h => h9 ((hcond5_1 t).mp h)))]
    by_cases h0 : t.val = 0
    · rw [acc5_first V c t h0]
      rw [PhiS5_castSucc V c t, PhiS5_zero V c _ _ h0, PhiA5_eq]
      iintro ⟨⟨⟨HS, HR⟩, Hg⟩, Ho, ⟨%d0, H0⟩, ⟨%d1, H1⟩, ⟨%d2, H2⟩, ⟨%d3, H3⟩, ⟨%d4, H4⟩⟩
      iapply (sound_kernel5_A c Set.univ (grid5.coords t) _ _ _ _ _ _ _ _ _ _ _ _ ((hcond5_0 t).mpr h0) (fun h => h9 ((hcond5_1 t).mp h))
        (iblk5 V c 0 t) (iblk5 V c 1 t) (iblk5 V c 2 t) _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [acc5_pos V c t h0]
      rw [PhiS5_castSucc V c t, PhiS5_pos V c _ _ h0]
      iintro ⟨⟨⟨HS, HR⟩, Hg⟩, Ho, ⟨%d0, H0⟩, ⟨%d1, H1⟩, ⟨%d2, H2⟩, ⟨%d3, H3⟩, ⟨%d4, H4⟩⟩
      iapply (sound_kernel5_B c Set.univ (grid5.coords t) _ _ _ _ _ _ _ _ _ _ _ _ (fun h => h0 ((hcond5_0 t).mp h)) (fun h => h9 ((hcond5_1 t).mp h))
        (iblk5 V c 0 t) (iblk5 V c 1 t) (iblk5 V c 2 t) _ _ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region (the class invariant) is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class invariant back: the scratch's named contents are
    forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS, HR⟩, Hg⟩
  isplitl [HS HR]
  · isplitl [HS]; · iexists _; iexact HS
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 10 := N_5; omega)

/-- info: 'Cert.Kernel.Hand.body_obligation5' depends on axioms: [propext, Classical.choice, Quot.sound] -/
#guard_msgs in #print axioms body_obligation5

end Cert.Kernel.Hand

end
-- ==== Proof.RunAllB.lean ====
/- THE RUN of @main: its fifteen items — nine stretches of host operations and six kernel regions — as segments from
   the launch to the return. The buffer contents at each boundary are a fold from the launch memory (a stretch: what its
   operations leave; a region: its windows' arrays at what the write-backs leave, every other buffer as entered). Each
   region is entered from "every unscoped buffer at the boundary's contents, the generator register at some state,
   nothing owed" and left at the same over the next boundary's contents. `run_all`: every weakly fair execution
   terminates without a fault and every final memory holds the last boundary's contents at every unscoped buffer;
   `frame_all`: in particular every argument array ends as launched, because no stretch and no region writes one. -/
import proofs.«172984_j19241453486477_1_alg».proof.Proof.Gen.Kernel.Regions
import proofs.«172984_j19241453486477_1_alg».proof.Proof.ProjectRegion0B
import proofs.«172984_j19241453486477_1_alg».proof.Proof.ProjectRegion2B
import proofs.«172984_j19241453486477_1_alg».proof.Proof.ProjectRegion4B
import proofs.«172984_j19241453486477_1_alg».proof.Proof.PostRegion1B
import proofs.«172984_j19241453486477_1_alg».proof.Proof.PostRegion3B
import proofs.«172984_j19241453486477_1_alg».proof.Proof.PostRegion5B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After item 0, the host stretch `hostOps0`. -/
abbrev W1 : Dev nD → Valuation τ sig (Elt F) := fun c => StableHlo.after hostOps0 (W0 m ρ c)
/-- After item 1, the host stretch `hostOps0_1`. -/
abbrev W2 : Dev nD → Valuation τ sig (Elt F) := fun c => StableHlo.after hostOps0_1 (W1 m ρ c)
/-- After item 2, the host stretch `hostOps0_2`. -/
abbrev W3 : Dev nD → Valuation τ sig (Elt F) := fun c => StableHlo.after hostOps0_2 (W2 m ρ c)
/-- After item 3, the host stretch `hostOps0_3`. -/
abbrev W4 : Dev nD → Valuation τ sig (Elt F) := fun c => StableHlo.after hostOps0_3 (W3 m ρ c)
/-- After item 4, the host stretch `hostOps0_4`. -/
abbrev W5 : Dev nD → Valuation τ sig (Elt F) := fun c => StableHlo.after hostOps0_4 (W4 m ρ c)
/-- Region 0's entry contents read at the TensorCore's references (what its proof data take). -/
abbrev Vin0 : (c : Dev nD) → (b : Ref sig .tc) → Buf (Elt F) ((c : Thread nD τ).loc b) := fun c b => W5 m ρ c b
/-- After item 5, region 0: its arrays at what the pipeline leaves (an input as entered, an output's write-backs
    folded), every other buffer as entered. -/
def W6 (c : Dev nD) : Valuation τ sig (Elt F) :=
  Pipeline.withArrays spec0 c (W5 m ρ c) fun w => (dat0 (Vin0 m ρ) c).arrAt w cfg0.N
theorem W6_arr (c : Dev nD) (w : Fin cfg0.W) :
    W6 m ρ c (Proc.devRef .tc (Pipeline.arrRef spec0 w)) = (dat0 (Vin0 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- Region 0's exit contents read at the TensorCore's references. -/
abbrev Vout0 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (Vin0 m ρ) c).arrAt w cfg0.N = Vout0 m ρ c (Pipeline.arrRef spec0 w) :=
  (W6_arr m ρ c w).symm
theorem hrest0 (c : Dev nD) : ∀ b, b ∉ Finset.univ.image (Pipeline.arrRef spec0) → Vout0 m ρ c b = Vin0 m ρ c b :=
  fun b hb => W6_of_ne m ρ c b fun w e => hb (Finset.mem_image.mpr ⟨w, Finset.mem_univ _, e⟩)
/-- After item 6, the host stretch `hostOps1`. -/
abbrev W7 : Dev nD → Valuation τ sig (Elt F) := fun c => StableHlo.after hostOps1 (W6 m ρ c)
/-- Region 1's entry contents read at the TensorCore's references (what its proof data take). -/
abbrev Vin1 : (c : Dev nD) → (b : Ref sig .tc) → Buf (Elt F) ((c : Thread nD τ).loc b) := fun c b => W7 m ρ c b
/-- After item 7, region 1: its arrays at what the pipeline leaves (an input as entered, an output's write-backs
    folded), every other buffer as entered. -/
def W8 (c : Dev nD) : Valuation τ sig (Elt F) :=
  Pipeline.withArrays spec1 c (W7 m ρ c) fun w => (dat1 (Vin1 m ρ) c).arrAt w cfg1.N
theorem W8_arr (c : Dev nD) (w : Fin cfg1.W) :
    W8 m ρ c (Proc.devRef .tc (Pipeline.arrRef spec1 w)) = (dat1 (Vin1 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- Region 1's exit contents read at the TensorCore's references. -/
abbrev Vout1 : (c : Dev nD) → (b : Ref sig .tc) → Buf (Elt F) ((c : Thread nD τ).loc b) := fun c b => W8 m ρ c b
/-- At region 1's exit each of its arrays holds what the pipeline leaves and every other buffer what it held at entry. -/
theorem hF1 (c : Dev nD) (w : Fin cfg1.W) : (dat1 (Vin1 m ρ) c).arrAt w cfg1.N = Vout1 m ρ c (Pipeline.arrRef spec1 w) :=
  (W8_arr m ρ c w).symm
theorem hrest1 (c : Dev nD) : ∀ b, b ∉ Finset.univ.image (Pipeline.arrRef spec1) → Vout1 m ρ c b = Vin1 m ρ c b :=
  fun b hb => W8_of_ne m ρ c b fun w e => hb (Finset.mem_image.mpr ⟨w, Finset.mem_univ _, e⟩)
/-- Region 2's entry contents read at the TensorCore's references (what its proof data take). -/
abbrev Vin2 : (c : Dev nD) → (b : Ref sig .tc) → Buf (Elt F) ((c : Thread nD τ).loc b) := fun c b => W8 m ρ c b
/-- After item 8, region 2: its arrays at what the pipeline leaves (an input as entered, an output's write-backs
    folded), every other buffer as entered. -/
def W9 (c : Dev nD) : Valuation τ sig (Elt F) :=
  Pipeline.withArrays spec2 c (W8 m ρ c) fun w => (dat2 (Vin2 m ρ) c).arrAt w cfg2.N
theorem W9_arr (c : Dev nD) (w : Fin cfg2.W) :
    W9 m ρ c (Proc.devRef .tc (Pipeline.arrRef spec2 w)) = (dat2 (Vin2 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- Region 2's exit contents read at the TensorCore's references. -/
abbrev Vout2 : (c : Dev nD) → (b : Ref sig .tc) → Buf (Elt F) ((c : Thread nD τ).loc b) := fun c b => W9 m ρ c b
/-- At region 2's exit each of its arrays holds what the pipeline leaves and every other buffer what it held at entry. -/
theorem hF2 (c : Dev nD) (w : Fin cfg2.W) : (dat2 (Vin2 m ρ) c).arrAt w cfg2.N = Vout2 m ρ c (Pipeline.arrRef spec2 w) :=
  (W9_arr m ρ c w).symm
theorem hrest2 (c : Dev nD) : ∀ b, b ∉ Finset.univ.image (Pipeline.arrRef spec2) → Vout2 m ρ c b = Vin2 m ρ c b :=
  fun b hb => W9_of_ne m ρ c b fun w e => hb (Finset.mem_image.mpr ⟨w, Finset.mem_univ _, e⟩)
/-- After item 9, the host stretch `hostOps3`. -/
abbrev W10 : Dev nD → Valuation τ sig (Elt F) := fun c => StableHlo.after hostOps3 (W9 m ρ c)
/-- Region 3's entry contents read at the TensorCore's references (what its proof data take). -/
abbrev Vin3 : (c : Dev nD) → (b : Ref sig .tc) → Buf (Elt F) ((c : Thread nD τ).loc b) := fun c b => W10 m ρ c b
/-- After item 10, region 3: its arrays at what the pipeline leaves (an input as entered, an output's write-backs
    folded), every other buffer as entered. -/
def W11 (c : Dev nD) : Valuation τ sig (Elt F) :=
  Pipeline.withArrays spec3 c (W10 m ρ c) fun w => (dat3 (Vin3 m ρ) c).arrAt w cfg3.N
theorem W11_arr (c : Dev nD) (w : Fin cfg3.W) :
    W11 m ρ c (Proc.devRef .tc (Pipeline.arrRef spec3 w)) = (dat3 (Vin3 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- Region 3's exit contents read at the TensorCore's references. -/
abbrev Vout3 : (c : Dev nD) → (b : Ref sig .tc) → Buf (Elt F) ((c : Thread nD τ).loc b) := fun c b => W11 m ρ c b
/-- At region 3's exit each of its arrays holds what the pipeline leaves and every other buffer what it held at entry. -/
theorem hF3 (c : Dev nD) (w : Fin cfg3.W) : (dat3 (Vin3 m ρ) c).arrAt w cfg3.N = Vout3 m ρ c (Pipeline.arrRef spec3 w) :=
  (W11_arr m ρ c w).symm
theorem hrest3 (c : Dev nD) : ∀ b, b ∉ Finset.univ.image (Pipeline.arrRef spec3) → Vout3 m ρ c b = Vin3 m ρ c b :=
  fun b hb => W11_of_ne m ρ c b fun w e => hb (Finset.mem_image.mpr ⟨w, Finset.mem_univ _, e⟩)
/-- Region 4's entry contents read at the TensorCore's references (what its proof data take). -/
abbrev Vin4 : (c : Dev nD) → (b : Ref sig .tc) → Buf (Elt F) ((c : Thread nD τ).loc b) := fun c b => W11 m ρ c b
/-- After item 11, region 4: its arrays at what the pipeline leaves (an input as entered, an output's write-backs
    folded), every other buffer as entered. -/
def W12 (c : Dev nD) : Valuation τ sig (Elt F) :=
  Pipeline.withArrays spec4 c (W11 m ρ c) fun w => (dat4 (Vin4 m ρ) c).arrAt w cfg4.N
theorem W12_arr (c : Dev nD) (w : Fin cfg4.W) :
    W12 m ρ c (Proc.devRef .tc (Pipeline.arrRef spec4 w)) = (dat4 (Vin4 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- Region 4's exit contents read at the TensorCore's references. -/
abbrev Vout4 : (c : Dev nD) → (b : Ref sig .tc) → Buf (Elt F) ((c : Thread nD τ).loc b) := fun c b => W12 m ρ c b
/-- At region 4's exit each of its arrays holds what the pipeline leaves and every other buffer what it held at entry. -/
theorem hF4 (c : Dev nD) (w : Fin cfg4.W) : (dat4 (Vin4 m ρ) c).arrAt w cfg4.N = Vout4 m ρ c (Pipeline.arrRef spec4 w) :=
  (W12_arr m ρ c w).symm
theorem hrest4 (c : Dev nD) : ∀ b, b ∉ Finset.univ.image (Pipeline.arrRef spec4) → Vout4 m ρ c b = Vin4 m ρ c b :=
  fun b hb => W12_of_ne m ρ c b fun w e => hb (Finset.mem_image.mpr ⟨w, Finset.mem_univ _, e⟩)
/-- After item 12, the host stretch `hostOps5`. -/
abbrev W13 : Dev nD → Valuation τ sig (Elt F) := fun c => StableHlo.after hostOps5 (W12 m ρ c)
/-- Region 5's entry contents read at the TensorCore's references (what its proof data take). -/
abbrev Vin5 : (c : Dev nD) → (b : Ref sig .tc) → Buf (Elt F) ((c : Thread nD τ).loc b) := fun c b => W13 m ρ c b
/-- After item 13, region 5: its arrays at what the pipeline leaves (an input as entered, an output's write-backs
    folded), every other buffer as entered. -/
def W14 (c : Dev nD) : Valuation τ sig (Elt F) :=
  Pipeline.withArrays spec5 c (W13 m ρ c) fun w => (dat5 (Vin5 m ρ) c).arrAt w cfg5.N
theorem W14_arr (c : Dev nD) (w : Fin cfg5.W) :
    W14 m ρ c (Proc.devRef .tc (Pipeline.arrRef spec5 w)) = (dat5 (Vin5 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
/-- Region 5's exit contents read at the TensorCore's references. -/
abbrev Vout5 : (c : Dev nD) → (b : Ref sig .tc) → Buf (Elt F) ((c : Thread nD τ).loc b) := fun c b => W14 m ρ c b
/-- At region 5's exit each of its arrays holds what the pipeline leaves and every other buffer what it held at entry. -/
theorem hF5 (c : Dev nD) (w : Fin cfg5.W) : (dat5 (Vin5 m ρ) c).arrAt w cfg5.N = Vout5 m ρ c (Pipeline.arrRef spec5 w) :=
  (W14_arr m ρ c w).symm
theorem hrest5 (c : Dev nD) : ∀ b, b ∉ Finset.univ.image (Pipeline.arrRef spec5) → Vout5 m ρ c b = Vin5 m ρ c b :=
  fun b hb => W14_of_ne m ρ c b fun w e => hb (Finset.mem_image.mpr ⟨w, Finset.mem_univ _, e⟩)
/-- After item 14, the host stretch `hostOps6`. -/
abbrev W15 : Dev nD → Valuation τ sig (Elt F) := fun c => StableHlo.after hostOps6 (W14 m ρ c)

/-! ### The arguments end as launched: no host operation and no region writes one (a region reads one through an
    input window or bypasses it), so the fold at an argument's buffer walks back to the launch memory -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := StableHlo.after_of_writes_sub hostOps6 _ hostOps6_writes (by decide)
    _ = W13 m ρ c (Proc.devRef .tc main_arg0) := W14_of_ne m ρ c main_arg0 (by decide)
    _ = W12 m ρ c (Proc.devRef .tc main_arg0) := StableHlo.after_of_writes_sub hostOps5 _ hostOps5_writes (by decide)
    _ = W11 m ρ c (Proc.devRef .tc main_arg0) := W12_of_ne m ρ c main_arg0 (by decide)
    _ = W10 m ρ c (Proc.devRef .tc main_arg0) := W11_of_ne m ρ c main_arg0 (by decide)
    _ = W9 m ρ c (Proc.devRef .tc main_arg0) := StableHlo.after_of_writes_sub hostOps3 _ hostOps3_writes (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps1 _ hostOps1_writes (by decide)
    _ = W5 m ρ c (Proc.devRef .tc main_arg0) := (W6_arr m ρ c 0).trans (((dat0 (Vin0 m ρ) c).arrAt_in 0 rfl _).trans (A_eq0 (Vin0 m ρ) c 0))
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := StableHlo.after_of_writes_sub hostOps6 _ hostOps6_writes (by decide)
    _ = W13 m ρ c (Proc.devRef .tc main_arg1) := W14_of_ne m ρ c main_arg1 (by decide)
    _ = W12 m ρ c (Proc.devRef .tc main_arg1) := StableHlo.after_of_writes_sub hostOps5 _ hostOps5_writes (by decide)
    _ = W11 m ρ c (Proc.devRef .tc main_arg1) := W12_of_ne m ρ c main_arg1 (by decide)
    _ = W10 m ρ c (Proc.devRef .tc main_arg1) := W11_of_ne m ρ c main_arg1 (by decide)
    _ = W9 m ρ c (Proc.devRef .tc main_arg1) := StableHlo.after_of_writes_sub hostOps3 _ hostOps3_writes (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := StableHlo.after_of_writes_sub hostOps6 _ hostOps6_writes (by decide)
    _ = W13 m ρ c (Proc.devRef .tc main_arg2) := W14_of_ne m ρ c main_arg2 (by decide)
    _ = W12 m ρ c (Proc.devRef .tc main_arg2) := StableHlo.after_of_writes_sub hostOps5 _ hostOps5_writes (by decide)
    _ = W11 m ρ c (Proc.devRef .tc main_arg2) := W12_of_ne m ρ c main_arg2 (by decide)
    _ = W10 m ρ c (Proc.devRef .tc main_arg2) := W11_of_ne m ρ c main_arg2 (by decide)
    _ = W9 m ρ c (Proc.devRef .tc main_arg2) := StableHlo.after_of_writes_sub hostOps3 _ hostOps3_writes (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := StableHlo.after_of_writes_sub hostOps6 _ hostOps6_writes (by decide)
    _ = W13 m ρ c (Proc.devRef .tc main_arg3) := W14_of_ne m ρ c main_arg3 (by decide)
    _ = W12 m ρ c (Proc.devRef .tc main_arg3) := StableHlo.after_of_writes_sub hostOps5 _ hostOps5_writes (by decide)
    _ = W11 m ρ c (Proc.devRef .tc main_arg3) := W12_of_ne m ρ c main_arg3 (by decide)
    _ = W10 m ρ c (Proc.devRef .tc main_arg3) := W11_of_ne m ρ c main_arg3 (by decide)
    _ = W9 m ρ c (Proc.devRef .tc main_arg3) := StableHlo.after_of_writes_sub hostOps3 _ hostOps3_writes (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := (W6_arr m ρ c 2).trans (((dat0 (Vin0 m ρ) c).arrAt_in 2 rfl _).trans (A_eq0 (Vin0 m ρ) c 2))
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := StableHlo.after_of_writes_sub hostOps6 _ hostOps6_writes (by decide)
    _ = W13 m ρ c (Proc.devRef .tc main_arg4) := W14_of_ne m ρ c main_arg4 (by decide)
    _ = W12 m ρ c (Proc.devRef .tc main_arg4) := StableHlo.after_of_writes_sub hostOps5 _ hostOps5_writes (by decide)
    _ = W11 m ρ c (Proc.devRef .tc main_arg4) := W12_of_ne m ρ c main_arg4 (by decide)
    _ = W10 m ρ c (Proc.devRef .tc main_arg4) := W11_of_ne m ρ c main_arg4 (by decide)
    _ = W9 m ρ c (Proc.devRef .tc main_arg4) := StableHlo.after_of_writes_sub hostOps3 _ hostOps3_writes (by decide)
    _ = W8 m ρ c (Proc.devRef .tc main_arg4) := (W9_arr m ρ c 2).trans (((dat2 (Vin2 m ρ) c).arrAt_in 2 rfl _).trans (A_eq2 (Vin2 m ρ) c 2))
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := W6_of_ne m ρ c main_arg4 (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := StableHlo.after_of_writes_sub hostOps6 _ hostOps6_writes (by decide)
    _ = W13 m ρ c (Proc.devRef .tc main_arg5) := W14_of_ne m ρ c main_arg5 (by decide)
    _ = W12 m ρ c (Proc.devRef .tc main_arg5) := StableHlo.after_of_writes_sub hostOps5 _ hostOps5_writes (by decide)
    _ = W11 m ρ c (Proc.devRef .tc main_arg5) := (W12_arr m ρ c 2).trans (((dat4 (Vin4 m ρ) c).arrAt_in 2 rfl _).trans (A_eq4 (Vin4 m ρ) c 2))
    _ = W10 m ρ c (Proc.devRef .tc main_arg5) := W11_of_ne m ρ c main_arg5 (by decide)
    _ = W9 m ρ c (Proc.devRef .tc main_arg5) := StableHlo.after_of_writes_sub hostOps3 _ hostOps3_writes (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := W6_of_ne m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W15_main_arg6 (c : Dev nD) : W15 m ρ c (Proc.devRef .tc main_arg6) = m ((c : Thread nD τ).loc main_arg6) :=
  calc W15 m ρ c (Proc.devRef .tc main_arg6)
    _ = W14 m ρ c (Proc.devRef .tc main_arg6) := StableHlo.after_of_writes_sub hostOps6 _ hostOps6_writes (by decide)
    _ = W13 m ρ c (Proc.devRef .tc main_arg6) := W14_of_ne m ρ c main_arg6 (by decide)
    _ = W12 m ρ c (Proc.devRef .tc main_arg6) := StableHlo.after_of_writes_sub hostOps5 _ hostOps5_writes (by decide)
    _ = W11 m ρ c (Proc.devRef .tc main_arg6) := W12_of_ne m ρ c main_arg6 (by decide)
    _ = W10 m ρ c (Proc.devRef .tc main_arg6) := W11_of_ne m ρ c main_arg6 (by decide)
    _ = W9 m ρ c (Proc.devRef .tc main_arg6) := StableHlo.after_of_writes_sub hostOps3 _ hostOps3_writes (by decide)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := StableHlo.after_of_writes_sub hostOps6 _ hostOps6_writes (by decide)
    _ = W13 m ρ c (Proc.devRef .tc main_arg7) := W14_of_ne m ρ c main_arg7 (by decide)
    _ = W12 m ρ c (Proc.devRef .tc main_arg7) := StableHlo.after_of_writes_sub hostOps5 _ hostOps5_writes (by decide)
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := StableHlo.after_of_writes_sub hostOps3 _ hostOps3_writes (by decide)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps1 _ hostOps1_writes (by decide)
    _ = W5 m ρ c (Proc.devRef .tc main_arg7) := W6_of_ne m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := StableHlo.after_of_writes_sub hostOps6 _ hostOps6_writes (by decide)
    _ = W13 m ρ c (Proc.devRef .tc main_arg8) := W14_of_ne m ρ c main_arg8 (by decide)
    _ = W12 m ρ c (Proc.devRef .tc main_arg8) := StableHlo.after_of_writes_sub hostOps5 _ hostOps5_writes (by decide)
    _ = W11 m ρ c (Proc.devRef .tc main_arg8) := W12_of_ne m ρ c main_arg8 (by decide)
    _ = W10 m ρ c (Proc.devRef .tc main_arg8) := W11_of_ne m ρ c main_arg8 (by decide)
    _ = W9 m ρ c (Proc.devRef .tc main_arg8) := StableHlo.after_of_writes_sub hostOps3 _ hostOps3_writes (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_writes_sub hostOps1 _ hostOps1_writes (by decide)
    _ = W5 m ρ c (Proc.devRef .tc main_arg8) := W6_of_ne m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state and its `owes`, at nothing. -/
abbrev Rc (c : Dev nD) : sProp 𝕄 := iprop((∃ r, prngReg c r) ∗ ∃ W, owes (c : Thread nD τ) (0 : CellTallies nD τ sig Unit) W)
/-- A host stretch as a segment over the unscoped references from the contents `W`, `Rc` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- REGION 0 over the thread state: entered from every unscoped buffer at `W5`, left at `W6`. Its arrays are split
    out of the unscoped buffers at entry and put back at the exit contents; the generator register goes into the region's
    invariant and comes back; nothing is owed; the kernel has no semaphore of its own. -/
def reg0 : Pipeline.RegionSeg (pcfgs (F := F)) adm (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L₀ lv₀ 0 fun _ _ => rfl
  pre c := iprop(StableHlo.held (c : Thread nD τ) (Pipeline.ucRefs τ sig) (W5 m ρ c) ∗ Rc c)
  post c := iprop(StableHlo.held (c : Thread nD τ) (Pipeline.ucRefs τ sig) (W6 m ρ c) ∗ Rc c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. Its arrays are split
    out of the unscoped buffers at entry and put back at the exit contents; the generator register goes into the region's
    invariant and comes back; nothing is owed; the kernel has no semaphore of its own. -/
def reg1 : Pipeline.RegionSeg (pcfgs (F := F)) adm (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L₀ lv₀ 1 fun _ _ => rfl
  pre c := iprop(StableHlo.held (c : Thread nD τ) (Pipeline.ucRefs τ sig) (W7 m ρ c) ∗ Rc c)
  post c := iprop(StableHlo.held (c : Thread nD τ) (Pipeline.ucRefs τ sig) (W8 m ρ c) ∗ Rc c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (Vin1 m ρ) c).Φ 0 from rfl]
    refine .trans ?_ (hin1 (Vin1 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (Vin1 m ρ) c).Φ (Fin.last cfg1.N) from rfl]
    refine (hout1 (Vin1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are split
    out of the unscoped buffers at entry and put back at the exit contents; the generator register goes into the region's
    invariant and comes back; nothing is owed; the kernel has no semaphore of its own. -/
def reg2 : Pipeline.RegionSeg (pcfgs (F := F)) adm (pdats m ρ) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L₀ lv₀ 2 fun _ _ => rfl
  pre c := iprop(StableHlo.held (c : Thread nD τ) (Pipeline.ucRefs τ sig) (W8 m ρ c) ∗ Rc c)
  post c := iprop(StableHlo.held (c : Thread nD τ) (Pipeline.ucRefs τ sig) (W9 m ρ c) ∗ Rc c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W10`, left at `W11`. Its arrays are split
    out of the unscoped buffers at entry and put back at the exit contents; the generator register goes into the region's
    invariant and comes back; nothing is owed; the kernel has no semaphore of its own. -/
def reg3 : Pipeline.RegionSeg (pcfgs (F := F)) adm (pdats m ρ) () defs₀ 𝒱₀ L₀ lv₀ 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L₀ lv₀ 3 fun _ _ => rfl
  pre c := iprop(StableHlo.held (c : Thread nD τ) (Pipeline.ucRefs τ sig) (W10 m ρ c) ∗ Rc c)
  post c := iprop(StableHlo.held (c : Thread nD τ) (Pipeline.ucRefs τ sig) (W11 m ρ c) ∗ Rc c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (Vin3 m ρ) c).Φ 0 from rfl]
    refine .trans ?_ (hin3 (Vin3 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (Vin3 m ρ) c).Φ (Fin.last cfg3.N) from rfl]
    refine (hout3 (Vin3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W11`, left at `W12`. Its arrays are split
    out of the unscoped buffers at entry and put back at the exit contents; the generator register goes into the region's
    invariant and comes back; nothing is owed; the kernel has no semaphore of its own. -/
def reg4 : Pipeline.RegionSeg (pcfgs (F := F)) adm (pdats m ρ) () defs₀ 𝒱₀ L₀ lv₀ 4 where
  win := launch4.win.to₀
  block_pos := launch4.block_pos
  stage_whole := launch4.stage_whole
  K := PEmpty
  osem k := k.elim
  ho := Pipeline.OwnSemFacts.none _
  hbody c := (body_obligation4 (Vin4 m ρ) c).loose
  hwaits := Pipeline.hwaits_of_owed_zero _ _ _ _ L₀ lv₀ 4 fun _ _ => rfl
  pre c := iprop(StableHlo.held (c : Thread nD τ) (Pipeline.ucRefs τ sig) (W11 m ρ c) ∗ Rc c)
  post c := iprop(StableHlo.held (c : Thread nD τ) (Pipeline.ucRefs τ sig) (W12 m ρ c) ∗ Rc c)
  X c := iprop(∃ r, prngReg c r)
  Y c := iprop(∃ r, prngReg c r)
  Z c := Pipeline.unscopedRest (Ix := Unit) (Name := ℕ) (U := UR sig nD τ) (Lvl := ℕ) spec4 c (Vin4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vin4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vin4 m ρ c) (Vout4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W13`, left at `W14`. Its arrays are split
    out of the unscoped buffers at entry and put back at the exit contents; the generator register goes into the region's
    invariant and comes back; nothing is owed; the kernel has no semaphore of its own. -/
def reg5 : Pipeline.RegionSeg (pcfgs (F := F)) adm (pdats m ρ) () defs₀ 𝒱₀ L₀ lv₀ 5 where
  win := launch5.win.to₀
  block_pos := launch5.block_pos
  stage_whole := launch5.stage_whole
  K := PEmpty
  osem k := k.elim
  ho := Pipeline.OwnSemFacts.none _
  hbody c := (body_obligation5 (Vin5 m ρ) c).loose
  hwaits := Pipeline.hwaits_of_owed_zero _ _ _ _ L₀ lv₀ 5 fun _ _ => rfl
  pre c := iprop(StableHlo.held (c : Thread nD τ) (Pipeline.ucRefs τ sig) (W13 m ρ c) ∗ Rc c)
  post c := iprop(StableHlo.held (c : Thread nD τ) (Pipeline.ucRefs τ sig) (W14 m ρ c) ∗ Rc c)
  X c := iprop(∃ r, prngReg c r)
  Y c := iprop(∃ r, prngReg c r)
  Z c := Pipeline.unscopedRest (Ix := Unit) (Name := ℕ) (U := UR sig nD τ) (Lvl := ℕ) spec5 c (Vin5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vin5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (Vin5 m ρ) c).Φ 0 from rfl]
    refine .trans ?_ (hin5 (Vin5 m ρ) c)
    unfold Pipeline.ΦA
    iintro ⟨Hp, -, Hr⟩
    isplitl [Hr]; · iexact Hr
    iexact Hp
  hout c := by
    rw [Pipeline.ownSems0_none, show (pdats m ρ 5 c).Φ (Fin.last _) = (dat5 (Vin5 m ρ) c).Φ (Fin.last cfg5.N) from rfl]
    refine (hout5 (Vin5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vin5 m ρ c) (Vout5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fifteen segments in order: a host segment per stretch from its boundary's contents, a region per kernel call. -/
abbrev segsAll : List (Pipeline.Seg (pcfgs (F := F)) adm (pdats m ρ) () defs₀ 𝒱₀ L₀ lv₀) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .region (reg2 m ρ),
    .host (hseg hostOps3 hostOps3_sub hostOps3_fresh (W9 m ρ)),
    .region (reg3 m ρ),
    .region (reg4 m ρ),
    .host (hseg hostOps5 hostOps5_sub hostOps5_fresh (W12 m ρ)),
    .region (reg5 m ρ),
    .host (hseg hostOps6 hostOps6_sub hostOps6_fresh (W14 m ρ)) ]

set_option backward.isDefEq.respectTransparency.types false in
/-- THE RUN: from any memory with zero counters, every weakly fair execution of @main on the TensorCores terminates,
    nothing faulting, and every final memory holds the last boundary's contents `W15` at every unscoped buffer. -/
theorem run_all : θ_run defs (onTc (τ := τ) (main (F := F))) ⟨m, fun _ => 0, ρ⟩
    (fun r => ∀ c : Dev nD, ∀ b ∈ Pipeline.ucRefs τ sig, r.2.mem ((c : Thread nD τ).1, b) = W15 m ρ c b) :=
  Pipeline.θ_run_regions_kit (pcfgs (F := F)) adm (pdats m ρ) () cellOf_inj emb₁ defs₀ 𝒱₀ L₀ lv₀ m ρ main (segsAll m ρ)
    (fun c Q => by
      rewrite [main_chain c, Pipeline.Seg.run_eq_chain,
        show (segsAll m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6 ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rc c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W15 m ρ c) ∗ Rc c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- THE FRAME at any `F`: every weakly fair execution of @main terminates, nothing faulting, and every final memory has
    each argument array as launched — `run_all`, each argument read back through the fold (`W15_main_argK`). -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c)⟩) (run_all m ρ)

end Cert.Kernel.Hand

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.RefOps.lean ====
/-
  The reference's three kinds of layer steps as functions of arrays, each read at an index over the extended
  reals: the projection (scale row i of h by n[i], then times W), the rectified scaling of the aggregated matrix,
  and the column sums.
-/
import proofs.«172984_j19241453486477_1_alg».proof.Proof.Gen.ReferenceIdeal
import proofs.«172984_j19241453486477_1_alg».proof.Proof.LibPlainDot
import proofs.«172984_j19241453486477_1_alg».proof.Proof.LibBroadcastReads
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.ValueIdx

namespace Cert.ReferenceIdeal.RefOps

open Cert.ReferenceIdeal Cert.ReferenceIdeal.Gen

/-- A vector of 50000 entries as the matrix whose every column it is. -/
def spread (nv : FVec Ideal S50000 .f32) : FVec Ideal S50000x128 .f32 :=
  broadcastInDim S50000x128 ![0, 1] bcast_S50000x1_S50000x128_0_1 (broadcastInDim S50000x1 ![0] bcast_S50000_S50000x1_0 nv)

theorem spread_apply (nv : FVec Ideal S50000 .f32) (p : Fin 50000) (q : Fin 128) :
    spread nv (ix2 p q) = nv (ix1 p) := by
  unfold spread
  rw [Cert.Lib.BroadcastReads.broadcastInDim_a1_ab_apply, Cert.Lib.BroadcastReads.broadcastInDim_a_a1_apply]

/-- The reference's projection step. -/
def refProj (h : FVec Ideal S50000x128 .f32) (nv : FVec Ideal S50000 .f32) (W : FVec Ideal S128x128 .f32) :
    FVec Ideal S50000x128 .f32 :=
  Host.dotGeneral dot_S50000x128_S128x128_S50000x128_1_0_0_1_n_n none (mulf h (spread nv)) W

theorem refProj_apply (h : FVec Ideal S50000x128 .f32) (nv : FVec Ideal S50000 .f32) (W : FVec Ideal S128x128 .f32)
    (p : Fin 50000) (q : Fin 128) :
    refProj h nv W (ix2 p q) = ∑ k : Fin 128, (h (ix2 p k) * nv (ix1 p)) * W (ix2 k q) := by
  unfold refProj
  simp only [Host.dotGeneral]
  refine (Cert.Lib.PlainDot.plain_dotGeneral_apply (M := 50000) (K := 128) (N := 128) none _ _ _ p q).trans ?_
  refine Finset.sum_congr rfl fun k _ => ?_
  rw [mulf_apply, spread_apply]

/-- The rectifier with slope `a` on one extended real, in the operations the program prints. -/
def prelu (a x : EReal) : EReal :=
  Scalar.select (FloatOps.cmpf (F := Ideal) (φ := .f32) .oge x (Ideal.ofBits .f32 0x00000000#32)) x (a * x)

/-- The reference's rectified scaling step. -/
def refPost (agg : FVec Ideal S50000x128 .f32) (nv : FVec Ideal S50000 .f32) (a : FVec Ideal S1 .f32) :
    FVec Ideal S50000x128 .f32 :=
  select (cmpf .oge (mulf agg (spread nv)) (broadcastInDim S50000x128 ![] bcast_S_S50000x128 (constant (F := Ideal) S_ .f32 0x00000000#32)))
    (mulf agg (spread nv))
    (mulf (broadcastInDim S50000x128 ![0, 1] bcast_S1x1_S50000x128_0_1 (broadcastInDim S1x1 ![1] bcast_S1_S1x1_1 a)) (mulf agg (spread nv)))

theorem slope_apply (a : FVec Ideal S1 .f32) (i : S50000x128.Idx) :
    broadcastInDim S50000x128 ![0, 1] bcast_S1x1_S50000x128_0_1 (broadcastInDim S1x1 ![1] bcast_S1_S1x1_1 a) i = a (ix1 (0 : Fin 1)) := by
  have h1 : ∀ y : FVec Ideal S1x1 .f32, broadcastInDim S50000x128 ![0, 1] bcast_S1x1_S50000x128_0_1 y i = y (ix2 (0 : Fin 1) (0 : Fin 1)) :=
    fun y => broadcastInDim_apply _ bcast_S1x1_S50000x128_0_1 y i (ix2 (0 : Fin 1) (0 : Fin 1)) (fun b => match b with
      | ⟨0, _⟩ => by show 0 = if (1 : Nat) = 1 then 0 else (i 0).val; rw [if_pos rfl]
      | ⟨1, _⟩ => by show 0 = if (1 : Nat) = 1 then 0 else (i 1).val; rw [if_pos rfl])
  rw [h1]
  exact broadcastInDim_apply _ bcast_S1_S1x1_1 a (ix2 (0 : Fin 1) (0 : Fin 1)) (ix1 (0 : Fin 1)) (fun b => match b with
    | ⟨0, _⟩ => by show 0 = if (1 : Nat) = 1 then 0 else ((ix2 (0 : Fin 1) (0 : Fin 1) : S1x1.Idx) 1).val; rw [if_pos rfl])

theorem refPost_apply (agg : FVec Ideal S50000x128 .f32) (nv : FVec Ideal S50000 .f32) (a : FVec Ideal S1 .f32)
    (p : Fin 50000) (q : Fin 128) :
    refPost agg nv a (ix2 p q) = prelu (a (ix1 (0 : Fin 1))) (agg (ix2 p q) * nv (ix1 p)) := by
  unfold refPost prelu
  rw [select_apply, cmpf_apply]
  simp only [mulf_apply, spread_apply]
  rw [slope_apply a (ix2 p q)]
  rfl

/-- The reference's column sums, as a one-row matrix. -/
def refSum (x : FVec Ideal S50000x128 .f32) : FVec Ideal S1x128 .f32 :=
  broadcastInDim S1x128 ![1] bcast_S128_S1x128_1
    (Host.reduceAdd x (constant (F := Ideal) S_ .f32 0x00000000#32) reducesTo_S50000x128_S128_d0 h_S_)

theorem refSum_apply (x : FVec Ideal S50000x128 .f32) (q : Fin 128) :
    refSum x (ix2 (0 : Fin 1) q) = 0 + ∑ r : Fin 50000, x (ix2 r q) := by
  unfold refSum
  have h1 : ∀ y : FVec Ideal S128 .f32, broadcastInDim S1x128 ![1] bcast_S128_S1x128_1 y (ix2 (0 : Fin 1) q) = y (ix1 q) :=
    fun y => broadcastInDim_apply _ bcast_S128_S1x128_1 y (ix2 (0 : Fin 1) q) (ix1 q) (fun b => match b with
      | ⟨0, _⟩ => by show q.val = if (128 : Nat) = 1 then 0 else q.val; rw [if_neg (by decide)])
  rw [h1]
  simp only [Host.reduceAdd, Ideal.hostReduceAdd_def]
  rw [Ideal.hostReduceAdd_single reducesTo_S50000x128_S128_d0 (by decide)]
  refine congrArg₂ (· + ·) Ideal.ofBits_zero_f32 (Finset.sum_congr rfl fun k _ => ?_)
  exact congrArg x (funext fun b => Fin.ext (by match b with | ⟨0, _⟩ => rfl | ⟨1, _⟩ => rfl))

/-! ## The graph steps, which both programs spell with the same host operations -/

/-- The number of edges leaving (or entering) each node, as a float vector: ones scattered by the index list. -/
def deg (s : IVec S800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 s)
    (broadcastInDim S800000 ![] bcast_S_S800000 (constant (F := Ideal) S_ .f32 0x3F800000#32))

/-- The normalisation factor of each node: its degree, at least one, to the power −1/2. -/
def norm (s : IVec S800000 32) : FVec Ideal S50000 .f32 :=
  Host.powf (maximumf (broadcastInDim S50000 ![] bcast_S_S50000 (id (constant (F := Ideal) S_ .f32 0x3F800000#32))) (deg s))
    (broadcastInDim S50000 ![] bcast_S_S50000 (constant (F := Ideal) S_ .f32 0xBF000000#32))

/-- The source list as gather indices: a negative entry counts from the end. -/
def gidx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- One round of message passing: gather the rows of `P` along the sources, add them up at the destinations. -/
def spmm (P : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 P (gidx s))

/-- One layer of the reference: project, pass messages, rectify. -/
def layer (h : FVec Ideal S50000x128 .f32) (s d : IVec S800000 32) (W : FVec Ideal S128x128 .f32)
    (a : FVec Ideal S1 .f32) : FVec Ideal S50000x128 .f32 :=
  refPost (spmm (refProj h (norm s) W) s d) (norm d) a

end Cert.ReferenceIdeal.RefOps

end
-- ==== Proof.RefRunOps.lean ====
/- The reference's @main as a list of its 116 host operations, and the list split into stretches: the normalisation
   prelude, three layers (project, pass messages, rectify), their column sums and the two concatenations; per
   stretch, the references it writes and that every other buffer keeps its contents. -/
import proofs.«172984_j19241453486477_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable {F : FTy → Type} [FloatOps F]

/-! ## @main as a list of operations -/

/-- @main's 116 operations, in order (a called function's operations stand in its call's place). -/
abbrev ops : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v3) (TRef.of (T := ⟨S50000, .f32⟩) main_v7) maximumf,
    nullary main_cst_3 (constant S_ .f32 0xBF000000#32),
    unary main_cst_3 main_v8 (broadcastInDim S50000 ![] bcast_S_S50000 : (⟨S_, .f32⟩ : BufTy).Contents (Elt F) → (⟨S50000, .f32⟩ : BufTy).Contents (Elt F)),
    binary main_v7 main_v8 main_v9 (Host.powf : (⟨S50000, .f32⟩ : BufTy).Contents (Elt F) → (⟨S50000, .f32⟩ : BufTy).Contents (Elt F) → (⟨S50000, .f32⟩ : BufTy).Contents (Elt F)),
    nullary main_cst_4 (constant S_ .f32 0x3F800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_v6) (TRef.of (T := ⟨S50000, .f32⟩) main_v10) maximumf,
    nullary main_cst_5 (constant S_ .f32 0xBF000000#32),
    unary main_cst_5 main_v11 (broadcastInDim S50000 ![] bcast_S_S50000 : (⟨S_, .f32⟩ : BufTy).Contents (Elt F) → (⟨S50000, .f32⟩ : BufTy).Contents (Elt F)),
    binary main_v10 main_v11 main_v12 (Host.powf : (⟨S50000, .f32⟩ : BufTy).Contents (Elt F) → (⟨S50000, .f32⟩ : BufTy).Contents (Elt F) → (⟨S50000, .f32⟩ : BufTy).Contents (Elt F)),
    unary main_v9 main_v13 (broadcastInDim S50000x1 ![0] bcast_S50000_S50000x1_0 : (⟨S50000, .f32⟩ : BufTy).Contents (Elt F) → (⟨S50000x1, .f32⟩ : BufTy).Contents (Elt F)),
    unary main_v13 main_v14 (broadcastInDim S50000x128 ![0, 1] bcast_S50000x1_S50000x128_0_1 : (⟨S50000x1, .f32⟩ : BufTy).Contents (Elt F) → (⟨S50000x128, .f32⟩ : BufTy).Contents (Elt F)),
    binary main_arg0 main_v14 main_v15 (mulf : (⟨S50000x128, .f32⟩ : BufTy).Contents (Elt F) → (⟨S50000x128, .f32⟩ : BufTy).Contents (Elt F) → (⟨S50000x128, .f32⟩ : BufTy).Contents (Elt F)),
    binary main_v15 main_arg3 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v17 (broadcastInDim S800000 ![] bcast_S_S800000 : (⟨S_, .i32⟩ : BufTy).Contents (Elt F) → (⟨S800000, .i32⟩ : BufTy).Contents (Elt F)),
    binary main_arg1 main_v17 main_v18 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v19 (broadcastInDim S800000 ![] bcast_S_S800000 : (⟨S_, .i32⟩ : BufTy).Contents (Elt F) → (⟨S800000, .i32⟩ : BufTy).Contents (Elt F)),
    binary main_arg1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_arg1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v16 main_v22 main_v23 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_7 (constant S_ .f32 0x00000000#32),
    unary main_cst_7 main_v24 (broadcastInDim S50000x128 ![] bcast_S_S50000x128 : (⟨S_, .f32⟩ : BufTy).Contents (Elt F) → (⟨S50000x128, .f32⟩ : BufTy).Contents (Elt F)),
    unary main_arg2 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v27 (broadcastInDim S50000x1 ![0] bcast_S50000_S50000x1_0 : (⟨S50000, .f32⟩ : BufTy).Contents (Elt F) → (⟨S50000x1, .f32⟩ : BufTy).Contents (Elt F)),
    unary main_v27 main_v28 (broadcastInDim S50000x128 ![0, 1] bcast_S50000x1_S50000x128_0_1 : (⟨S50000x1, .f32⟩ : BufTy).Contents (Elt F) → (⟨S50000x128, .f32⟩ : BufTy).Contents (Elt F)),
    binary main_v26 main_v28 main_v29 (mulf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x00000000#32),
    unary main_cst_8 main_v30 (broadcastInDim S50000x128 ![] bcast_S_S50000x128 : (⟨S_, .f32⟩ : BufTy).Contents (Elt F) → (⟨S50000x128, .f32⟩ : BufTy).Contents (Elt F)),
    binary main_v29 main_v30 main_v31 (cmpf .oge : (⟨S50000x128, .f32⟩ : BufTy).Contents (Elt F) → (⟨S50000x128, .f32⟩ : BufTy).Contents (Elt F) → (⟨S50000x128, .i1⟩ : BufTy).Contents (Elt F)),
    unary main_arg6 main_v32 (broadcastInDim S1x1 ![1] bcast_S1_S1x1_1 : (⟨S1, .f32⟩ : BufTy).Contents (Elt F) → (⟨S1x1, .f32⟩ : BufTy).Contents (Elt F)),
    unary main_v32 main_v33 (broadcastInDim S50000x128 ![0, 1] bcast_S1x1_S50000x128_0_1 : (⟨S1x1, .f32⟩ : BufTy).Contents (Elt F) → (⟨S50000x128, .f32⟩ : BufTy).Contents (Elt F)),
    binary main_v33 main_v29 main_v34 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v31) (TRef.of (T := ⟨S50000x128, .f32⟩) main_v29) (TRef.of (T := ⟨S50000x128, .f32⟩) main_v34) (TRef.of (T := ⟨S50000x128, .f32⟩) main_v35) select,
    nullary main_cst_9 (constant S_ .f32 0x00000000#32),
    binary main_v35 main_cst_9 main_v36 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v36 main_v37 (broadcastInDim S1x128 ![1] bcast_S128_S1x128_1 : (⟨S128, .f32⟩ : BufTy).Contents (Elt F) → (⟨S1x128, .f32⟩ : BufTy).Contents (Elt F)),
    unary main_v9 main_v38 (broadcastInDim S50000x1 ![0] bcast_S50000_S50000x1_0 : (⟨S50000, .f32⟩ : BufTy).Contents (Elt F) → (⟨S50000x1, .f32⟩ : BufTy).Contents (Elt F)),
    unary main_v38 main_v39 (broadcastInDim S50000x128 ![0, 1] bcast_S50000x1_S50000x128_0_1 : (⟨S50000x1, .f32⟩ : BufTy).Contents (Elt F) → (⟨S50000x128, .f32⟩ : BufTy).Contents (Elt F)),
    binary main_v35 main_v39 main_v40 (mulf : (⟨S50000x128, .f32⟩ : BufTy).Contents (Elt F) → (⟨S50000x128, .f32⟩ : BufTy).Contents (Elt F) → (⟨S50000x128, .f32⟩ : BufTy).Contents (Elt F)),
    binary main_v40 main_arg4 main_v41 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v42 (broadcastInDim S800000 ![] bcast_S_S800000 : (⟨S_, .i32⟩ : BufTy).Contents (Elt F) → (⟨S800000, .i32⟩ : BufTy).Contents (Elt F)),
    binary main_arg1 main_v42 main_v43 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v44 (broadcastInDim S800000 ![] bcast_S_S800000 : (⟨S_, .i32⟩ : BufTy).Contents (Elt F) → (⟨S800000, .i32⟩ : BufTy).Contents (Elt F)),
    binary main_arg1 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_arg1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v49 (broadcastInDim S50000x128 ![] bcast_S_S50000x128 : (⟨S_, .f32⟩ : BufTy).Contents (Elt F) → (⟨S50000x128, .f32⟩ : BufTy).Contents (Elt F)),
    unary main_arg2 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v52 (broadcastInDim S50000x1 ![0] bcast_S50000_S50000x1_0 : (⟨S50000, .f32⟩ : BufTy).Contents (Elt F) → (⟨S50000x1, .f32⟩ : BufTy).Contents (Elt F)),
    unary main_v52 main_v53 (broadcastInDim S50000x128 ![0, 1] bcast_S50000x1_S50000x128_0_1 : (⟨S50000x1, .f32⟩ : BufTy).Contents (Elt F) → (⟨S50000x128, .f32⟩ : BufTy).Contents (Elt F)),
    binary main_v51 main_v53 main_v54 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    unary main_cst_13 main_v55 (broadcastInDim S50000x128 ![] bcast_S_S50000x128 : (⟨S_, .f32⟩ : BufTy).Contents (Elt F) → (⟨S50000x128, .f32⟩ : BufTy).Contents (Elt F)),
    binary main_v54 main_v55 main_v56 (cmpf .oge : (⟨S50000x128, .f32⟩ : BufTy).Contents (Elt F) → (⟨S50000x128, .f32⟩ : BufTy).Contents (Elt F) → (⟨S50000x128, .i1⟩ : BufTy).Contents (Elt F)),
    unary main_arg7 main_v57 (broadcastInDim S1x1 ![1] bcast_S1_S1x1_1 : (⟨S1, .f32⟩ : BufTy).Contents (Elt F) → (⟨S1x1, .f32⟩ : BufTy).Contents (Elt F)),
    unary main_v57 main_v58 (broadcastInDim S50000x128 ![0, 1] bcast_S1x1_S50000x128_0_1 : (⟨S1x1, .f32⟩ : BufTy).Contents (Elt F) → (⟨S50000x128, .f32⟩ : BufTy).Contents (Elt F)),
    binary main_v58 main_v54 main_v59 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v56) (TRef.of (T := ⟨S50000x128, .f32⟩) main_v54) (TRef.of (T := ⟨S50000x128, .f32⟩) main_v59) (TRef.of (T := ⟨S50000x128, .f32⟩) main_v60) select,
    nullary main_cst_14 (constant S_ .f32 0x00000000#32),
    binary main_v60 main_cst_14 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)),
    binary main_v37 main_v62 main_v63 ((fun a b => concatenate S1x256 1 [⟨S1x128, a⟩, ⟨S1x128, b⟩] concatenates_S1x128_S1x128_S1x256_d1) : (⟨S1x128, .f32⟩ : BufTy).Contents (Elt F) → (⟨S1x128, .f32⟩ : BufTy).Contents (Elt F) → (⟨S1x256, .f32⟩ : BufTy).Contents (Elt F)),
    unary main_v9 main_v64 (broadcastInDim S50000x1 ![0] bcast_S50000_S50000x1_0 : (⟨S50000, .f32⟩ : BufTy).Contents (Elt F) → (⟨S50000x1, .f32⟩ : BufTy).Contents (Elt F)),
    unary main_v64 main_v65 (broadcastInDim S50000x128 ![0, 1] bcast_S50000x1_S50000x128_0_1 : (⟨S50000x1, .f32⟩ : BufTy).Contents (Elt F) → (⟨S50000x128, .f32⟩ : BufTy).Contents (Elt F)),
    binary main_v60 main_v65 main_v66 (mulf : (⟨S50000x128, .f32⟩ : BufTy).Contents (Elt F) → (⟨S50000x128, .f32⟩ : BufTy).Contents (Elt F) → (⟨S50000x128, .f32⟩ : BufTy).Contents (Elt F)),
    binary main_v66 main_arg5 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_15 (constantI S_ 32 0#32),
    unary main_c_15 main_v68 (broadcastInDim S800000 ![] bcast_S_S800000 : (⟨S_, .i32⟩ : BufTy).Contents (Elt F) → (⟨S800000, .i32⟩ : BufTy).Contents (Elt F)),
    binary main_arg1 main_v68 main_v69 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v70 (broadcastInDim S800000 ![] bcast_S_S800000 : (⟨S_, .i32⟩ : BufTy).Contents (Elt F) → (⟨S800000, .i32⟩ : BufTy).Contents (Elt F)),
    binary main_arg1 main_v70 main_v71 (addi : (⟨S800000, .i32⟩ : BufTy).Contents (Elt F) → (⟨S800000, .i32⟩ : BufTy).Contents (Elt F) → (⟨S800000, .i32⟩ : BufTy).Contents (Elt F)),
    ternary main_v69 main_v71 main_arg1 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v72 main_v73 (broadcastInDim S800000x1 ![0] bcast_S800000_S800000x1_0 : (⟨S800000, .i32⟩ : BufTy).Contents (Elt F) → (⟨S800000x1, .i32⟩ : BufTy).Contents (Elt F)),
    binary main_v67 main_v73 main_v74 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_17 (constant S_ .f32 0x00000000#32),
    unary main_cst_17 main_v75 (broadcastInDim S50000x128 ![] bcast_S_S50000x128 : (⟨S_, .f32⟩ : BufTy).Contents (Elt F) → (⟨S50000x128, .f32⟩ : BufTy).Contents (Elt F)),
    unary main_arg2 main_v76 (broadcastInDim S800000x1 ![0] bcast_S800000_S800000x1_0 : (⟨S800000, .i32⟩ : BufTy).Contents (Elt F) → (⟨S800000x1, .i32⟩ : BufTy).Contents (Elt F)),
    ternary main_v75 main_v76 main_v74 main_v77 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v78 (broadcastInDim S50000x1 ![0] bcast_S50000_S50000x1_0 : (⟨S50000, .f32⟩ : BufTy).Contents (Elt F) → (⟨S50000x1, .f32⟩ : BufTy).Contents (Elt F)),
    unary main_v78 main_v79 (broadcastInDim S50000x128 ![0, 1] bcast_S50000x1_S50000x128_0_1 : (⟨S50000x1, .f32⟩ : BufTy).Contents (Elt F) → (⟨S50000x128, .f32⟩ : BufTy).Contents (Elt F)),
    binary main_v77 main_v79 main_v80 (mulf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    unary main_cst_18 main_v81 (broadcastInDim S50000x128 ![] bcast_S_S50000x128 : (⟨S_, .f32⟩ : BufTy).Contents (Elt F) → (⟨S50000x128, .f32⟩ : BufTy).Contents (Elt F)),
    binary main_v80 main_v81 main_v82 (cmpf .oge : (⟨S50000x128, .f32⟩ : BufTy).Contents (Elt F) → (⟨S50000x128, .f32⟩ : BufTy).Contents (Elt F) → (⟨S50000x128, .i1⟩ : BufTy).Contents (Elt F)),
    unary main_arg8 main_v83 (broadcastInDim S1x1 ![1] bcast_S1_S1x1_1 : (⟨S1, .f32⟩ : BufTy).Contents (Elt F) → (⟨S1x1, .f32⟩ : BufTy).Contents (Elt F)),
    unary main_v83 main_v84 (broadcastInDim S50000x128 ![0, 1] bcast_S1x1_S50000x128_0_1 : (⟨S1x1, .f32⟩ : BufTy).Contents (Elt F) → (⟨S50000x128, .f32⟩ : BufTy).Contents (Elt F)),
    binary main_v84 main_v80 main_v85 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v82) (TRef.of (T := ⟨S50000x128, .f32⟩) main_v80) (TRef.of (T := ⟨S50000x128, .f32⟩) main_v85) (TRef.of (T := ⟨S50000x128, .f32⟩) main_v86) select,
    nullary main_cst_19 (constant S_ .f32 0x00000000#32),
    binary main_v86 main_cst_19 main_v87 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v87 main_v88 (broadcastInDim S1x128 ![1] bcast_S128_S1x128_1 : (⟨S128, .f32⟩ : BufTy).Contents (Elt F) → (⟨S1x128, .f32⟩ : BufTy).Contents (Elt F)),
    binary main_v63 main_v88 main_v89 ((fun a b => concatenate S1x384 1 [⟨S1x256, a⟩, ⟨S1x128, b⟩] concatenates_S1x256_S1x128_S1x384_d1) : (⟨S1x256, .f32⟩ : BufTy).Contents (Elt F) → (⟨S1x128, .f32⟩ : BufTy).Contents (Elt F) → (⟨S1x384, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., binary_bufs_sub .., ternary_bufs_sub .., nullary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., binary_bufs_sub .., ternary_bufs_sub .., nullary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., binary_bufs_sub .., ternary_bufs_sub .., nullary_bufs_sub .., binary_bufs_sub .., unary_bufs_sub .., binary_bufs_sub ..⟩

/-! ## The stretches -/

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The normalisation prelude: both degree vectors, clipped below at one, to the power −1/2. -/
abbrev s0 : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v3) (TRef.of (T := ⟨S50000, .f32⟩) main_v7) maximumf,
    nullary main_cst_3 (constant S_ .f32 0xBF000000#32),
    unary main_cst_3 main_v8 (broadcastInDim S50000 ![] bcast_S_S50000 : (⟨S_, .f32⟩ : BufTy).Contents (Elt F) → (⟨S50000, .f32⟩ : BufTy).Contents (Elt F)),
    binary main_v7 main_v8 main_v9 (Host.powf : (⟨S50000, .f32⟩ : BufTy).Contents (Elt F) → (⟨S50000, .f32⟩ : BufTy).Contents (Elt F) → (⟨S50000, .f32⟩ : BufTy).Contents (Elt F)),
    nullary main_cst_4 (constant S_ .f32 0x3F800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_v6) (TRef.of (T := ⟨S50000, .f32⟩) main_v10) maximumf,
    nullary main_cst_5 (constant S_ .f32 0xBF000000#32),
    unary main_cst_5 main_v11 (broadcastInDim S50000 ![] bcast_S_S50000 : (⟨S_, .f32⟩ : BufTy).Contents (Elt F) → (⟨S50000, .f32⟩ : BufTy).Contents (Elt F)),
    binary main_v10 main_v11 main_v12 (Host.powf : (⟨S50000, .f32⟩ : BufTy).Contents (Elt F) → (⟨S50000, .f32⟩ : BufTy).Contents (Elt F) → (⟨S50000, .f32⟩ : BufTy).Contents (Elt F)) ]
/-- The references it writes. -/
abbrev s0_W : List (Ref sig .tc) := [main_cst, main_v0, main_cst_0, main_v1, main_v2, main_v3, main_cst_1, main_v4, main_v5, main_v6, main_cst_2, main_call0_v0, main_call0_v1, main_v7, main_cst_3, main_v8, main_v9, main_cst_4, main_call1_v0, main_call1_v1, main_v10, main_cst_5, main_v11, main_v12]
theorem s0_writes : (s0 : List (HloOp τ sig (Elt F))).Forall fun op => op.writes ⊆ (s0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem s0_keep (W : Valuation τ sig (Elt F)) (r : Ref sig .tc) (h : r ∉ s0_W) : after s0 W (Proc.devRef .tc r) = W (Proc.devRef .tc r) :=
  after_of_writes_sub s0 W s0_writes h

/-- Layer 1: project, pass messages, rectify. -/
abbrev l1 : List (HloOp τ sig (Elt F)) :=
  [ unary main_v9 main_v13 (broadcastInDim S50000x1 ![0] bcast_S50000_S50000x1_0 : (⟨S50000, .f32⟩ : BufTy).Contents (Elt F) → (⟨S50000x1, .f32⟩ : BufTy).Contents (Elt F)),
    unary main_v13 main_v14 (broadcastInDim S50000x128 ![0, 1] bcast_S50000x1_S50000x128_0_1 : (⟨S50000x1, .f32⟩ : BufTy).Contents (Elt F) → (⟨S50000x128, .f32⟩ : BufTy).Contents (Elt F)),
    binary main_arg0 main_v14 main_v15 (mulf : (⟨S50000x128, .f32⟩ : BufTy).Contents (Elt F) → (⟨S50000x128, .f32⟩ : BufTy).Contents (Elt F) → (⟨S50000x128, .f32⟩ : BufTy).Contents (Elt F)),
    binary main_v15 main_arg3 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v17 (broadcastInDim S800000 ![] bcast_S_S800000 : (⟨S_, .i32⟩ : BufTy).Contents (Elt F) → (⟨S800000, .i32⟩ : BufTy).Contents (Elt F)),
    binary main_arg1 main_v17 main_v18 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v19 (broadcastInDim S800000 ![] bcast_S_S800000 : (⟨S_, .i32⟩ : BufTy).Contents (Elt F) → (⟨S800000, .i32⟩ : BufTy).Contents (Elt F)),
    binary main_arg1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_arg1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v16 main_v22 main_v23 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_7 (constant S_ .f32 0x00000000#32),
    unary main_cst_7 main_v24 (broadcastInDim S50000x128 ![] bcast_S_S50000x128 : (⟨S_, .f32⟩ : BufTy).Contents (Elt F) → (⟨S50000x128, .f32⟩ : BufTy).Contents (Elt F)),
    unary main_arg2 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v27 (broadcastInDim S50000x1 ![0] bcast_S50000_S50000x1_0 : (⟨S50000, .f32⟩ : BufTy).Contents (Elt F) → (⟨S50000x1, .f32⟩ : BufTy).Contents (Elt F)),
    unary main_v27 main_v28 (broadcastInDim S50000x128 ![0, 1] bcast_S50000x1_S50000x128_0_1 : (⟨S50000x1, .f32⟩ : BufTy).Contents (Elt F) → (⟨S50000x128, .f32⟩ : BufTy).Contents (Elt F)),
    binary main_v26 main_v28 main_v29 (mulf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x00000000#32),
    unary main_cst_8 main_v30 (broadcastInDim S50000x128 ![] bcast_S_S50000x128 : (⟨S_, .f32⟩ : BufTy).Contents (Elt F) → (⟨S50000x128, .f32⟩ : BufTy).Contents (Elt F)),
    binary main_v29 main_v30 main_v31 (cmpf .oge : (⟨S50000x128, .f32⟩ : BufTy).Contents (Elt F) → (⟨S50000x128, .f32⟩ : BufTy).Contents (Elt F) → (⟨S50000x128, .i1⟩ : BufTy).Contents (Elt F)),
    unary main_arg6 main_v32 (broadcastInDim S1x1 ![1] bcast_S1_S1x1_1 : (⟨S1, .f32⟩ : BufTy).Contents (Elt F) → (⟨S1x1, .f32⟩ : BufTy).Contents (Elt F)),
    unary main_v32 main_v33 (broadcastInDim S50000x128 ![0, 1] bcast_S1x1_S50000x128_0_1 : (⟨S1x1, .f32⟩ : BufTy).Contents (Elt F) → (⟨S50000x128, .f32⟩ : BufTy).Contents (Elt F)),
    binary main_v33 main_v29 main_v34 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v31) (TRef.of (T := ⟨S50000x128, .f32⟩) main_v29) (TRef.of (T := ⟨S50000x128, .f32⟩) main_v34) (TRef.of (T := ⟨S50000x128, .f32⟩) main_v35) select ]
/-- The references it writes. -/
abbrev l1_W : List (Ref sig .tc) := [main_v13, main_v14, main_v15, main_v16, main_c, main_v17, main_v18, main_c_6, main_v19, main_v20, main_v21, main_v22, main_v23, main_cst_7, main_v24, main_v25, main_v26, main_v27, main_v28, main_v29, main_cst_8, main_v30, main_v31, main_v32, main_v33, main_v34, main_v35]
theorem l1_writes : (l1 : List (HloOp τ sig (Elt F))).Forall fun op => op.writes ⊆ (l1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem l1_keep (W : Valuation τ sig (Elt F)) (r : Ref sig .tc) (h : r ∉ l1_W) : after l1 W (Proc.devRef .tc r) = W (Proc.devRef .tc r) :=
  after_of_writes_sub l1 W l1_writes h

/-- Layer 1's column sums. -/
abbrev g1 : List (HloOp τ sig (Elt F)) :=
  [ nullary main_cst_9 (constant S_ .f32 0x00000000#32),
    binary main_v35 main_cst_9 main_v36 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v36 main_v37 (broadcastInDim S1x128 ![1] bcast_S128_S1x128_1 : (⟨S128, .f32⟩ : BufTy).Contents (Elt F) → (⟨S1x128, .f32⟩ : BufTy).Contents (Elt F)) ]
/-- The references it writes. -/
abbrev g1_W : List (Ref sig .tc) := [main_cst_9, main_v36, main_v37]
theorem g1_writes : (g1 : List (HloOp τ sig (Elt F))).Forall fun op => op.writes ⊆ (g1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem g1_keep (W : Valuation τ sig (Elt F)) (r : Ref sig .tc) (h : r ∉ g1_W) : after g1 W (Proc.devRef .tc r) = W (Proc.devRef .tc r) :=
  after_of_writes_sub g1 W g1_writes h

/-- Layer 2. -/
abbrev l2 : List (HloOp τ sig (Elt F)) :=
  [ unary main_v9 main_v38 (broadcastInDim S50000x1 ![0] bcast_S50000_S50000x1_0 : (⟨S50000, .f32⟩ : BufTy).Contents (Elt F) → (⟨S50000x1, .f32⟩ : BufTy).Contents (Elt F)),
    unary main_v38 main_v39 (broadcastInDim S50000x128 ![0, 1] bcast_S50000x1_S50000x128_0_1 : (⟨S50000x1, .f32⟩ : BufTy).Contents (Elt F) → (⟨S50000x128, .f32⟩ : BufTy).Contents (Elt F)),
    binary main_v35 main_v39 main_v40 (mulf : (⟨S50000x128, .f32⟩ : BufTy).Contents (Elt F) → (⟨S50000x128, .f32⟩ : BufTy).Contents (Elt F) → (⟨S50000x128, .f32⟩ : BufTy).Contents (Elt F)),
    binary main_v40 main_arg4 main_v41 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v42 (broadcastInDim S800000 ![] bcast_S_S800000 : (⟨S_, .i32⟩ : BufTy).Contents (Elt F) → (⟨S800000, .i32⟩ : BufTy).Contents (Elt F)),
    binary main_arg1 main_v42 main_v43 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v44 (broadcastInDim S800000 ![] bcast_S_S800000 : (⟨S_, .i32⟩ : BufTy).Contents (Elt F) → (⟨S800000, .i32⟩ : BufTy).Contents (Elt F)),
    binary main_arg1 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_arg1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v49 (broadcastInDim S50000x128 ![] bcast_S_S50000x128 : (⟨S_, .f32⟩ : BufTy).Contents (Elt F) → (⟨S50000x128, .f32⟩ : BufTy).Contents (Elt F)),
    unary main_arg2 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v52 (broadcastInDim S50000x1 ![0] bcast_S50000_S50000x1_0 : (⟨S50000, .f32⟩ : BufTy).Contents (Elt F) → (⟨S50000x1, .f32⟩ : BufTy).Contents (Elt F)),
    unary main_v52 main_v53 (broadcastInDim S50000x128 ![0, 1] bcast_S50000x1_S50000x128_0_1 : (⟨S50000x1, .f32⟩ : BufTy).Contents (Elt F) → (⟨S50000x128, .f32⟩ : BufTy).Contents (Elt F)),
    binary main_v51 main_v53 main_v54 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    unary main_cst_13 main_v55 (broadcastInDim S50000x128 ![] bcast_S_S50000x128 : (⟨S_, .f32⟩ : BufTy).Contents (Elt F) → (⟨S50000x128, .f32⟩ : BufTy).Contents (Elt F)),
    binary main_v54 main_v55 main_v56 (cmpf .oge : (⟨S50000x128, .f32⟩ : BufTy).Contents (Elt F) → (⟨S50000x128, .f32⟩ : BufTy).Contents (Elt F) → (⟨S50000x128, .i1⟩ : BufTy).Contents (Elt F)),
    unary main_arg7 main_v57 (broadcastInDim S1x1 ![1] bcast_S1_S1x1_1 : (⟨S1, .f32⟩ : BufTy).Contents (Elt F) → (⟨S1x1, .f32⟩ : BufTy).Contents (Elt F)),
    unary main_v57 main_v58 (broadcastInDim S50000x128 ![0, 1] bcast_S1x1_S50000x128_0_1 : (⟨S1x1, .f32⟩ : BufTy).Contents (Elt F) → (⟨S50000x128, .f32⟩ : BufTy).Contents (Elt F)),
    binary main_v58 main_v54 main_v59 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v56) (TRef.of (T := ⟨S50000x128, .f32⟩) main_v54) (TRef.of (T := ⟨S50000x128, .f32⟩) main_v59) (TRef.of (T := ⟨S50000x128, .f32⟩) main_v60) select ]
/-- The references it writes. -/
abbrev l2_W : List (Ref sig .tc) := [main_v38, main_v39, main_v40, main_v41, main_c_10, main_v42, main_v43, main_c_11, main_v44, main_v45, main_v46, main_v47, main_v48, main_cst_12, main_v49, main_v50, main_v51, main_v52, main_v53, main_v54, main_cst_13, main_v55, main_v56, main_v57, main_v58, main_v59, main_v60]
theorem l2_writes : (l2 : List (HloOp τ sig (Elt F))).Forall fun op => op.writes ⊆ (l2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem l2_keep (W : Valuation τ sig (Elt F)) (r : Ref sig .tc) (h : r ∉ l2_W) : after l2 W (Proc.devRef .tc r) = W (Proc.devRef .tc r) :=
  after_of_writes_sub l2 W l2_writes h

/-- Layer 2's column sums. -/
abbrev g2 : List (HloOp τ sig (Elt F)) :=
  [ nullary main_cst_14 (constant S_ .f32 0x00000000#32),
    binary main_v60 main_cst_14 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)) ]
/-- The references it writes. -/
abbrev g2_W : List (Ref sig .tc) := [main_cst_14, main_v61, main_v62]
theorem g2_writes : (g2 : List (HloOp τ sig (Elt F))).Forall fun op => op.writes ⊆ (g2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem g2_keep (W : Valuation τ sig (Elt F)) (r : Ref sig .tc) (h : r ∉ g2_W) : after g2 W (Proc.devRef .tc r) = W (Proc.devRef .tc r) :=
  after_of_writes_sub g2 W g2_writes h

/-- The first two column sums side by side. -/
abbrev c1 : List (HloOp τ sig (Elt F)) :=
  [ binary main_v37 main_v62 main_v63 ((fun a b => concatenate S1x256 1 [⟨S1x128, a⟩, ⟨S1x128, b⟩] concatenates_S1x128_S1x128_S1x256_d1) : (⟨S1x128, .f32⟩ : BufTy).Contents (Elt F) → (⟨S1x128, .f32⟩ : BufTy).Contents (Elt F) → (⟨S1x256, .f32⟩ : BufTy).Contents (Elt F)) ]
/-- The references it writes. -/
abbrev c1_W : List (Ref sig .tc) := [main_v63]
theorem c1_writes : (c1 : List (HloOp τ sig (Elt F))).Forall fun op => op.writes ⊆ (c1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference it does not write keeps its contents. -/
theorem c1_keep (W : Valuation τ sig (Elt F)) (r : Ref sig .tc) (h : r ∉ c1_W) : after c1 W (Proc.devRef .tc r) = W (Proc.devRef .tc r) :=
  after_of_writes_sub c1 W c1_writes h

/-- Layer 3. -/
abbrev l3 : List (HloOp τ sig (Elt F)) :=
  [ unary main_v9 main_v64 (broadcastInDim S50000x1 ![0] bcast_S50000_S50000x1_0 : (⟨S50000, .f32⟩ : BufTy).Contents (Elt F) → (⟨S50000x1, .f32⟩ : BufTy).Contents (Elt F)),
    unary main_v64 main_v65 (broadcastInDim S50000x128 ![0, 1] bcast_S50000x1_S50000x128_0_1 : (⟨S50000x1, .f32⟩ : BufTy).Contents (Elt F) → (⟨S50000x128, .f32⟩ : BufTy).Contents (Elt F)),
    binary main_v60 main_v65 main_v66 (mulf : (⟨S50000x128, .f32⟩ : BufTy).Contents (Elt F) → (⟨S50000x128, .f32⟩ : BufTy).Contents (Elt F) → (⟨S50000x128, .f32⟩ : BufTy).Contents (Elt F)),
    binary main_v66 main_arg5 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_15 (constantI S_ 32 0#32),
    unary main_c_15 main_v68 (broadcastInDim S800000 ![] bcast_S_S800000 : (⟨S_, .i32⟩ : BufTy).Contents (Elt F) → (⟨S800000, .i32⟩ : BufTy).Contents (Elt F)),
    binary main_arg1 main_v68 main_v69 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v70 (broadcastInDim S800000 ![] bcast_S_S800000 : (⟨S_, .i32⟩ : BufTy).Contents (Elt F) → (⟨S800000, .i32⟩ : BufTy).Contents (Elt F)),
    binary main_arg1 main_v70 main_v71 (addi : (⟨S800000, .i32⟩ : BufTy).Contents (Elt F) → (⟨S800000, .i32⟩ : BufTy).Contents (Elt F) → (⟨S800000, .i32⟩ : BufTy).Contents (Elt F)),
    ternary main_v69 main_v71 main_arg1 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v72 main_v73 (broadcastInDim S800000x1 ![0] bcast_S800000_S800000x1_0 : (⟨S800000, .i32⟩ : BufTy).Contents (Elt F) → (⟨S800000x1, .i32⟩ : BufTy).Contents (Elt F)),
    binary main_v67 main_v73 main_v74 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_17 (constant S_ .f32 0x00000000#32),
    unary main_cst_17 main_v75 (broadcastInDim S50000x128 ![] bcast_S_S50000x128 : (⟨S_, .f32⟩ : BufTy).Contents (Elt F) → (⟨S50000x128, .f32⟩ : BufTy).Contents (Elt F)),
    unary main_arg2 main_v76 (broadcastInDim S800000x1 ![0] bcast_S800000_S800000x1_0 : (⟨S800000, .i32⟩ : BufTy).Contents (Elt F) → (⟨S800000x1, .i32⟩ : BufTy).Contents (Elt F)),
    ternary main_v75 main_v76 main_v74 main_v77 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v78 (broadcastInDim S50000x1 ![0] bcast_S50000_S50000x1_0 : (⟨S50000, .f32⟩ : BufTy).Contents (Elt F) → (⟨S50000x1, .f32⟩ : BufTy).Contents (Elt F)),
    unary main_v78 main_v79 (broadcastInDim S50000x128 ![0, 1] bcast_S50000x1_S50000x128_0_1 : (⟨S50000x1, .f32⟩ : BufTy).Contents (Elt F) → (⟨S50000x128, .f32⟩ : BufTy).Contents (Elt F)),
    binary main_v77 main_v79 main_v80 (mulf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    unary main_cst_18 main_v81 (broadcastInDim S50000x128 ![] bcast_S_S50000x128 : (⟨S_, .f32⟩ : BufTy).Contents (Elt F) → (⟨S50000x128, .f32⟩ : BufTy).Contents (Elt F)),
    binary main_v80 main_v81 main_v82 (cmpf .oge : (⟨S50000x128, .f32⟩ : BufTy).Contents (Elt F) → (⟨S50000x128, .f32⟩ : BufTy).Contents (Elt F) → (⟨S50000x128, .i1⟩ : BufTy).Contents (Elt F)),
    unary main_arg8 main_v83 (broadcastInDim S1x1 ![1] bcast_S1_S1x1_1 : (⟨S1, .f32⟩ : BufTy).Contents (Elt F) → (⟨S1x1, .f32⟩ : BufTy).Contents (Elt F)),
    unary main_v83 main_v84 (broadcastInDim S50000x128 ![0, 1] bcast_S1x1_S50000x128_0_1 : (⟨S1x1, .f32⟩ : BufTy).Contents (Elt F) → (⟨S50000x128, .f32⟩ : BufTy).Contents (Elt F)),
    binary main_v84 main_v80 main_v85 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v82) (TRef.of (T := ⟨S50000x128, .f32⟩) main_v80) (TRef.of (T := ⟨S50000x128, .f32⟩) main_v85) (TRef.of (T := ⟨S50000x128, .f32⟩) main_v86) select ]
/-- The references it writes. -/
abbrev l3_W : List (Ref sig .tc) := [main_v64, main_v65, main_v66, main_v67, main_c_15, main_v68, main_v69, main_c_16, main_v70, main_v71, main_v72, main_v73, main_v74, main_cst_17, main_v75, main_v76, main_v77, main_v78, main_v79, main_v80, main_cst_18, main_v81, main_v82, main_v83, main_v84, main_v85, main_v86]
theorem l3_writes : (l3 : List (HloOp τ sig (Elt F))).Forall fun op => op.writes ⊆ (l3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem l3_keep (W : Valuation τ sig (Elt F)) (r : Ref sig .tc) (h : r ∉ l3_W) : after l3 W (Proc.devRef .tc r) = W (Proc.devRef .tc r) :=
  after_of_writes_sub l3 W l3_writes h

/-- Layer 3's column sums. -/
abbrev g3 : List (HloOp τ sig (Elt F)) :=
  [ nullary main_cst_19 (constant S_ .f32 0x00000000#32),
    binary main_v86 main_cst_19 main_v87 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v87 main_v88 (broadcastInDim S1x128 ![1] bcast_S128_S1x128_1 : (⟨S128, .f32⟩ : BufTy).Contents (Elt F) → (⟨S1x128, .f32⟩ : BufTy).Contents (Elt F)) ]
/-- The references it writes. -/
abbrev g3_W : List (Ref sig .tc) := [main_cst_19, main_v87, main_v88]
theorem g3_writes : (g3 : List (HloOp τ sig (Elt F))).Forall fun op => op.writes ⊆ (g3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference it does not write keeps its contents. -/
theorem g3_keep (W : Valuation τ sig (Elt F)) (r : Ref sig .tc) (h : r ∉ g3_W) : after g3 W (Proc.devRef .tc r) = W (Proc.devRef .tc r) :=
  after_of_writes_sub g3 W g3_writes h

/-- All three column sums side by side. -/
abbrev c2 : List (HloOp τ sig (Elt F)) :=
  [ binary main_v63 main_v88 main_v89 ((fun a b => concatenate S1x384 1 [⟨S1x256, a⟩, ⟨S1x128, b⟩] concatenates_S1x256_S1x128_S1x384_d1) : (⟨S1x256, .f32⟩ : BufTy).Contents (Elt F) → (⟨S1x128, .f32⟩ : BufTy).Contents (Elt F) → (⟨S1x384, .f32⟩ : BufTy).Contents (Elt F)) ]
/-- The references it writes. -/
abbrev c2_W : List (Ref sig .tc) := [main_v89]
theorem c2_writes : (c2 : List (HloOp τ sig (Elt F))).Forall fun op => op.writes ⊆ (c2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference it does not write keeps its contents. -/
theorem c2_keep (W : Valuation τ sig (Elt F)) (r : Ref sig .tc) (h : r ∉ c2_W) : after c2 W (Proc.devRef .tc r) = W (Proc.devRef .tc r) :=
  after_of_writes_sub c2 W c2_writes h

/-- @main's list is the stretches in order. -/
theorem ops_split : (ops : List (HloOp τ sig (Elt F))) = s0 ++ (l1 ++ (g1 ++ (l2 ++ (g2 ++ (c1 ++ (l3 ++ (g3 ++ c2))))))) := rfl

end Cert.ReferenceIdeal.RefRun

end
-- ==== Proof.RefRunStretch.lean ====
/- Each stretch of the reference's @main evaluated ONCE from an arbitrary valuation of the buffers: its result as a
   function of the few buffers it reads. The evaluation is done for ANY float values — there the arithmetic is
   opaque, and removing the typed references' transports is all that is left to compute — against copies of the
   layer steps stated for any float values, which at the exact extended reals are the layer steps themselves. -/
import proofs.«172984_j19241453486477_1_alg».proof.Proof.RefOps
import proofs.«172984_j19241453486477_1_alg».proof.Proof.RefRunOps
import Idealize.ShloMosaic.Lib.StableHlo.Run

set_option maxRecDepth 16384

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

/-! ## The layer steps for any float values -/

section Generic
variable {F : FTy → Type} [FloatOps F]

def spreadG (nv : FVec F S50000 .f32) : FVec F S50000x128 .f32 :=
  broadcastInDim S50000x128 ![0, 1] bcast_S50000x1_S50000x128_0_1 (broadcastInDim S50000x1 ![0] bcast_S50000_S50000x1_0 nv)

def refProjG (h : FVec F S50000x128 .f32) (nv : FVec F S50000 .f32) (W : FVec F S128x128 .f32) :
    FVec F S50000x128 .f32 :=
  Host.dotGeneral dot_S50000x128_S128x128_S50000x128_1_0_0_1_n_n none (mulf h (spreadG nv)) W

def refPostG (agg : FVec F S50000x128 .f32) (nv : FVec F S50000 .f32) (a : FVec F S1 .f32) :
    FVec F S50000x128 .f32 :=
  select (cmpf .oge (mulf agg (spreadG nv)) (broadcastInDim S50000x128 ![] bcast_S_S50000x128 (constant (F := F) S_ .f32 0x00000000#32)))
    (mulf agg (spreadG nv))
    (mulf (broadcastInDim S50000x128 ![0, 1] bcast_S1x1_S50000x128_0_1 (broadcastInDim S1x1 ![1] bcast_S1_S1x1_1 a)) (mulf agg (spreadG nv)))

def refSumG (x : FVec F S50000x128 .f32) : FVec F S1x128 .f32 :=
  broadcastInDim S1x128 ![1] bcast_S128_S1x128_1
    (Host.reduceAdd x (constant (F := F) S_ .f32 0x00000000#32) reducesTo_S50000x128_S128_d0 h_S_)

def degG (s : IVec S800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 s)
    (broadcastInDim S800000 ![] bcast_S_S800000 (constant (F := F) S_ .f32 0x3F800000#32))

def normG (s : IVec S800000 32) : FVec F S50000 .f32 :=
  Host.powf (maximumf (broadcastInDim S50000 ![] bcast_S_S50000 (id (constant (F := F) S_ .f32 0x3F800000#32))) (degG s))
    (broadcastInDim S50000 ![] bcast_S_S50000 (constant (F := F) S_ .f32 0xBF000000#32))

def gidxG (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def spmmG (P : FVec F S50000x128 .f32) (s d : IVec S800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 d)
    (Host.gather gather_S50000x128_S800000x1_S800000x128_1_0_n_n_0_1_1128 P (gidxG s))

/-! ## Each stretch's results, from any valuation, for any float values -/

variable (W : Valuation τ sig (Elt F))

theorem s0_v9G : after s0 W (Proc.devRef .tc main_v9) = normG (W (Proc.devRef .tc main_arg1)) := by
  after_results_simp
  rfl
theorem s0_v12G : after s0 W (Proc.devRef .tc main_v12) = normG (W (Proc.devRef .tc main_arg2)) := by
  after_results_simp
  rfl
theorem l1_v35G : after l1 W (Proc.devRef .tc main_v35) =
    refPostG (spmmG (refProjG (W (Proc.devRef .tc main_arg0)) (W (Proc.devRef .tc main_v9)) (W (Proc.devRef .tc main_arg3))) (W (Proc.devRef .tc main_arg1)) (W (Proc.devRef .tc main_arg2))) (W (Proc.devRef .tc main_v12)) (W (Proc.devRef .tc main_arg6)) := by
  after_results_simp
  rfl
theorem l2_v60G : after l2 W (Proc.devRef .tc main_v60) =
    refPostG (spmmG (refProjG (W (Proc.devRef .tc main_v35)) (W (Proc.devRef .tc main_v9)) (W (Proc.devRef .tc main_arg4))) (W (Proc.devRef .tc main_arg1)) (W (Proc.devRef .tc main_arg2))) (W (Proc.devRef .tc main_v12)) (W (Proc.devRef .tc main_arg7)) := by
  after_results_simp
  rfl
theorem l3_v86G : after l3 W (Proc.devRef .tc main_v86) =
    refPostG (spmmG (refProjG (W (Proc.devRef .tc main_v60)) (W (Proc.devRef .tc main_v9)) (W (Proc.devRef .tc main_arg5))) (W (Proc.devRef .tc main_arg1)) (W (Proc.devRef .tc main_arg2))) (W (Proc.devRef .tc main_v12)) (W (Proc.devRef .tc main_arg8)) := by
  after_results_simp
  rfl
theorem g1_v37G : after g1 W (Proc.devRef .tc main_v37) = refSumG (W (Proc.devRef .tc main_v35)) := by
  after_results_simp
  rfl
theorem g2_v62G : after g2 W (Proc.devRef .tc main_v62) = refSumG (W (Proc.devRef .tc main_v60)) := by
  after_results_simp
  rfl
theorem g3_v88G : after g3 W (Proc.devRef .tc main_v88) = refSumG (W (Proc.devRef .tc main_v86)) := by
  after_results_simp
  rfl
theorem c1_v63G : after c1 W (Proc.devRef .tc main_v63) =
    concatenate S1x256 1 [⟨S1x128, W (Proc.devRef .tc main_v37)⟩, ⟨S1x128, W (Proc.devRef .tc main_v62)⟩] concatenates_S1x128_S1x128_S1x256_d1 := by
  after_results_simp
theorem c2_v89G : after c2 W (Proc.devRef .tc main_v89) =
    concatenate S1x384 1 [⟨S1x256, W (Proc.devRef .tc main_v63)⟩, ⟨S1x128, W (Proc.devRef .tc main_v88)⟩] concatenates_S1x256_S1x128_S1x384_d1 := by
  after_results_simp

end Generic

/-! ## At the exact extended reals the copies are the layer steps -/

theorem spread_eq (nv : FVec Ideal S50000 .f32) : spread nv = spreadG (F := Ideal) nv := by
  unfold spread spreadG; rfl
theorem refProj_eq (h : FVec Ideal S50000x128 .f32) (nv : FVec Ideal S50000 .f32) (Wm : FVec Ideal S128x128 .f32) :
    refProj h nv Wm = refProjG (F := Ideal) h nv Wm := by
  unfold refProj refProjG; rw [spread_eq]
theorem refPost_eq (agg : FVec Ideal S50000x128 .f32) (nv : FVec Ideal S50000 .f32) (a : FVec Ideal S1 .f32) :
    refPost agg nv a = refPostG (F := Ideal) agg nv a := by
  unfold refPost refPostG; rw [spread_eq]
theorem refSum_eq (x : FVec Ideal S50000x128 .f32) : refSum x = refSumG (F := Ideal) x := by
  unfold refSum refSumG; rfl
theorem deg_eq (s : IVec S800000 32) : deg s = degG (F := Ideal) s := by
  unfold deg degG; rfl
theorem norm_eq (s : IVec S800000 32) : RefOps.norm s = normG (F := Ideal) s := by
  unfold RefOps.norm normG; rw [deg_eq]
theorem gidx_eq (s : IVec S800000 32) : gidx s = gidxG s := by
  unfold gidx gidxG; rfl
theorem spmm_eq (P : FVec Ideal S50000x128 .f32) (s d : IVec S800000 32) : spmm P s d = spmmG (F := Ideal) P s d := by
  unfold spmm spmmG; rw [gidx_eq]

/-! ## Each stretch's results at the exact extended reals -/

section Stretch
variable (W : Valuation τ sig (Elt Ideal))

theorem s0_v9 : after (s0 (F := Ideal)) W (Proc.devRef .tc main_v9) = RefOps.norm (W (Proc.devRef .tc main_arg1)) :=
  (s0_v9G W).trans (norm_eq _).symm
theorem s0_v12 : after (s0 (F := Ideal)) W (Proc.devRef .tc main_v12) = RefOps.norm (W (Proc.devRef .tc main_arg2)) :=
  (s0_v12G W).trans (norm_eq _).symm
theorem l1_v35 : after (l1 (F := Ideal)) W (Proc.devRef .tc main_v35) =
    refPost (spmm (refProj (W (Proc.devRef .tc main_arg0)) (W (Proc.devRef .tc main_v9)) (W (Proc.devRef .tc main_arg3))) (W (Proc.devRef .tc main_arg1)) (W (Proc.devRef .tc main_arg2))) (W (Proc.devRef .tc main_v12)) (W (Proc.devRef .tc main_arg6)) := by
  rw [refPost_eq, spmm_eq, refProj_eq]
  exact l1_v35G W
theorem l2_v60 : after (l2 (F := Ideal)) W (Proc.devRef .tc main_v60) =
    refPost (spmm (refProj (W (Proc.devRef .tc main_v35)) (W (Proc.devRef .tc main_v9)) (W (Proc.devRef .tc main_arg4))) (W (Proc.devRef .tc main_arg1)) (W (Proc.devRef .tc main_arg2))) (W (Proc.devRef .tc main_v12)) (W (Proc.devRef .tc main_arg7)) := by
  rw [refPost_eq, spmm_eq, refProj_eq]
  exact l2_v60G W
theorem l3_v86 : after (l3 (F := Ideal)) W (Proc.devRef .tc main_v86) =
    refPost (spmm (refProj (W (Proc.devRef .tc main_v60)) (W (Proc.devRef .tc main_v9)) (W (Proc.devRef .tc main_arg5))) (W (Proc.devRef .tc main_arg1)) (W (Proc.devRef .tc main_arg2))) (W (Proc.devRef .tc main_v12)) (W (Proc.devRef .tc main_arg8)) := by
  rw [refPost_eq, spmm_eq, refProj_eq]
  exact l3_v86G W
theorem g1_v37 : after (g1 (F := Ideal)) W (Proc.devRef .tc main_v37) = refSum (W (Proc.devRef .tc main_v35)) :=
  (g1_v37G W).trans (refSum_eq _).symm
theorem g2_v62 : after (g2 (F := Ideal)) W (Proc.devRef .tc main_v62) = refSum (W (Proc.devRef .tc main_v60)) :=
  (g2_v62G W).trans (refSum_eq _).symm
theorem g3_v88 : after (g3 (F := Ideal)) W (Proc.devRef .tc main_v88) = refSum (W (Proc.devRef .tc main_v86)) :=
  (g3_v88G W).trans (refSum_eq _).symm
theorem c1_v63 : after (c1 (F := Ideal)) W (Proc.devRef .tc main_v63) =
    concatenate S1x256 1 [⟨S1x128, W (Proc.devRef .tc main_v37)⟩, ⟨S1x128, W (Proc.devRef .tc main_v62)⟩] concatenates_S1x128_S1x128_S1x256_d1 :=
  c1_v63G W
theorem c2_v89 : after (c2 (F := Ideal)) W (Proc.devRef .tc main_v89) =
    concatenate S1x384 1 [⟨S1x256, W (Proc.devRef .tc main_v63)⟩, ⟨S1x128, W (Proc.devRef .tc main_v88)⟩] concatenates_S1x256_S1x128_S1x384_d1 :=
  c2_v89G W

end Stretch

end Cert.ReferenceIdeal.RefRun

end
-- ==== Proof.RefRun.lean ====
/- The reference's run, stretch by stretch: @main's 116 host operations as a list, split into the
   normalisation prelude, three layers (project, pass messages, rectify), their column sums and the two
   concatenations. Each stretch is evaluated ONCE from an arbitrary valuation of the buffers (its result as a
   function of the few buffers it reads, every other buffer it does not write left as found), and the stretches are
   then chained through named valuations, so that the three-layer term is never written out. At the exact
   extended reals. -/
import proofs.«172984_j19241453486477_1_alg».proof.Proof.RefRunStretch
import Idealize.ShloMosaic.Lib.StableHlo.Run

set_option maxRecDepth 16384

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

/-! ## The results by name -/

variable (m : (ℓ : Loc nD τ sig) → Buf (Elt Ideal) ℓ) (c : Dev nD)

/-- The three layers' outputs, from the arguments as launched, -/
def h1 : FVec Ideal S50000x128 .f32 := layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
def h2 : FVec Ideal S50000x128 .f32 := layer (h1 m c) (m ((c.tc : Thread nD τ).loc main_arg1)) (m ((c.tc : Thread nD τ).loc main_arg2)) (m ((c.tc : Thread nD τ).loc main_arg4)) (m ((c.tc : Thread nD τ).loc main_arg7))
def h3 : FVec Ideal S50000x128 .f32 := layer (h2 m c) (m ((c.tc : Thread nD τ).loc main_arg1)) (m ((c.tc : Thread nD τ).loc main_arg2)) (m ((c.tc : Thread nD τ).loc main_arg5)) (m ((c.tc : Thread nD τ).loc main_arg8))
/-- and their column sums side by side. -/
def hgAll : FVec Ideal S1x384 .f32 :=
  concatenate S1x384 1 [⟨S1x256, concatenate S1x256 1 [⟨S1x128, refSum (h1 m c)⟩, ⟨S1x128, refSum (h2 m c)⟩] concatenates_S1x128_S1x128_S1x256_d1⟩, ⟨S1x128, refSum (h3 m c)⟩] concatenates_S1x256_S1x128_S1x384_d1

/-! ## The valuations between the stretches -/

def V1 : Valuation τ sig (Elt Ideal) := after (s0 (F := Ideal)) (launchContents m c)
def V2 : Valuation τ sig (Elt Ideal) := after (l1 (F := Ideal)) (V1 m c)
def V3 : Valuation τ sig (Elt Ideal) := after (g1 (F := Ideal)) (V2 m c)
def V4 : Valuation τ sig (Elt Ideal) := after (l2 (F := Ideal)) (V3 m c)
def V5 : Valuation τ sig (Elt Ideal) := after (g2 (F := Ideal)) (V4 m c)
def V6 : Valuation τ sig (Elt Ideal) := after (c1 (F := Ideal)) (V5 m c)
def V7 : Valuation τ sig (Elt Ideal) := after (l3 (F := Ideal)) (V6 m c)
def V8 : Valuation τ sig (Elt Ideal) := after (g3 (F := Ideal)) (V7 m c)
def V9 : Valuation τ sig (Elt Ideal) := after (c2 (F := Ideal)) (V8 m c)

/-- The whole list's valuation is the last of them. -/
theorem after_ops : after (ops (F := Ideal)) (launchContents m c) = V9 m c := by
  rw [ops_split]; simp only [after_append]; rfl

/-! ### After `s0` -/
theorem V1_arg0 : V1 m c (Proc.devRef .tc main_arg0) = m ((c.tc : Thread nD τ).loc main_arg0) := by
  unfold V1; exact (s0_keep _ main_arg0 (by decide)).trans rfl
theorem V1_arg1 : V1 m c (Proc.devRef .tc main_arg1) = m ((c.tc : Thread nD τ).loc main_arg1) := by
  unfold V1; exact (s0_keep _ main_arg1 (by decide)).trans rfl
theorem V1_arg2 : V1 m c (Proc.devRef .tc main_arg2) = m ((c.tc : Thread nD τ).loc main_arg2) := by
  unfold V1; exact (s0_keep _ main_arg2 (by decide)).trans rfl
theorem V1_arg3 : V1 m c (Proc.devRef .tc main_arg3) = m ((c.tc : Thread nD τ).loc main_arg3) := by
  unfold V1; exact (s0_keep _ main_arg3 (by decide)).trans rfl
theorem V1_arg4 : V1 m c (Proc.devRef .tc main_arg4) = m ((c.tc : Thread nD τ).loc main_arg4) := by
  unfold V1; exact (s0_keep _ main_arg4 (by decide)).trans rfl
theorem V1_arg5 : V1 m c (Proc.devRef .tc main_arg5) = m ((c.tc : Thread nD τ).loc main_arg5) := by
  unfold V1; exact (s0_keep _ main_arg5 (by decide)).trans rfl
theorem V1_arg6 : V1 m c (Proc.devRef .tc main_arg6) = m ((c.tc : Thread nD τ).loc main_arg6) := by
  unfold V1; exact (s0_keep _ main_arg6 (by decide)).trans rfl
theorem V1_arg7 : V1 m c (Proc.devRef .tc main_arg7) = m ((c.tc : Thread nD τ).loc main_arg7) := by
  unfold V1; exact (s0_keep _ main_arg7 (by decide)).trans rfl
theorem V1_arg8 : V1 m c (Proc.devRef .tc main_arg8) = m ((c.tc : Thread nD τ).loc main_arg8) := by
  unfold V1; exact (s0_keep _ main_arg8 (by decide)).trans rfl
theorem V1_v9 : V1 m c (Proc.devRef .tc main_v9) = norm (m ((c.tc : Thread nD τ).loc main_arg1)) := by
  unfold V1; rw [s0_v9, show launchContents m c (Proc.devRef .tc main_arg1) = m ((c.tc : Thread nD τ).loc main_arg1) from rfl]
theorem V1_v12 : V1 m c (Proc.devRef .tc main_v12) = norm (m ((c.tc : Thread nD τ).loc main_arg2)) := by
  unfold V1; rw [s0_v12, show launchContents m c (Proc.devRef .tc main_arg2) = m ((c.tc : Thread nD τ).loc main_arg2) from rfl]

/-! ### After `l1` -/
theorem V2_arg0 : V2 m c (Proc.devRef .tc main_arg0) = m ((c.tc : Thread nD τ).loc main_arg0) := by
  unfold V2; exact (l1_keep _ main_arg0 (by decide)).trans (V1_arg0 m c)
theorem V2_arg1 : V2 m c (Proc.devRef .tc main_arg1) = m ((c.tc : Thread nD τ).loc main_arg1) := by
  unfold V2; exact (l1_keep _ main_arg1 (by decide)).trans (V1_arg1 m c)
theorem V2_arg2 : V2 m c (Proc.devRef .tc main_arg2) = m ((c.tc : Thread nD τ).loc main_arg2) := by
  unfold V2; exact (l1_keep _ main_arg2 (by decide)).trans (V1_arg2 m c)
theorem V2_arg3 : V2 m c (Proc.devRef .tc main_arg3) = m ((c.tc : Thread nD τ).loc main_arg3) := by
  unfold V2; exact (l1_keep _ main_arg3 (by decide)).trans (V1_arg3 m c)
theorem V2_arg4 : V2 m c (Proc.devRef .tc main_arg4) = m ((c.tc : Thread nD τ).loc main_arg4) := by
  unfold V2; exact (l1_keep _ main_arg4 (by decide)).trans (V1_arg4 m c)
theorem V2_arg5 : V2 m c (Proc.devRef .tc main_arg5) = m ((c.tc : Thread nD τ).loc main_arg5) := by
  unfold V2; exact (l1_keep _ main_arg5 (by decide)).trans (V1_arg5 m c)
theorem V2_arg6 : V2 m c (Proc.devRef .tc main_arg6) = m ((c.tc : Thread nD τ).loc main_arg6) := by
  unfold V2; exact (l1_keep _ main_arg6 (by decide)).trans (V1_arg6 m c)
theorem V2_arg7 : V2 m c (Proc.devRef .tc main_arg7) = m ((c.tc : Thread nD τ).loc main_arg7) := by
  unfold V2; exact (l1_keep _ main_arg7 (by decide)).trans (V1_arg7 m c)
theorem V2_arg8 : V2 m c (Proc.devRef .tc main_arg8) = m ((c.tc : Thread nD τ).loc main_arg8) := by
  unfold V2; exact (l1_keep _ main_arg8 (by decide)).trans (V1_arg8 m c)
theorem V2_v9 : V2 m c (Proc.devRef .tc main_v9) = norm (m ((c.tc : Thread nD τ).loc main_arg1)) := by
  unfold V2; exact (l1_keep _ main_v9 (by decide)).trans (V1_v9 m c)
theorem V2_v12 : V2 m c (Proc.devRef .tc main_v12) = norm (m ((c.tc : Thread nD τ).loc main_arg2)) := by
  unfold V2; exact (l1_keep _ main_v12 (by decide)).trans (V1_v12 m c)
theorem V2_v35 : V2 m c (Proc.devRef .tc main_v35) = h1 m c := by
  unfold V2; rw [l1_v35, V1_arg0 m c, V1_v9 m c, V1_arg3 m c, V1_arg1 m c, V1_arg2 m c, V1_v12 m c, V1_arg6 m c]
  rfl

/-! ### After `g1` -/
theorem V3_arg0 : V3 m c (Proc.devRef .tc main_arg0) = m ((c.tc : Thread nD τ).loc main_arg0) := by
  unfold V3; exact (g1_keep _ main_arg0 (by decide)).trans (V2_arg0 m c)
theorem V3_arg1 : V3 m c (Proc.devRef .tc main_arg1) = m ((c.tc : Thread nD τ).loc main_arg1) := by
  unfold V3; exact (g1_keep _ main_arg1 (by decide)).trans (V2_arg1 m c)
theorem V3_arg2 : V3 m c (Proc.devRef .tc main_arg2) = m ((c.tc : Thread nD τ).loc main_arg2) := by
  unfold V3; exact (g1_keep _ main_arg2 (by decide)).trans (V2_arg2 m c)
theorem V3_arg3 : V3 m c (Proc.devRef .tc main_arg3) = m ((c.tc : Thread nD τ).loc main_arg3) := by
  unfold V3; exact (g1_keep _ main_arg3 (by decide)).trans (V2_arg3 m c)
theorem V3_arg4 : V3 m c (Proc.devRef .tc main_arg4) = m ((c.tc : Thread nD τ).loc main_arg4) := by
  unfold V3; exact (g1_keep _ main_arg4 (by decide)).trans (V2_arg4 m c)
theorem V3_arg5 : V3 m c (Proc.devRef .tc main_arg5) = m ((c.tc : Thread nD τ).loc main_arg5) := by
  unfold V3; exact (g1_keep _ main_arg5 (by decide)).trans (V2_arg5 m c)
theorem V3_arg6 : V3 m c (Proc.devRef .tc main_arg6) = m ((c.tc : Thread nD τ).loc main_arg6) := by
  unfold V3; exact (g1_keep _ main_arg6 (by decide)).trans (V2_arg6 m c)
theorem V3_arg7 : V3 m c (Proc.devRef .tc main_arg7) = m ((c.tc : Thread nD τ).loc main_arg7) := by
  unfold V3; exact (g1_keep _ main_arg7 (by decide)).trans (V2_arg7 m c)
theorem V3_arg8 : V3 m c (Proc.devRef .tc main_arg8) = m ((c.tc : Thread nD τ).loc main_arg8) := by
  unfold V3; exact (g1_keep _ main_arg8 (by decide)).trans (V2_arg8 m c)
theorem V3_v9 : V3 m c (Proc.devRef .tc main_v9) = norm (m ((c.tc : Thread nD τ).loc main_arg1)) := by
  unfold V3; exact (g1_keep _ main_v9 (by decide)).trans (V2_v9 m c)
theorem V3_v12 : V3 m c (Proc.devRef .tc main_v12) = norm (m ((c.tc : Thread nD τ).loc main_arg2)) := by
  unfold V3; exact (g1_keep _ main_v12 (by decide)).trans (V2_v12 m c)
theorem V3_v35 : V3 m c (Proc.devRef .tc main_v35) = h1 m c := by
  unfold V3; exact (g1_keep _ main_v35 (by decide)).trans (V2_v35 m c)
theorem V3_v37 : V3 m c (Proc.devRef .tc main_v37) = refSum (h1 m c) := by
  unfold V3; rw [g1_v37, V2_v35 m c]

/-! ### After `l2` -/
theorem V4_arg0 : V4 m c (Proc.devRef .tc main_arg0) = m ((c.tc : Thread nD τ).loc main_arg0) := by
  unfold V4; exact (l2_keep _ main_arg0 (by decide)).trans (V3_arg0 m c)
theorem V4_arg1 : V4 m c (Proc.devRef .tc main_arg1) = m ((c.tc : Thread nD τ).loc main_arg1) := by
  unfold V4; exact (l2_keep _ main_arg1 (by decide)).trans (V3_arg1 m c)
theorem V4_arg2 : V4 m c (Proc.devRef .tc main_arg2) = m ((c.tc : Thread nD τ).loc main_arg2) := by
  unfold V4; exact (l2_keep _ main_arg2 (by decide)).trans (V3_arg2 m c)
theorem V4_arg3 : V4 m c (Proc.devRef .tc main_arg3) = m ((c.tc : Thread nD τ).loc main_arg3) := by
  unfold V4; exact (l2_keep _ main_arg3 (by decide)).trans (V3_arg3 m c)
theorem V4_arg4 : V4 m c (Proc.devRef .tc main_arg4) = m ((c.tc : Thread nD τ).loc main_arg4) := by
  unfold V4; exact (l2_keep _ main_arg4 (by decide)).trans (V3_arg4 m c)
theorem V4_arg5 : V4 m c (Proc.devRef .tc main_arg5) = m ((c.tc : Thread nD τ).loc main_arg5) := by
  unfold V4; exact (l2_keep _ main_arg5 (by decide)).trans (V3_arg5 m c)
theorem V4_arg6 : V4 m c (Proc.devRef .tc main_arg6) = m ((c.tc : Thread nD τ).loc main_arg6) := by
  unfold V4; exact (l2_keep _ main_arg6 (by decide)).trans (V3_arg6 m c)
theorem V4_arg7 : V4 m c (Proc.devRef .tc main_arg7) = m ((c.tc : Thread nD τ).loc main_arg7) := by
  unfold V4; exact (l2_keep _ main_arg7 (by decide)).trans (V3_arg7 m c)
theorem V4_arg8 : V4 m c (Proc.devRef .tc main_arg8) = m ((c.tc : Thread nD τ).loc main_arg8) := by
  unfold V4; exact (l2_keep _ main_arg8 (by decide)).trans (V3_arg8 m c)
theorem V4_v9 : V4 m c (Proc.devRef .tc main_v9) = norm (m ((c.tc : Thread nD τ).loc main_arg1)) := by
  unfold V4; exact (l2_keep _ main_v9 (by decide)).trans (V3_v9 m c)
theorem V4_v12 : V4 m c (Proc.devRef .tc main_v12) = norm (m ((c.tc : Thread nD τ).loc main_arg2)) := by
  unfold V4; exact (l2_keep _ main_v12 (by decide)).trans (V3_v12 m c)
theorem V4_v37 : V4 m c (Proc.devRef .tc main_v37) = refSum (h1 m c) := by
  unfold V4; exact (l2_keep _ main_v37 (by decide)).trans (V3_v37 m c)
theorem V4_v60 : V4 m c (Proc.devRef .tc main_v60) = h2 m c := by
  unfold V4; rw [l2_v60, V3_v35 m c, V3_v9 m c, V3_arg4 m c, V3_arg1 m c, V3_arg2 m c, V3_v12 m c, V3_arg7 m c]
  rfl

/-! ### After `g2` -/
theorem V5_arg0 : V5 m c (Proc.devRef .tc main_arg0) = m ((c.tc : Thread nD τ).loc main_arg0) := by
  unfold V5; exact (g2_keep _ main_arg0 (by decide)).trans (V4_arg0 m c)
theorem V5_arg1 : V5 m c (Proc.devRef .tc main_arg1) = m ((c.tc : Thread nD τ).loc main_arg1) := by
  unfold V5; exact (g2_keep _ main_arg1 (by decide)).trans (V4_arg1 m c)
theorem V5_arg2 : V5 m c (Proc.devRef .tc main_arg2) = m ((c.tc : Thread nD τ).loc main_arg2) := by
  unfold V5; exact (g2_keep _ main_arg2 (by decide)).trans (V4_arg2 m c)
theorem V5_arg3 : V5 m c (Proc.devRef .tc main_arg3) = m ((c.tc : Thread nD τ).loc main_arg3) := by
  unfold V5; exact (g2_keep _ main_arg3 (by decide)).trans (V4_arg3 m c)
theorem V5_arg4 : V5 m c (Proc.devRef .tc main_arg4) = m ((c.tc : Thread nD τ).loc main_arg4) := by
  unfold V5; exact (g2_keep _ main_arg4 (by decide)).trans (V4_arg4 m c)
theorem V5_arg5 : V5 m c (Proc.devRef .tc main_arg5) = m ((c.tc : Thread nD τ).loc main_arg5) := by
  unfold V5; exact (g2_keep _ main_arg5 (by decide)).trans (V4_arg5 m c)
theorem V5_arg6 : V5 m c (Proc.devRef .tc main_arg6) = m ((c.tc : Thread nD τ).loc main_arg6) := by
  unfold V5; exact (g2_keep _ main_arg6 (by decide)).trans (V4_arg6 m c)
theorem V5_arg7 : V5 m c (Proc.devRef .tc main_arg7) = m ((c.tc : Thread nD τ).loc main_arg7) := by
  unfold V5; exact (g2_keep _ main_arg7 (by decide)).trans (V4_arg7 m c)
theorem V5_arg8 : V5 m c (Proc.devRef .tc main_arg8) = m ((c.tc : Thread nD τ).loc main_arg8) := by
  unfold V5; exact (g2_keep _ main_arg8 (by decide)).trans (V4_arg8 m c)
theorem V5_v9 : V5 m c (Proc.devRef .tc main_v9) = norm (m ((c.tc : Thread nD τ).loc main_arg1)) := by
  unfold V5; exact (g2_keep _ main_v9 (by decide)).trans (V4_v9 m c)
theorem V5_v12 : V5 m c (Proc.devRef .tc main_v12) = norm (m ((c.tc : Thread nD τ).loc main_arg2)) := by
  unfold V5; exact (g2_keep _ main_v12 (by decide)).trans (V4_v12 m c)
theorem V5_v37 : V5 m c (Proc.devRef .tc main_v37) = refSum (h1 m c) := by
  unfold V5; exact (g2_keep _ main_v37 (by decide)).trans (V4_v37 m c)
theorem V5_v60 : V5 m c (Proc.devRef .tc main_v60) = h2 m c := by
  unfold V5; exact (g2_keep _ main_v60 (by decide)).trans (V4_v60 m c)
theorem V5_v62 : V5 m c (Proc.devRef .tc main_v62) = refSum (h2 m c) := by
  unfold V5; rw [g2_v62, V4_v60 m c]

/-! ### After `c1` -/
theorem V6_arg0 : V6 m c (Proc.devRef .tc main_arg0) = m ((c.tc : Thread nD τ).loc main_arg0) := by
  unfold V6; exact (c1_keep _ main_arg0 (by decide)).trans (V5_arg0 m c)
theorem V6_arg1 : V6 m c (Proc.devRef .tc main_arg1) = m ((c.tc : Thread nD τ).loc main_arg1) := by
  unfold V6; exact (c1_keep _ main_arg1 (by decide)).trans (V5_arg1 m c)
theorem V6_arg2 : V6 m c (Proc.devRef .tc main_arg2) = m ((c.tc : Thread nD τ).loc main_arg2) := by
  unfold V6; exact (c1_keep _ main_arg2 (by decide)).trans (V5_arg2 m c)
theorem V6_arg3 : V6 m c (Proc.devRef .tc main_arg3) = m ((c.tc : Thread nD τ).loc main_arg3) := by
  unfold V6; exact (c1_keep _ main_arg3 (by decide)).trans (V5_arg3 m c)
theorem V6_arg4 : V6 m c (Proc.devRef .tc main_arg4) = m ((c.tc : Thread nD τ).loc main_arg4) := by
  unfold V6; exact (c1_keep _ main_arg4 (by decide)).trans (V5_arg4 m c)
theorem V6_arg5 : V6 m c (Proc.devRef .tc main_arg5) = m ((c.tc : Thread nD τ).loc main_arg5) := by
  unfold V6; exact (c1_keep _ main_arg5 (by decide)).trans (V5_arg5 m c)
theorem V6_arg6 : V6 m c (Proc.devRef .tc main_arg6) = m ((c.tc : Thread nD τ).loc main_arg6) := by
  unfold V6; exact (c1_keep _ main_arg6 (by decide)).trans (V5_arg6 m c)
theorem V6_arg7 : V6 m c (Proc.devRef .tc main_arg7) = m ((c.tc : Thread nD τ).loc main_arg7) := by
  unfold V6; exact (c1_keep _ main_arg7 (by decide)).trans (V5_arg7 m c)
theorem V6_arg8 : V6 m c (Proc.devRef .tc main_arg8) = m ((c.tc : Thread nD τ).loc main_arg8) := by
  unfold V6; exact (c1_keep _ main_arg8 (by decide)).trans (V5_arg8 m c)
theorem V6_v9 : V6 m c (Proc.devRef .tc main_v9) = norm (m ((c.tc : Thread nD τ).loc main_arg1)) := by
  unfold V6; exact (c1_keep _ main_v9 (by decide)).trans (V5_v9 m c)
theorem V6_v12 : V6 m c (Proc.devRef .tc main_v12) = norm (m ((c.tc : Thread nD τ).loc main_arg2)) := by
  unfold V6; exact (c1_keep _ main_v12 (by decide)).trans (V5_v12 m c)
theorem V6_v60 : V6 m c (Proc.devRef .tc main_v60) = h2 m c := by
  unfold V6; exact (c1_keep _ main_v60 (by decide)).trans (V5_v60 m c)
theorem V6_v63 : V6 m c (Proc.devRef .tc main_v63) = concatenate S1x256 1 [⟨S1x128, refSum (h1 m c)⟩, ⟨S1x128, refSum (h2 m c)⟩] concatenates_S1x128_S1x128_S1x256_d1 := by
  unfold V6; rw [c1_v63, V5_v37 m c, V5_v62 m c]

/-! ### After `l3` -/
theorem V7_arg0 : V7 m c (Proc.devRef .tc main_arg0) = m ((c.tc : Thread nD τ).loc main_arg0) := by
  unfold V7; exact (l3_keep _ main_arg0 (by decide)).trans (V6_arg0 m c)
theorem V7_arg1 : V7 m c (Proc.devRef .tc main_arg1) = m ((c.tc : Thread nD τ).loc main_arg1) := by
  unfold V7; exact (l3_keep _ main_arg1 (by decide)).trans (V6_arg1 m c)
theorem V7_arg2 : V7 m c (Proc.devRef .tc main_arg2) = m ((c.tc : Thread nD τ).loc main_arg2) := by
  unfold V7; exact (l3_keep _ main_arg2 (by decide)).trans (V6_arg2 m c)
theorem V7_arg3 : V7 m c (Proc.devRef .tc main_arg3) = m ((c.tc : Thread nD τ).loc main_arg3) := by
  unfold V7; exact (l3_keep _ main_arg3 (by decide)).trans (V6_arg3 m c)
theorem V7_arg4 : V7 m c (Proc.devRef .tc main_arg4) = m ((c.tc : Thread nD τ).loc main_arg4) := by
  unfold V7; exact (l3_keep _ main_arg4 (by decide)).trans (V6_arg4 m c)
theorem V7_arg5 : V7 m c (Proc.devRef .tc main_arg5) = m ((c.tc : Thread nD τ).loc main_arg5) := by
  unfold V7; exact (l3_keep _ main_arg5 (by decide)).trans (V6_arg5 m c)
theorem V7_arg6 : V7 m c (Proc.devRef .tc main_arg6) = m ((c.tc : Thread nD τ).loc main_arg6) := by
  unfold V7; exact (l3_keep _ main_arg6 (by decide)).trans (V6_arg6 m c)
theorem V7_arg7 : V7 m c (Proc.devRef .tc main_arg7) = m ((c.tc : Thread nD τ).loc main_arg7) := by
  unfold V7; exact (l3_keep _ main_arg7 (by decide)).trans (V6_arg7 m c)
theorem V7_arg8 : V7 m c (Proc.devRef .tc main_arg8) = m ((c.tc : Thread nD τ).loc main_arg8) := by
  unfold V7; exact (l3_keep _ main_arg8 (by decide)).trans (V6_arg8 m c)
theorem V7_v63 : V7 m c (Proc.devRef .tc main_v63) = concatenate S1x256 1 [⟨S1x128, refSum (h1 m c)⟩, ⟨S1x128, refSum (h2 m c)⟩] concatenates_S1x128_S1x128_S1x256_d1 := by
  unfold V7; exact (l3_keep _ main_v63 (by decide)).trans (V6_v63 m c)
theorem V7_v86 : V7 m c (Proc.devRef .tc main_v86) = h3 m c := by
  unfold V7; rw [l3_v86, V6_v60 m c, V6_v9 m c, V6_arg5 m c, V6_arg1 m c, V6_arg2 m c, V6_v12 m c, V6_arg8 m c]
  rfl

/-! ### After `g3` -/
theorem V8_arg0 : V8 m c (Proc.devRef .tc main_arg0) = m ((c.tc : Thread nD τ).loc main_arg0) := by
  unfold V8; exact (g3_keep _ main_arg0 (by decide)).trans (V7_arg0 m c)
theorem V8_arg1 : V8 m c (Proc.devRef .tc main_arg1) = m ((c.tc : Thread nD τ).loc main_arg1) := by
  unfold V8; exact (g3_keep _ main_arg1 (by decide)).trans (V7_arg1 m c)
theorem V8_arg2 : V8 m c (Proc.devRef .tc main_arg2) = m ((c.tc : Thread nD τ).loc main_arg2) := by
  unfold V8; exact (g3_keep _ main_arg2 (by decide)).trans (V7_arg2 m c)
theorem V8_arg3 : V8 m c (Proc.devRef .tc main_arg3) = m ((c.tc : Thread nD τ).loc main_arg3) := by
  unfold V8; exact (g3_keep _ main_arg3 (by decide)).trans (V7_arg3 m c)
theorem V8_arg4 : V8 m c (Proc.devRef .tc main_arg4) = m ((c.tc : Thread nD τ).loc main_arg4) := by
  unfold V8; exact (g3_keep _ main_arg4 (by decide)).trans (V7_arg4 m c)
theorem V8_arg5 : V8 m c (Proc.devRef .tc main_arg5) = m ((c.tc : Thread nD τ).loc main_arg5) := by
  unfold V8; exact (g3_keep _ main_arg5 (by decide)).trans (V7_arg5 m c)
theorem V8_arg6 : V8 m c (Proc.devRef .tc main_arg6) = m ((c.tc : Thread nD τ).loc main_arg6) := by
  unfold V8; exact (g3_keep _ main_arg6 (by decide)).trans (V7_arg6 m c)
theorem V8_arg7 : V8 m c (Proc.devRef .tc main_arg7) = m ((c.tc : Thread nD τ).loc main_arg7) := by
  unfold V8; exact (g3_keep _ main_arg7 (by decide)).trans (V7_arg7 m c)
theorem V8_arg8 : V8 m c (Proc.devRef .tc main_arg8) = m ((c.tc : Thread nD τ).loc main_arg8) := by
  unfold V8; exact (g3_keep _ main_arg8 (by decide)).trans (V7_arg8 m c)
theorem V8_v63 : V8 m c (Proc.devRef .tc main_v63) = concatenate S1x256 1 [⟨S1x128, refSum (h1 m c)⟩, ⟨S1x128, refSum (h2 m c)⟩] concatenates_S1x128_S1x128_S1x256_d1 := by
  unfold V8; exact (g3_keep _ main_v63 (by decide)).trans (V7_v63 m c)
theorem V8_v86 : V8 m c (Proc.devRef .tc main_v86) = h3 m c := by
  unfold V8; exact (g3_keep _ main_v86 (by decide)).trans (V7_v86 m c)
theorem V8_v88 : V8 m c (Proc.devRef .tc main_v88) = refSum (h3 m c) := by
  unfold V8; rw [g3_v88, V7_v86 m c]

/-! ### After `c2` -/
theorem V9_arg0 : V9 m c (Proc.devRef .tc main_arg0) = m ((c.tc : Thread nD τ).loc main_arg0) := by
  unfold V9; exact (c2_keep _ main_arg0 (by decide)).trans (V8_arg0 m c)
theorem V9_arg1 : V9 m c (Proc.devRef .tc main_arg1) = m ((c.tc : Thread nD τ).loc main_arg1) := by
  unfold V9; exact (c2_keep _ main_arg1 (by decide)).trans (V8_arg1 m c)
theorem V9_arg2 : V9 m c (Proc.devRef .tc main_arg2) = m ((c.tc : Thread nD τ).loc main_arg2) := by
  unfold V9; exact (c2_keep _ main_arg2 (by decide)).trans (V8_arg2 m c)
theorem V9_arg3 : V9 m c (Proc.devRef .tc main_arg3) = m ((c.tc : Thread nD τ).loc main_arg3) := by
  unfold V9; exact (c2_keep _ main_arg3 (by decide)).trans (V8_arg3 m c)
theorem V9_arg4 : V9 m c (Proc.devRef .tc main_arg4) = m ((c.tc : Thread nD τ).loc main_arg4) := by
  unfold V9; exact (c2_keep _ main_arg4 (by decide)).trans (V8_arg4 m c)
theorem V9_arg5 : V9 m c (Proc.devRef .tc main_arg5) = m ((c.tc : Thread nD τ).loc main_arg5) := by
  unfold V9; exact (c2_keep _ main_arg5 (by decide)).trans (V8_arg5 m c)
theorem V9_arg6 : V9 m c (Proc.devRef .tc main_arg6) = m ((c.tc : Thread nD τ).loc main_arg6) := by
  unfold V9; exact (c2_keep _ main_arg6 (by decide)).trans (V8_arg6 m c)
theorem V9_arg7 : V9 m c (Proc.devRef .tc main_arg7) = m ((c.tc : Thread nD τ).loc main_arg7) := by
  unfold V9; exact (c2_keep _ main_arg7 (by decide)).trans (V8_arg7 m c)
theorem V9_arg8 : V9 m c (Proc.devRef .tc main_arg8) = m ((c.tc : Thread nD τ).loc main_arg8) := by
  unfold V9; exact (c2_keep _ main_arg8 (by decide)).trans (V8_arg8 m c)
theorem V9_v86 : V9 m c (Proc.devRef .tc main_v86) = h3 m c := by
  unfold V9; exact (c2_keep _ main_v86 (by decide)).trans (V8_v86 m c)
theorem V9_v89 : V9 m c (Proc.devRef .tc main_v89) = hgAll m c := by
  unfold V9; rw [c2_v89, V8_v63 m c, V8_v88 m c]
  rfl

/-! ## The run -/

/-- On every device, from any memory with zero counters: every weakly fair execution of the reference's @main
    terminates with the third layer's output and the three column sums side by side at their named values, and the
    nine arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v86) = h3 m c
      ∧ r.2.mem ((c.tc : Thread nD τ).loc main_v89) = hgAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c => ⟨(h c main_v86).trans ((congrFun (after_ops m c) _).trans (V9_v86 m c)),
      (h c main_v89).trans ((congrFun (after_ops m c) _).trans (V9_v89 m c)),
      (h c main_arg0).trans ((congrFun (after_ops m c) _).trans (V9_arg0 m c)),
      (h c main_arg1).trans ((congrFun (after_ops m c) _).trans (V9_arg1 m c)),
      (h c main_arg2).trans ((congrFun (after_ops m c) _).trans (V9_arg2 m c)),
      (h c main_arg3).trans ((congrFun (after_ops m c) _).trans (V9_arg3 m c)),
      (h c main_arg4).trans ((congrFun (after_ops m c) _).trans (V9_arg4 m c)),
      (h c main_arg5).trans ((congrFun (after_ops m c) _).trans (V9_arg5 m c)),
      (h c main_arg6).trans ((congrFun (after_ops m c) _).trans (V9_arg6 m c)),
      (h c main_arg7).trans ((congrFun (after_ops m c) _).trans (V9_arg7 m c)),
      (h c main_arg8).trans ((congrFun (after_ops m c) _).trans (V9_arg8 m c))⟩)
    (run_seq scopedRefs_eq scopedSems_eq (defs (F := Ideal)) (main (F := Ideal)) (fun _ => ops (F := Ideal)) main_eq (fun _ => ops_sub) m ρ)

/-- info: 'Cert.ReferenceIdeal.RefRun.run' depends on axioms: [propext, Classical.choice, Quot.sound] -/
#guard_msgs in #print axioms run

end Cert.ReferenceIdeal.RefRun

end
-- ==== Proof.KHostFns.lean ====
/-
  The graph steps of the kernel's host program, as functions of arrays over the extended reals: the degree of a
  node (ones scattered by an index list), its normalisation factor (degree, at least one, to the power −1/2), and
  one round of message passing (gather rows along the sources, add them up at the destinations).
-/
import proofs.«172984_j19241453486477_1_alg».proof.Proof.Gen.KernelIdeal
import Idealize.ShloMosaic.PureOps.Ideal

noncomputable section

open Idealize.ShloMosaic

namespace Cert.KernelIdeal.Val

open Cert.KernelIdeal Cert.KernelIdeal.Gen

/-- The number of edges leaving (or entering) each node, as a float vector. -/
def deg (s : IVec S800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 s)
    (broadcastInDim S800000 ![] bcast_S_S800000 (constant (F := Ideal) S_ .f32 0x3F800000#32))

/-- The normalisation factor of each node: its degree, at least one, to the power −1/2. -/
def norm (s : IVec S800000 32) : FVec Ideal S50000 .f32 :=
  Host.powf (maximumf (broadcastInDim S50000 ![] bcast_S_S50000 (id (constant (F := Ideal) S_ .f32 0x3F800000#32))) (deg s))
    (broadcastInDim S50000 ![] bcast_S_S50000 (constant (F := Ideal) S_ .f32 0xBF000000#32))

/-- The source list as gather indices: a negative entry counts from the end. -/
def gidx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- One round of message passing. -/
def spmm (P : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 P (gidx s))

end Cert.KernelIdeal.Val

end
-- ==== Proof.KValues.lean ====
/- The kernel's host program read at the extended reals: what each stretch of host operations leaves in the buffers the
   regions and the later stretches read, as the graph functions of KHostFns.lean (degree, normalisation factor, one
   round of message passing) applied to the launch contents of the arguments and to what the regions leave; and the
   values that travel unchanged from the item that makes them to the item that reads them. -/
import proofs.«172984_j19241453486477_1_alg».proof.Proof.RunAll
import proofs.«172984_j19241453486477_1_alg».proof.Proof.KHostFns
import Idealize.ShloMosaic.Lib.StableHlo.Run

set_option maxRecDepth 16384

noncomputable section

namespace Cert.KernelIdeal.Val

open Cert.KernelIdeal Cert.KernelIdeal.Gen Cert.KernelIdeal.Hand
open Idealize.ShloMosaic.Pipeline (Dat)
open Idealize.ShloMosaic Idealize.ShloMosaic.TcCoe Idealize.ShloMosaic.StableHlo

section Stretches
/-! ## Each host stretch evaluated from ANY entry contents `V` -/

variable (V : Valuation τ sig (Elt Ideal))

/-- The first stretch leaves the two degree vectors and the constant one. -/
theorem st0_v3 : (StableHlo.after (hostOps0 (F := Ideal)) V (Proc.devRef .tc main_v3) : FVec Ideal S50000 .f32) = deg (V (Proc.devRef .tc main_arg1)) := by
  after_results <;> rfl
theorem st0_v6 : (StableHlo.after (hostOps0 (F := Ideal)) V (Proc.devRef .tc main_v6) : FVec Ideal S50000 .f32) = deg (V (Proc.devRef .tc main_arg2)) := by
  after_results <;> rfl
theorem st0_cst_2 : (StableHlo.after (hostOps0 (F := Ideal)) V (Proc.devRef .tc main_cst_2) : FVec Ideal S_ .f32) = constant (F := Ideal) S_ .f32 0x3F800000#32 := by
  after_results <;> rfl
/-- The clip: the larger of one and the degree. -/
theorem st0_1_v7 : (StableHlo.after (hostOps0_1 (F := Ideal)) V (Proc.devRef .tc main_v7) : FVec Ideal S50000 .f32)
    = maximumf (F := Ideal) (s := S50000) (φ := .f32) (broadcastInDim (s := S_) (α := Ideal .f32) S50000 ![] bcast_S_S50000 (id (V (Proc.devRef .tc main_cst_2) : FVec Ideal S_ .f32))) (V (Proc.devRef .tc main_v3) : FVec Ideal S50000 .f32) := by
  after_results <;> rfl
/-- The power −1/2 and the reshape to a column. -/
theorem st0_2_v10 : (StableHlo.after (hostOps0_2 (F := Ideal)) V (Proc.devRef .tc main_v10) : FVec Ideal S50000x1 .f32)
    = shapeCast S50000x1 (Host.powf (F := Ideal) (V (Proc.devRef .tc main_v7) : FVec Ideal S50000 .f32) (broadcastInDim S50000 ![] bcast_S_S50000 (constant (F := Ideal) S_ .f32 0xBF000000#32))) shapeCasts_S50000_S50000x1 := by
  after_results <;> rfl
theorem st0_2_cst_4 : (StableHlo.after (hostOps0_2 (F := Ideal)) V (Proc.devRef .tc main_cst_4) : FVec Ideal S_ .f32) = constant (F := Ideal) S_ .f32 0x3F800000#32 := by
  after_results <;> rfl
theorem st0_3_v11 : (StableHlo.after (hostOps0_3 (F := Ideal)) V (Proc.devRef .tc main_v11) : FVec Ideal S50000 .f32)
    = maximumf (F := Ideal) (s := S50000) (φ := .f32) (broadcastInDim (s := S_) (α := Ideal .f32) S50000 ![] bcast_S_S50000 (id (V (Proc.devRef .tc main_cst_4) : FVec Ideal S_ .f32))) (V (Proc.devRef .tc main_v6) : FVec Ideal S50000 .f32) := by
  after_results <;> rfl
theorem st0_4_v14 : (StableHlo.after (hostOps0_4 (F := Ideal)) V (Proc.devRef .tc main_v14) : FVec Ideal S50000x1 .f32)
    = shapeCast S50000x1 (Host.powf (F := Ideal) (V (Proc.devRef .tc main_v11) : FVec Ideal S50000 .f32) (broadcastInDim S50000 ![] bcast_S_S50000 (constant (F := Ideal) S_ .f32 0xBF000000#32))) shapeCasts_S50000_S50000x1 := by
  after_results <;> rfl

set_option maxHeartbeats 1000000 in
/-- One round of message passing over the rows `v15` holds: what `hostOps1` leaves, from any entry contents. -/
theorem st1_v25 : (StableHlo.after (hostOps1 (F := Ideal)) V (Proc.devRef .tc main_v25) : FVec Ideal S50000x128 .f32)
    = spmm (V (Proc.devRef .tc main_v15)) (V (Proc.devRef .tc main_arg1)) (V (Proc.devRef .tc main_arg2)) := by
  after_results <;> rfl
set_option maxHeartbeats 1000000 in
/-- and the scalar argument reshaped to one row and one column. -/
theorem st1_v26 : (StableHlo.after (hostOps1 (F := Ideal)) V (Proc.devRef .tc main_v26) : FVec Ideal S1x1 .f32)
    = shapeCast S1x1 (V (Proc.devRef .tc main_arg6) : FVec Ideal S1 .f32) shapeCasts_S1_S1x1 := by
  after_results <;> rfl

set_option maxHeartbeats 1000000 in
/-- One round of message passing over the rows `v28` holds: what `hostOps3` leaves, from any entry contents. -/
theorem st3_v38 : (StableHlo.after (hostOps3 (F := Ideal)) V (Proc.devRef .tc main_v38) : FVec Ideal S50000x128 .f32)
    = spmm (V (Proc.devRef .tc main_v28)) (V (Proc.devRef .tc main_arg1)) (V (Proc.devRef .tc main_arg2)) := by
  after_results <;> rfl
set_option maxHeartbeats 1000000 in
/-- and the scalar argument reshaped to one row and one column. -/
theorem st3_v39 : (StableHlo.after (hostOps3 (F := Ideal)) V (Proc.devRef .tc main_v39) : FVec Ideal S1x1 .f32)
    = shapeCast S1x1 (V (Proc.devRef .tc main_arg7) : FVec Ideal S1 .f32) shapeCasts_S1_S1x1 := by
  after_results <;> rfl

set_option maxHeartbeats 1000000 in
/-- One round of message passing over the rows `v41` holds: what `hostOps5` leaves, from any entry contents. -/
theorem st5_v51 : (StableHlo.after (hostOps5 (F := Ideal)) V (Proc.devRef .tc main_v51) : FVec Ideal S50000x128 .f32)
    = spmm (V (Proc.devRef .tc main_v41)) (V (Proc.devRef .tc main_arg1)) (V (Proc.devRef .tc main_arg2)) := by
  after_results <;> rfl
set_option maxHeartbeats 1000000 in
/-- and the scalar argument reshaped to one row and one column. -/
theorem st5_v52 : (StableHlo.after (hostOps5 (F := Ideal)) V (Proc.devRef .tc main_v52) : FVec Ideal S1x1 .f32)
    = shapeCast S1x1 (V (Proc.devRef .tc main_arg8) : FVec Ideal S1 .f32) shapeCasts_S1_S1x1 := by
  after_results <;> rfl

/-- The last stretch concatenates the three layers' column sums. -/
theorem st6_v54 : (StableHlo.after (hostOps6 (F := Ideal)) V (Proc.devRef .tc main_v54) : FVec Ideal S1x384 .f32)
    = concatenate S1x384 1 [⟨S1x128, (V (Proc.devRef .tc main_v27_1) : FVec Ideal S1x128 .f32)⟩, ⟨S1x128, (V (Proc.devRef .tc main_v40_1) : FVec Ideal S1x128 .f32)⟩, ⟨S1x128, (V (Proc.devRef .tc main_v53_1) : FVec Ideal S1x128 .f32)⟩] concatenates_S1x128_S1x128_S1x128_S1x384_d1 := by
  after_results <;> rfl

end Stretches

section Run
/-! ## The boundary contents of the run, at the extended reals -/

variable (m : (ℓ : Loc nD τ sig) → Buf (Elt Ideal) ℓ) (ρ : Dev nD → PrngReg)

/-! ### The arguments, where a stretch or a region reads them -/

/-- Argument 0 still holds its launch contents at boundary 5. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

/-- Argument 3 still holds its launch contents at boundary 5. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-- Argument 1 still holds its launch contents at boundary 6. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- Argument 2 still holds its launch contents at boundary 6. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- Argument 6 still holds its launch contents at boundary 6. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

/-- Argument 4 still holds its launch contents at boundary 8. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := W6_of_ne m ρ c main_arg4 (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-- Argument 1 still holds its launch contents at boundary 9. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- Argument 2 still holds its launch contents at boundary 9. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- Argument 7 still holds its launch contents at boundary 9. -/
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps1 _ hostOps1_writes (by decide)
    _ = W5 m ρ c (Proc.devRef .tc main_arg7) := W6_of_ne m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

/-- Argument 5 still holds its launch contents at boundary 11. -/
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := StableHlo.after_of_writes_sub hostOps3 _ hostOps3_writes (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := W6_of_ne m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-- Argument 1 still holds its launch contents at boundary 12. -/
theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := W11_of_ne m ρ c main_arg1 (by decide)
    _ = W9 m ρ c (Proc.devRef .tc main_arg1) := StableHlo.after_of_writes_sub hostOps3 _ hostOps3_writes (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- Argument 2 still holds its launch contents at boundary 12. -/
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := W11_of_ne m ρ c main_arg2 (by decide)
    _ = W9 m ρ c (Proc.devRef .tc main_arg2) := StableHlo.after_of_writes_sub hostOps3 _ hostOps3_writes (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- Argument 8 still holds its launch contents at boundary 12. -/
theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := W11_of_ne m ρ c main_arg8 (by decide)
    _ = W9 m ρ c (Proc.devRef .tc main_arg8) := StableHlo.after_of_writes_sub hostOps3 _ hostOps3_writes (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_writes_sub hostOps1 _ hostOps1_writes (by decide)
    _ = W5 m ρ c (Proc.devRef .tc main_arg8) := W6_of_ne m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ### Values carried unchanged from where they are made to where they are read -/

/-- The first normalisation column, made by the third stretch, is not written by the two stretches after it. -/
theorem W5_v10_from3 (c : Dev nD) : W5 m ρ c (Proc.devRef .tc main_v10) = W3 m ρ c (Proc.devRef .tc main_v10) :=
  calc W5 m ρ c (Proc.devRef .tc main_v10)
    _ = W4 m ρ c (Proc.devRef .tc main_v10) := StableHlo.after_of_writes_sub hostOps0_4 _ hostOps0_4_writes (by decide)
    _ = W3 m ρ c (Proc.devRef .tc main_v10) := StableHlo.after_of_writes_sub hostOps0_3 _ hostOps0_3_writes (by decide)

/-- The second normalisation column reaches region 1 as region 0 was entered with it. -/
theorem W7_v14 (c : Dev nD) : W7 m ρ c (Proc.devRef .tc main_v14) = W5 m ρ c (Proc.devRef .tc main_v14) :=
  calc W7 m ρ c (Proc.devRef .tc main_v14)
    _ = W6 m ρ c (Proc.devRef .tc main_v14) := StableHlo.after_of_writes_sub hostOps1 _ hostOps1_writes (by decide)
    _ = W5 m ρ c (Proc.devRef .tc main_v14) := W6_of_ne m ρ c main_v14 (by decide)

/-- … and region 3 (region 1 only reads it). -/
theorem W10_v14 (c : Dev nD) : W10 m ρ c (Proc.devRef .tc main_v14) = W5 m ρ c (Proc.devRef .tc main_v14) :=
  calc W10 m ρ c (Proc.devRef .tc main_v14)
    _ = W9 m ρ c (Proc.devRef .tc main_v14) := StableHlo.after_of_writes_sub hostOps3 _ hostOps3_writes (by decide)
    _ = W8 m ρ c (Proc.devRef .tc main_v14) := W9_of_ne m ρ c main_v14 (by decide)
    _ = W7 m ρ c (Proc.devRef .tc main_v14) := (W8_arr m ρ c 1).trans (((dat1 (Vin1 m ρ) c).arrAt_in 1 rfl _).trans (A_eq1 (Vin1 m ρ) c 1))
    _ = W6 m ρ c (Proc.devRef .tc main_v14) := StableHlo.after_of_writes_sub hostOps1 _ hostOps1_writes (by decide)
    _ = W5 m ρ c (Proc.devRef .tc main_v14) := W6_of_ne m ρ c main_v14 (by decide)

/-- … and region 5 (regions 1 and 3 only read it). -/
theorem W13_v14 (c : Dev nD) : W13 m ρ c (Proc.devRef .tc main_v14) = W5 m ρ c (Proc.devRef .tc main_v14) :=
  calc W13 m ρ c (Proc.devRef .tc main_v14)
    _ = W12 m ρ c (Proc.devRef .tc main_v14) := StableHlo.after_of_writes_sub hostOps5 _ hostOps5_writes (by decide)
    _ = W11 m ρ c (Proc.devRef .tc main_v14) := W12_of_ne m ρ c main_v14 (by decide)
    _ = W10 m ρ c (Proc.devRef .tc main_v14) := (W11_arr m ρ c 1).trans (((dat3 (Vin3 m ρ) c).arrAt_in 1 rfl _).trans (A_eq3 (Vin3 m ρ) c 1))
    _ = W9 m ρ c (Proc.devRef .tc main_v14) := StableHlo.after_of_writes_sub hostOps3 _ hostOps3_writes (by decide)
    _ = W8 m ρ c (Proc.devRef .tc main_v14) := W9_of_ne m ρ c main_v14 (by decide)
    _ = W7 m ρ c (Proc.devRef .tc main_v14) := (W8_arr m ρ c 1).trans (((dat1 (Vin1 m ρ) c).arrAt_in 1 rfl _).trans (A_eq1 (Vin1 m ρ) c 1))
    _ = W6 m ρ c (Proc.devRef .tc main_v14) := StableHlo.after_of_writes_sub hostOps1 _ hostOps1_writes (by decide)
    _ = W5 m ρ c (Proc.devRef .tc main_v14) := W6_of_ne m ρ c main_v14 (by decide)

/-- The first normalisation column reaches region 2 as region 0 was entered with it (region 0 only reads it). -/
theorem W8_v10 (c : Dev nD) : W8 m ρ c (Proc.devRef .tc main_v10) = W5 m ρ c (Proc.devRef .tc main_v10) :=
  calc W8 m ρ c (Proc.devRef .tc main_v10)
    _ = W7 m ρ c (Proc.devRef .tc main_v10) := W8_of_ne m ρ c main_v10 (by decide)
    _ = W6 m ρ c (Proc.devRef .tc main_v10) := StableHlo.after_of_writes_sub hostOps1 _ hostOps1_writes (by decide)
    _ = W5 m ρ c (Proc.devRef .tc main_v10) := (W6_arr m ρ c 1).trans (((dat0 (Vin0 m ρ) c).arrAt_in 1 rfl _).trans (A_eq0 (Vin0 m ρ) c 1))

/-- … and region 4 (regions 0 and 2 only read it). -/
theorem W11_v10 (c : Dev nD) : W11 m ρ c (Proc.devRef .tc main_v10) = W5 m ρ c (Proc.devRef .tc main_v10) :=
  calc W11 m ρ c (Proc.devRef .tc main_v10)
    _ = W10 m ρ c (Proc.devRef .tc main_v10) := W11_of_ne m ρ c main_v10 (by decide)
    _ = W9 m ρ c (Proc.devRef .tc main_v10) := StableHlo.after_of_writes_sub hostOps3 _ hostOps3_writes (by decide)
    _ = W8 m ρ c (Proc.devRef .tc main_v10) := (W9_arr m ρ c 1).trans (((dat2 (Vin2 m ρ) c).arrAt_in 1 rfl _).trans (A_eq2 (Vin2 m ρ) c 1))
    _ = W7 m ρ c (Proc.devRef .tc main_v10) := W8_of_ne m ρ c main_v10 (by decide)
    _ = W6 m ρ c (Proc.devRef .tc main_v10) := StableHlo.after_of_writes_sub hostOps1 _ hostOps1_writes (by decide)
    _ = W5 m ρ c (Proc.devRef .tc main_v10) := (W6_arr m ρ c 1).trans (((dat0 (Vin0 m ρ) c).arrAt_in 1 rfl _).trans (A_eq0 (Vin0 m ρ) c 1))

/-- The first layer's column sums are not written after region 1. -/
theorem W14_v27_1 (c : Dev nD) : W14 m ρ c (Proc.devRef .tc main_v27_1) = W8 m ρ c (Proc.devRef .tc main_v27_1) :=
  calc W14 m ρ c (Proc.devRef .tc main_v27_1)
    _ = W13 m ρ c (Proc.devRef .tc main_v27_1) := W14_of_ne m ρ c main_v27_1 (by decide)
    _ = W12 m ρ c (Proc.devRef .tc main_v27_1) := StableHlo.after_of_writes_sub hostOps5 _ hostOps5_writes (by decide)
    _ = W11 m ρ c (Proc.devRef .tc main_v27_1) := W12_of_ne m ρ c main_v27_1 (by decide)
    _ = W10 m ρ c (Proc.devRef .tc main_v27_1) := W11_of_ne m ρ c main_v27_1 (by decide)
    _ = W9 m ρ c (Proc.devRef .tc main_v27_1) := StableHlo.after_of_writes_sub hostOps3 _ hostOps3_writes (by decide)
    _ = W8 m ρ c (Proc.devRef .tc main_v27_1) := W9_of_ne m ρ c main_v27_1 (by decide)

/-- The second layer's column sums are not written after region 3. -/
theorem W14_v40_1 (c : Dev nD) : W14 m ρ c (Proc.devRef .tc main_v40_1) = W11 m ρ c (Proc.devRef .tc main_v40_1) :=
  calc W14 m ρ c (Proc.devRef .tc main_v40_1)
    _ = W13 m ρ c (Proc.devRef .tc main_v40_1) := W14_of_ne m ρ c main_v40_1 (by decide)
    _ = W12 m ρ c (Proc.devRef .tc main_v40_1) := StableHlo.after_of_writes_sub hostOps5 _ hostOps5_writes (by decide)
    _ = W11 m ρ c (Proc.devRef .tc main_v40_1) := W12_of_ne m ρ c main_v40_1 (by decide)

/-- The last stretch does not write the third layer's rows. -/
theorem W15_v53_0 (c : Dev nD) : W15 m ρ c (Proc.devRef .tc main_v53_0) = W14 m ρ c (Proc.devRef .tc main_v53_0) :=
  calc W15 m ρ c (Proc.devRef .tc main_v53_0)
    _ = W14 m ρ c (Proc.devRef .tc main_v53_0) := StableHlo.after_of_writes_sub hostOps6 _ hostOps6_writes (by decide)

/-! ### (E5) the two normalisation columns at region 0's entry -/

/-- The first stretches leave, in `main_v10`, the column of the source list's normalisation factors. -/
theorem E5_v10 (c : Dev nD) : (W5 m ρ c (Proc.devRef .tc main_v10) : FVec Ideal S50000x1 .f32)
    = shapeCast S50000x1 (norm (m ((c : Thread nD τ).loc main_arg1))) shapeCasts_S50000_S50000x1 := by
  have h3 : (W1 m ρ c (Proc.devRef .tc main_v3) : FVec Ideal S50000 .f32) = deg (m ((c : Thread nD τ).loc main_arg1)) := st0_v3 (W0 m ρ c)
  have hc : (W1 m ρ c (Proc.devRef .tc main_cst_2) : FVec Ideal S_ .f32) = constant (F := Ideal) S_ .f32 0x3F800000#32 := st0_cst_2 (W0 m ρ c)
  have h7 : (W2 m ρ c (Proc.devRef .tc main_v7) : FVec Ideal S50000 .f32)
      = maximumf (F := Ideal) (s := S50000) (φ := .f32) (broadcastInDim (s := S_) (α := Ideal .f32) S50000 ![] bcast_S_S50000 (id (constant (F := Ideal) S_ .f32 0x3F800000#32))) (deg (m ((c : Thread nD τ).loc main_arg1))) :=
    (st0_1_v7 (W1 m ρ c)).trans (by rw [h3, hc])
  have h10 : (W3 m ρ c (Proc.devRef .tc main_v10) : FVec Ideal S50000x1 .f32) = shapeCast S50000x1 (norm (m ((c : Thread nD τ).loc main_arg1))) shapeCasts_S50000_S50000x1 :=
    (st0_2_v10 (W2 m ρ c)).trans (by rw [h7]; rfl)
  exact (W5_v10_from3 m ρ c).trans h10

/-- … and, in `main_v14`, the column of the destination list's. -/
theorem E5_v14 (c : Dev nD) : (W5 m ρ c (Proc.devRef .tc main_v14) : FVec Ideal S50000x1 .f32)
    = shapeCast S50000x1 (norm (m ((c : Thread nD τ).loc main_arg2))) shapeCasts_S50000_S50000x1 := by
  have h6 : (W3 m ρ c (Proc.devRef .tc main_v6) : FVec Ideal S50000 .f32) = deg (m ((c : Thread nD τ).loc main_arg2)) :=
    calc (W3 m ρ c (Proc.devRef .tc main_v6) : FVec Ideal S50000 .f32)
      _ = W2 m ρ c (Proc.devRef .tc main_v6) := StableHlo.after_of_writes_sub hostOps0_2 _ hostOps0_2_writes (by decide)
      _ = W1 m ρ c (Proc.devRef .tc main_v6) := StableHlo.after_of_writes_sub hostOps0_1 _ hostOps0_1_writes (by decide)
      _ = deg (m ((c : Thread nD τ).loc main_arg2)) := st0_v6 (W0 m ρ c)
  have hc : (W3 m ρ c (Proc.devRef .tc main_cst_4) : FVec Ideal S_ .f32) = constant (F := Ideal) S_ .f32 0x3F800000#32 := st0_2_cst_4 (W2 m ρ c)
  have h11 : (W4 m ρ c (Proc.devRef .tc main_v11) : FVec Ideal S50000 .f32)
      = maximumf (F := Ideal) (s := S50000) (φ := .f32) (broadcastInDim (s := S_) (α := Ideal .f32) S50000 ![] bcast_S_S50000 (id (constant (F := Ideal) S_ .f32 0x3F800000#32))) (deg (m ((c : Thread nD τ).loc main_arg2))) :=
    (st0_3_v11 (W3 m ρ c)).trans (by rw [h6, hc])
  exact (st0_4_v14 (W4 m ρ c)).trans (by rw [h11]; rfl)

/-! ### (E6), (E8), (E9), (E11), (E12), (E14): a region leaves, in each output array, the fold of its write-backs -/
theorem W6_v15 (c : Dev nD) : W6 m ρ c (Proc.devRef .tc main_v15) = (dat0 (Vin0 m ρ) c).arrAt 3 cfg0.N := W6_arr m ρ c 3
theorem W8_v27_0 (c : Dev nD) : W8 m ρ c (Proc.devRef .tc main_v27_0) = (dat1 (Vin1 m ρ) c).arrAt 3 cfg1.N := W8_arr m ρ c 3
theorem W8_v27_1 (c : Dev nD) : W8 m ρ c (Proc.devRef .tc main_v27_1) = (dat1 (Vin1 m ρ) c).arrAt 4 cfg1.N := W8_arr m ρ c 4
theorem W9_v28 (c : Dev nD) : W9 m ρ c (Proc.devRef .tc main_v28) = (dat2 (Vin2 m ρ) c).arrAt 3 cfg2.N := W9_arr m ρ c 3
theorem W11_v40_0 (c : Dev nD) : W11 m ρ c (Proc.devRef .tc main_v40_0) = (dat3 (Vin3 m ρ) c).arrAt 3 cfg3.N := W11_arr m ρ c 3
theorem W11_v40_1 (c : Dev nD) : W11 m ρ c (Proc.devRef .tc main_v40_1) = (dat3 (Vin3 m ρ) c).arrAt 4 cfg3.N := W11_arr m ρ c 4
theorem W12_v41 (c : Dev nD) : W12 m ρ c (Proc.devRef .tc main_v41) = (dat4 (Vin4 m ρ) c).arrAt 3 cfg4.N := W12_arr m ρ c 3
theorem W14_v53_0 (c : Dev nD) : W14 m ρ c (Proc.devRef .tc main_v53_0) = (dat5 (Vin5 m ρ) c).arrAt 3 cfg5.N := W14_arr m ρ c 3
theorem W14_v53_1 (c : Dev nD) : W14 m ρ c (Proc.devRef .tc main_v53_1) = (dat5 (Vin5 m ρ) c).arrAt 4 cfg5.N := W14_arr m ρ c 4

/-! ### (E7), (E10), (E13): a round of message passing over the rows the region before it left, and the layer's slope as a 1×1 array -/

theorem W7_v25 (c : Dev nD) : (W7 m ρ c (Proc.devRef .tc main_v25) : FVec Ideal S50000x128 .f32)
    = spmm (W6 m ρ c (Proc.devRef .tc main_v15)) (m ((c : Thread nD τ).loc main_arg1)) (m ((c : Thread nD τ).loc main_arg2)) :=
  (st1_v25 (W6 m ρ c)).trans (by rw [W6_main_arg1 m ρ c, W6_main_arg2 m ρ c])
theorem W7_v26 (c : Dev nD) : (W7 m ρ c (Proc.devRef .tc main_v26) : FVec Ideal S1x1 .f32)
    = shapeCast S1x1 ((m ((c : Thread nD τ).loc main_arg6)) : FVec Ideal S1 .f32) shapeCasts_S1_S1x1 :=
  (st1_v26 (W6 m ρ c)).trans (by rw [W6_main_arg6 m ρ c])

theorem W10_v38 (c : Dev nD) : (W10 m ρ c (Proc.devRef .tc main_v38) : FVec Ideal S50000x128 .f32)
    = spmm (W9 m ρ c (Proc.devRef .tc main_v28)) (m ((c : Thread nD τ).loc main_arg1)) (m ((c : Thread nD τ).loc main_arg2)) :=
  (st3_v38 (W9 m ρ c)).trans (by rw [W9_main_arg1 m ρ c, W9_main_arg2 m ρ c])
theorem W10_v39 (c : Dev nD) : (W10 m ρ c (Proc.devRef .tc main_v39) : FVec Ideal S1x1 .f32)
    = shapeCast S1x1 ((m ((c : Thread nD τ).loc main_arg7)) : FVec Ideal S1 .f32) shapeCasts_S1_S1x1 :=
  (st3_v39 (W9 m ρ c)).trans (by rw [W9_main_arg7 m ρ c])

theorem W13_v51 (c : Dev nD) : (W13 m ρ c (Proc.devRef .tc main_v51) : FVec Ideal S50000x128 .f32)
    = spmm (W12 m ρ c (Proc.devRef .tc main_v41)) (m ((c : Thread nD τ).loc main_arg1)) (m ((c : Thread nD τ).loc main_arg2)) :=
  (st5_v51 (W12 m ρ c)).trans (by rw [W12_main_arg1 m ρ c, W12_main_arg2 m ρ c])
theorem W13_v52 (c : Dev nD) : (W13 m ρ c (Proc.devRef .tc main_v52) : FVec Ideal S1x1 .f32)
    = shapeCast S1x1 ((m ((c : Thread nD τ).loc main_arg8)) : FVec Ideal S1 .f32) shapeCasts_S1_S1x1 :=
  (st5_v52 (W12 m ρ c)).trans (by rw [W12_main_arg8 m ρ c])

/-! ### (E15) the last stretch: the three layers' column sums side by side -/

theorem W15_v54 (c : Dev nD) : (W15 m ρ c (Proc.devRef .tc main_v54) : FVec Ideal S1x384 .f32)
    = concatenate S1x384 1 [⟨S1x128, (W14 m ρ c (Proc.devRef .tc main_v27_1) : FVec Ideal S1x128 .f32)⟩, ⟨S1x128, (W14 m ρ c (Proc.devRef .tc main_v40_1) : FVec Ideal S1x128 .f32)⟩, ⟨S1x128, (W14 m ρ c (Proc.devRef .tc main_v53_1) : FVec Ideal S1x128 .f32)⟩] concatenates_S1x128_S1x128_S1x128_S1x384_d1 :=
  st6_v54 (W14 m ρ c)

end Run

end Cert.KernelIdeal.Val

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibColSum.lean ====
/- A sum down the rows of a matrix, on the extended reals, for any extents: a `vector.multi_reduction <add>` along
   axis 0 of an [A, K] array from the neutral accumulator, read at column q, is the sum over the row coordinate k of
   the matrix at (k, q). The companion of the lane sum along axis 1. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.ColSum

/-- A sum down the rows from the neutral accumulator, read at column q: the sum over the row coordinate of the matrix
    at (k, q). The hypotheses are typed as the library's reading of the reduction takes them; a printed body's proof
    arguments are accepted for them. -/
theorem colSum_apply {A K : ℕ} (src : FVec Ideal ⟨2, ![A, K]⟩ .f32) (acc : BitVec 32)
    (h : (⟨2, ![A, K]⟩ : Shape).Reduces [0] ⟨1, ![K]⟩) (hφ : FKind.Formats .f32) (hacc : acc = FKind.add.neutral .f32 hφ)
    (q : Fin K) :
    multiReduction .add [0] ⟨1, ![K]⟩ src acc h hφ hacc (ix1 q) = ∑ k : Fin A, src (ix2 k q) :=
  (Ideal.multiReduction_add_single src acc h hφ hacc (ix1 q)).trans
    (Finset.sum_congr rfl fun k _ => congrArg src (funext fun a => Fin.ext (by
      match a with
      | ⟨0, _⟩ => rfl
      | ⟨1, _⟩ => rfl)))

end Cert.Lib.ColSum

end
-- ==== Proof.LibRowCast.lean ====
/- A vector laid out as a one-row matrix, read at coordinates, for any extent and any element type: a vector `[b]` cast to
   `[1, b]` reads, at `(z, c)`, the vector's entry `c` — both sit at row-major position `c`. Nothing here depends on a
   particular program; it is the companion of the `[1, b] → [b]` cast read. -/
import Idealize.ShloMosaic.Lib.Pipeline.Value
import Idealize.ShloMosaic.Lib.ValueIdx

noncomputable section

open Idealize.ShloMosaic Idealize.ShloMosaic.ValueIdx

namespace Cert.Lib.RowCast

/-- A vector `[b]` cast to a row `[1, b]` reads, at `(z, c)`, the vector at `c`. -/
theorem shapeCast_b_1b_apply {α : Type} {b : ℕ} (v : (⟨1, ![b]⟩ : Shape).Idx → α) (h : (⟨1, ![b]⟩ : Shape).ShapeCasts ⟨2, ![1, b]⟩)
    (z : Fin 1) (c : Fin b) : shapeCast ⟨2, ![1, b]⟩ v h (ix2 z c) = v (ix1 c) := by
  refine shapeCast_apply v h (ix2 z c) (ix1 c) ?_
  rw [Shape.rowMajor_val_one, Shape.rowMajor_val_two]
  show c.val = z.val * b + c.val
  have := z.isLt
  have hz : z.val = 0 := by omega
  rw [hz, Nat.zero_mul, Nat.zero_add]

end Cert.Lib.RowCast

end
-- ==== Proof.PayloadReads.lean ====
/-
  The arithmetic of the two kernel bodies, read at an index over the extended reals.

  The projection body multiplies each row of its feature block by that row's normalisation factor and
  contracts with the weight matrix: entry (p, q) is the sum over k of (x[p,k] · n[p]) · W[k,q] (a change of
  float format is the identity here). The post body scales each row of the aggregated block by its factor,
  applies the parametric rectifier entry by entry, and adds the block's column sums to the running total.
-/
import proofs.«172984_j19241453486477_1_alg».proof.Proof.Gen.KernelIdeal.Skeleton
import proofs.«172984_j19241453486477_1_alg».proof.Proof.LibPlainMatmul
import proofs.«172984_j19241453486477_1_alg».proof.Proof.LibBroadcastReads
import proofs.«172984_j19241453486477_1_alg».proof.Proof.LibColSum
import proofs.«172984_j19241453486477_1_alg».proof.Proof.LibRowCast
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.ValueIdx

namespace Cert.KernelIdeal.Val

open Cert.KernelIdeal Cert.KernelIdeal.Gen

/-- The rectifier with slope `a` on one extended real, in the operations both programs print. -/
def prelu (a x : EReal) : EReal :=
  Scalar.select (FloatOps.cmpf (F := Ideal) (φ := .f32) .oge x (Scalar.ofBits (F := Ideal) .f32 0x00000000#32)) x (a * x)

/-- Entry (p, q) of the projection body's result. -/
theorem proj_apply (v0 : Vec Ideal S5000x128 .f32) (v1 : Vec Ideal S5000x1 .f32) (v6 : Vec Ideal S128x128 .f32)
    (p : Fin 5000) (q : Fin 128) :
    k0_pay1 (F := Ideal) v0 v1 v6 (ix2 p q) = ∑ k : Fin 128, (v0 (ix2 p k) * v1 (ix2 p (0 : Fin 1))) * v6 (ix2 k q) := by
  unfold k0_pay1
  refine (Cert.Lib.PlainMatmul.plain_matmul_zero_apply (M := 5000) (K := 128) (N := 128) _ _ p q).trans ?_
  refine Finset.sum_congr rfl fun k _ => ?_
  rw [truncf_apply, truncf_apply, mulf_apply, Cert.Lib.BroadcastReads.broadcastTo_a1_ab_apply, shapeCast_self]

theorem k2_pay1_eq (v0 : Vec Ideal S5000x128 .f32) (v1 : Vec Ideal S5000x1 .f32) (v6 : Vec Ideal S128x128 .f32) :
    k2_pay1 (F := Ideal) v0 v1 v6 = k0_pay1 (F := Ideal) v0 v1 v6 := by
  unfold k2_pay1 k0_pay1; rw [shapeCast_self]
theorem k4_pay1_eq (v0 : Vec Ideal S5000x128 .f32) (v1 : Vec Ideal S5000x1 .f32) (v6 : Vec Ideal S128x128 .f32) :
    k4_pay1 (F := Ideal) v0 v1 v6 = k0_pay1 (F := Ideal) v0 v1 v6 := by
  unfold k4_pay1 k0_pay1; rw [shapeCast_self]

/-- A one-entry matrix spread over an `[a, b]` matrix reads its one entry everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry (p, q) of the post body's block result: the rectifier of the scaled entry. -/
theorem post_apply (v3 : Vec Ideal S5000x128 .f32) (v5 : Vec Ideal S5000x1 .f32) (v9 : Vec Ideal S1x1 .f32)
    (p : Fin 5000) (q : Fin 128) :
    k1_pay2 (F := Ideal) v3 v5 v9 (ix2 p q)
      = prelu (v9 (ix2 (0 : Fin 1) (0 : Fin 1))) (v3 (ix2 p q) * v5 (ix2 p (0 : Fin 1))) := by
  unfold k1_pay2 prelu
  simp only [select_apply, cmpf_apply, mulf_apply, broadcast_apply, shapeCast_self]
  rw [broadcastTo_11_ab_apply, Cert.Lib.BroadcastReads.broadcastTo_a1_ab_apply]

/-- The running total after a block: what it held plus the block's column sums. -/
theorem accum_apply (v3 : Vec Ideal S5000x128 .f32) (v5 : Vec Ideal S5000x1 .f32) (v9 : Vec Ideal S1x1 .f32)
    (v17 : Vec Ideal S1x128 .f32) (q : Fin 128) :
    k1_pay3 (F := Ideal) v3 v5 v9 v17 (ix2 (0 : Fin 1) q)
      = v17 (ix2 (0 : Fin 1) q) + ∑ r : Fin 5000, k1_pay2 (F := Ideal) v3 v5 v9 (ix2 r q) := by
  unfold k1_pay3
  rw [shapeCast_self, addf_apply, Cert.Lib.RowCast.shapeCast_b_1b_apply]
  exact congrArg (v17 (ix2 (0 : Fin 1) q) + ·) (Cert.Lib.ColSum.colSum_apply (A := 5000) (K := 128) _ _ _ _ _ q)

/-- The running total is reset to zero. -/
theorem reset_apply (j : S1x128.Idx) : k1_pay1 (F := Ideal) j = 0 := by
  unfold k1_pay1
  rw [shapeCast_self, broadcast_apply]
  exact Ideal.ofBits_zero_f32

theorem k3_pay1_eq : @k3_pay1 Ideal _ = @k1_pay1 Ideal _ := by unfold k3_pay1 k1_pay1; rfl
theorem k3_pay2_eq : @k3_pay2 Ideal _ = @k1_pay2 Ideal _ := by unfold k3_pay2 k1_pay2; rfl
theorem k3_pay3_eq : @k3_pay3 Ideal _ = @k1_pay3 Ideal _ := by unfold k3_pay3 k1_pay3; rfl
theorem k5_pay1_eq : @k5_pay1 Ideal _ = @k1_pay1 Ideal _ := by unfold k5_pay1 k1_pay1; rfl
theorem k5_pay2_eq : @k5_pay2 Ideal _ = @k1_pay2 Ideal _ := by unfold k5_pay2 k1_pay2; rfl
theorem k5_pay3_eq : @k5_pay3 Ideal _ = @k1_pay3 Ideal _ := by unfold k5_pay3 k1_pay3; rfl

end Cert.KernelIdeal.Val

end
-- ==== Proof.ProjArray.lean ====
/-
  From blocks to arrays, for the projection kernel.

  Grid point t of a projection region reads rows 5000·t … 5000·t + 4999 of the feature matrix and of the
  normalisation column, the whole weight matrix, and writes back the same rows of the result. Row i of the
  result is therefore the sum over k of (h[i,k] · n[i]) · W[k,q], whichever point wrote it, and the ten
  blocks cover all 50000 rows.
-/
import proofs.«172984_j19241453486477_1_alg».proof.Proof.Gen.KernelIdeal.Launch
import proofs.«172984_j19241453486477_1_alg».proof.Proof.Gen.KernelIdeal.Points
import proofs.«172984_j19241453486477_1_alg».proof.Proof.PayloadReads
import Idealize.ShloMosaic.Lib.Pipeline.Value

set_option maxRecDepth 16384

noncomputable section

open scoped BigOperators
open Idealize.ShloMosaic Idealize.ShloMosaic.ValueIdx Idealize.ShloMosaic.TcCoe

namespace Cert.KernelIdeal.Val

open Cert.KernelIdeal Cert.KernelIdeal.Gen
open Idealize.ShloMosaic.Pipeline (Dat)

/-- The projected matrix: row i of `h` scaled by `n[i]`, times `W`. -/
def projG (h : S50000x128.Idx → Elt Ideal .f32) (n : S50000x1.Idx → Elt Ideal .f32) (W : S128x128.Idx → Elt Ideal .f32) :
    S50000x128.Idx → Elt Ideal .f32 :=
  fun i => ∑ k : Fin 128, (h (ix2 (i 0) k) * n (ix2 (i 0) (0 : Fin 1))) * W (ix2 k (i 1))

/-- The index maps of region 0's four windows, decided over its ten points. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `y` of the projection body's result, over the literal block shapes. -/
theorem proj_entry (x0 : Vec Ideal S5000x128 .f32) (x1 : Vec Ideal S5000x1 .f32) (x2 : Vec Ideal S128x128 .f32) (y : S5000x128.Idx) :
    k0_pay1 (F := Ideal) x0 x1 x2 y = ∑ k : Fin 128, (x0 (ix2 (y 0) k) * x1 (ix2 (y 0) (0 : Fin 1))) * x2 (ix2 k (y 1)) := by
  obtain ⟨p, q, rfl⟩ : ∃ (p : Fin 5000) (q : Fin 128), y = ix2 p q := ⟨y 0, y 1, eq_ix2 y⟩
  exact proj_apply x0 x1 x2 p q

section
variable {c : Dev nD} (dat : Dat τ (Elt Ideal) Unit ℕ (UR sig nD τ) ℕ cfg0 c)
  (a0 : S50000x128.Idx → Elt Ideal .f32) (a1 : S50000x1.Idx → Elt Ideal .f32) (a2 : S128x128.Idx → Elt Ideal .f32)

/-- What point `t` writes back is block `t` of the projected matrix. -/
theorem proj_flushed0
    (h3 : ∀ t, dat.after 3 t = k0_pay1 (F := Ideal) (((cfg0.win 0).blk t).view.read (Elt Ideal) a0)
      (((cfg0.win 1).blk t).view.read (Elt Ideal) a1) (((cfg0.win 2).blk t).view.read (Elt Ideal) a2))
    (t : Fin cfg0.N) :
    dat.flushed 3 t = ((cfg0.win 3).blk t).view.read (Elt Ideal) (projG a0 a1 a2) := by
  show (cfg0.win 3).cut (grid0.coords t) (dat.after 3 t) = _
  rw [h3 t]
  obtain ⟨e0, e1, e2, e3, e4, e5, e6, e7⟩ := idx_facts0 t
  funext j
  show k0_pay1 (F := Ideal) (((cfg0.win 0).blk t).view.read (Elt Ideal) a0)
      (((cfg0.win 1).blk t).view.read (Elt Ideal) a1) (((cfg0.win 2).blk t).view.read (Elt Ideal) a2) j
    = projG a0 a1 a2 (((cfg0.win 3).blk t).view.emb j)
  refine (proj_entry _ _ _ j).trans ?_
  unfold projG
  refine Finset.sum_congr rfl fun k _ => ?_
  show (a0 (((cfg0.win 0).blk t).view.emb (ix2 (j 0) k)) * a1 (((cfg0.win 1).blk t).view.emb (ix2 (j 0) (0 : Fin 1))))
      * a2 (((cfg0.win 2).blk t).view.emb (ix2 k (j 1)))
    = (a0 (ix2 ((((cfg0.win 3).blk t).view.emb j) 0) k) * a1 (ix2 ((((cfg0.win 3).blk t).view.emb j) 0) (0 : Fin 1)))
      * a2 (ix2 k ((((cfg0.win 3).blk t).view.emb j) 1))
  refine congrArg₂ (· * ·) (congrArg₂ (· * ·) (congrArg a0 ?_) (congrArg a1 ?_)) (congrArg a2 ?_)
  · funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega
  · funext a; apply Fin.ext
    match a with
    | ⟨0, _⟩ => show win0_2.index t (0 : Fin 2) * 128 + 1 * k.val = k.val; omega
    | ⟨1, _⟩ => show win0_2.index t (1 : Fin 2) * 128 + 1 * (j 1).val = win0_3.index t (1 : Fin 2) * 128 + 1 * (j 1).val; omega

/-- An index of the result is in point `t`'s block iff its row is among the block's 5000 rows. -/
theorem mem_blk0_3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- The ten blocks cover the result: row r lies in block r / 5000. -/
theorem proj_cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  refine ⟨t, flush0_3 t, ?_⟩
  rw [mem_blk0_3]
  obtain ⟨-, -, -, -, -, -, e6, e7⟩ := idx_facts0 t
  have ht : t.val = (i 0).val / 5000 := rfl
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array of a projection region, whole: the projected matrix. -/
theorem proj_final0
    (h3 : ∀ t, dat.after 3 t = k0_pay1 (F := Ideal) (((cfg0.win 0).blk t).view.read (Elt Ideal) a0)
      (((cfg0.win 1).blk t).view.read (Elt Ideal) a1) (((cfg0.win 2).blk t).view.read (Elt Ideal) a2)) :
    dat.arrAt 3 cfg0.N = projG a0 a1 a2 :=
  dat.arrAt_eq_of_cover 3 (projG a0 a1 a2) (fun t _ => proj_flushed0 dat a0 a1 a2 h3 t) proj_cover0

end

end Cert.KernelIdeal.Val

end
-- ==== Proof.ProjArray2.lean ====
/-
  From blocks to arrays for the projection kernel of region 2: the same rows-by-blocks argument as for region 0.
-/
import proofs.«172984_j19241453486477_1_alg».proof.Proof.ProjArray

set_option maxRecDepth 16384

noncomputable section

open scoped BigOperators
open Idealize.ShloMosaic Idealize.ShloMosaic.ValueIdx Idealize.ShloMosaic.TcCoe

namespace Cert.KernelIdeal.Val

open Cert.KernelIdeal Cert.KernelIdeal.Gen
open Idealize.ShloMosaic.Pipeline (Dat)

/-- The index maps of region 2's four windows, decided over its ten points. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable {c : Dev nD} (dat : Dat τ (Elt Ideal) Unit ℕ (UR sig nD τ) ℕ cfg2 c)
  (a0 : S50000x128.Idx → Elt Ideal .f32) (a1 : S50000x1.Idx → Elt Ideal .f32) (a2 : S128x128.Idx → Elt Ideal .f32)

/-- What point `t` writes back is block `t` of the projected matrix. -/
theorem proj_flushed2
    (h3 : ∀ t, dat.after 3 t = k0_pay1 (F := Ideal) (((cfg2.win 0).blk t).view.read (Elt Ideal) a0)
      (((cfg2.win 1).blk t).view.read (Elt Ideal) a1) (((cfg2.win 2).blk t).view.read (Elt Ideal) a2))
    (t : Fin cfg2.N) :
    dat.flushed 3 t = ((cfg2.win 3).blk t).view.read (Elt Ideal) (projG a0 a1 a2) := by
  show (cfg2.win 3).cut (grid2.coords t) (dat.after 3 t) = _
  rw [h3 t]
  obtain ⟨e0, e1, e2, e3, e4, e5, e6, e7⟩ := idx_facts2 t
  funext j
  show k0_pay1 (F := Ideal) (((cfg2.win 0).blk t).view.read (Elt Ideal) a0)
      (((cfg2.win 1).blk t).view.read (Elt Ideal) a1) (((cfg2.win 2).blk t).view.read (Elt Ideal) a2) j
    = projG a0 a1 a2 (((cfg2.win 3).blk t).view.emb j)
  refine (proj_entry _ _ _ j).trans ?_
  unfold projG
  refine Finset.sum_congr rfl fun k _ => ?_
  show (a0 (((cfg2.win 0).blk t).view.emb (ix2 (j 0) k)) * a1 (((cfg2.win 1).blk t).view.emb (ix2 (j 0) (0 : Fin 1))))
      * a2 (((cfg2.win 2).blk t).view.emb (ix2 k (j 1)))
    = (a0 (ix2 ((((cfg2.win 3).blk t).view.emb j) 0) k) * a1 (ix2 ((((cfg2.win 3).blk t).view.emb j) 0) (0 : Fin 1)))
      * a2 (ix2 k ((((cfg2.win 3).blk t).view.emb j) 1))
  refine congrArg₂ (· * ·) (congrArg₂ (· * ·) (congrArg a0 ?_) (congrArg a1 ?_)) (congrArg a2 ?_)
  · funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  · funext a; apply Fin.ext
    match a with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega

/-- An index of the result is in point `t`'s block iff its row is among the block's 5000 rows. -/
theorem mem_blk2_3 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v28).slice (win2_3.rect t)).set ↔ _
  rw [View.set_slice_whole, Rect.mem_set_unit]
  exact Iff.rfl

/-- The ten blocks cover the result: row r lies in block r / 5000. -/
theorem proj_cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  refine ⟨t, flush2_3 t, ?_⟩
  rw [mem_blk2_3]
  obtain ⟨-, -, -, -, -, -, e6, e7⟩ := idx_facts2 t
  have ht : t.val = (i 0).val / 5000 := rfl
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array of a projection region, whole: the projected matrix. -/
theorem proj_final2
    (h3 : ∀ t, dat.after 3 t = k0_pay1 (F := Ideal) (((cfg2.win 0).blk t).view.read (Elt Ideal) a0)
      (((cfg2.win 1).blk t).view.read (Elt Ideal) a1) (((cfg2.win 2).blk t).view.read (Elt Ideal) a2)) :
    dat.arrAt 3 cfg2.N = projG a0 a1 a2 :=
  dat.arrAt_eq_of_cover 3 (projG a0 a1 a2) (fun t _ => proj_flushed2 dat a0 a1 a2 h3 t) proj_cover2

end

end Cert.KernelIdeal.Val

end
-- ==== Proof.ProjArray4.lean ====
/-
  From blocks to arrays for the projection kernel of region 4: the same rows-by-blocks argument as for region 0.
-/
import proofs.«172984_j19241453486477_1_alg».proof.Proof.ProjArray

set_option maxRecDepth 16384

noncomputable section

open scoped BigOperators
open Idealize.ShloMosaic Idealize.ShloMosaic.ValueIdx Idealize.ShloMosaic.TcCoe

namespace Cert.KernelIdeal.Val

open Cert.KernelIdeal Cert.KernelIdeal.Gen
open Idealize.ShloMosaic.Pipeline (Dat)

/-- The index maps of region 4's four windows, decided over its ten points. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section
variable {c : Dev nD} (dat : Dat τ (Elt Ideal) Unit ℕ (UR sig nD τ) ℕ cfg4 c)
  (a0 : S50000x128.Idx → Elt Ideal .f32) (a1 : S50000x1.Idx → Elt Ideal .f32) (a2 : S128x128.Idx → Elt Ideal .f32)

/-- What point `t` writes back is block `t` of the projected matrix. -/
theorem proj_flushed4
    (h3 : ∀ t, dat.after 3 t = k0_pay1 (F := Ideal) (((cfg4.win 0).blk t).view.read (Elt Ideal) a0)
      (((cfg4.win 1).blk t).view.read (Elt Ideal) a1) (((cfg4.win 2).blk t).view.read (Elt Ideal) a2))
    (t : Fin cfg4.N) :
    dat.flushed 3 t = ((cfg4.win 3).blk t).view.read (Elt Ideal) (projG a0 a1 a2) := by
  show (cfg4.win 3).cut (grid4.coords t) (dat.after 3 t) = _
  rw [h3 t]
  obtain ⟨e0, e1, e2, e3, e4, e5, e6, e7⟩ := idx_facts4 t
  funext j
  show k0_pay1 (F := Ideal) (((cfg4.win 0).blk t).view.read (Elt Ideal) a0)
      (((cfg4.win 1).blk t).view.read (Elt Ideal) a1) (((cfg4.win 2).blk t).view.read (Elt Ideal) a2) j
    = projG a0 a1 a2 (((cfg4.win 3).blk t).view.emb j)
  refine (proj_entry _ _ _ j).trans ?_
  unfold projG
  refine Finset.sum_congr rfl fun k _ => ?_
  show (a0 (((cfg4.win 0).blk t).view.emb (ix2 (j 0) k)) * a1 (((cfg4.win 1).blk t).view.emb (ix2 (j 0) (0 : Fin 1))))
      * a2 (((cfg4.win 2).blk t).view.emb (ix2 k (j 1)))
    = (a0 (ix2 ((((cfg4.win 3).blk t).view.emb j) 0) k) * a1 (ix2 ((((cfg4.win 3).blk t).view.emb j) 0) (0 : Fin 1)))
      * a2 (ix2 k ((((cfg4.win 3).blk t).view.emb j) 1))
  refine congrArg₂ (· * ·) (congrArg₂ (· * ·) (congrArg a0 ?_) (congrArg a1 ?_)) (congrArg a2 ?_)
  · funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  · funext a; apply Fin.ext
    match a with
    | ⟨0, _⟩ => show win4_1.index t (0 : Fin 2) * 5000 + 1 * (j 0).val = win4_3.index t (0 : Fin 2) * 5000 + 1 * (j 0).val; omega
    | ⟨1, _⟩ => show win4_1.index t (1 : Fin 2) * 1 + 1 * 0 = 0; omega
  · funext a; apply Fin.ext
    match a with
    | ⟨0, _⟩ => show win4_2.index t (0 : Fin 2) * 128 + 1 * k.val = k.val; omega
    | ⟨1, _⟩ => show win4_2.index t (1 : Fin 2) * 128 + 1 * (j 1).val = win4_3.index t (1 : Fin 2) * 128 + 1 * (j 1).val; omega

/-- An index of the result is in point `t`'s block iff its row is among the block's 5000 rows. -/
theorem mem_blk4_3 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v41).slice (win4_3.rect t)).set ↔ _
  rw [View.set_slice_whole, Rect.mem_set_unit]
  exact Iff.rfl

/-- The ten blocks cover the result: row r lies in block r / 5000. -/
theorem proj_cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  refine ⟨t, flush4_3 t, ?_⟩
  rw [mem_blk4_3]
  obtain ⟨-, -, -, -, -, -, e6, e7⟩ := idx_facts4 t
  have ht : t.val = (i 0).val / 5000 := rfl
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The result array of a projection region, whole: the projected matrix. -/
theorem proj_final4
    (h3 : ∀ t, dat.after 3 t = k0_pay1 (F := Ideal) (((cfg4.win 0).blk t).view.read (Elt Ideal) a0)
      (((cfg4.win 1).blk t).view.read (Elt Ideal) a1) (((cfg4.win 2).blk t).view.read (Elt Ideal) a2)) :
    dat.arrAt 3 cfg4.N = projG a0 a1 a2 :=
  dat.arrAt_eq_of_cover 3 (projG a0 a1 a2) (fun t _ => proj_flushed4 dat a0 a1 a2 h3 t) proj_cover4

end

end Cert.KernelIdeal.Val

end
-- ==== Proof.ProjFinal.lean ====
/-
  The result array of each of the three projection regions, whole, as a function of the arrays the region finds:
  the projected matrix of its feature array, normalisation column and weight matrix.
-/
import proofs.«172984_j19241453486477_1_alg».proof.Proof.ProjectRegion0
import proofs.«172984_j19241453486477_1_alg».proof.Proof.ProjectRegion2
import proofs.«172984_j19241453486477_1_alg».proof.Proof.ProjectRegion4
import proofs.«172984_j19241453486477_1_alg».proof.Proof.ProjArray
import proofs.«172984_j19241453486477_1_alg».proof.Proof.ProjArray2
import proofs.«172984_j19241453486477_1_alg».proof.Proof.ProjArray4

set_option maxRecDepth 16384

noncomputable section

open Idealize.ShloMosaic Idealize.ShloMosaic.TcCoe

namespace Cert.KernelIdeal.Val

open Cert.KernelIdeal Cert.KernelIdeal.Gen Cert.KernelIdeal.Hand

variable (V : (c : Dev nD) → (b : Ref sig .tc) → Buf (Elt Ideal) ((c : Thread nD τ).loc b)) (c : Dev nD)

theorem p_final0 :
    (dat0 V c).arrAt 3 cfg0.N
      = projG (V c (Pipeline.arrRef spec0 0)) (V c (Pipeline.arrRef spec0 1)) (V c (Pipeline.arrRef spec0 2)) :=
  proj_final0 (dat0 V c) _ _ _ (fun t => (after0_3 V c t).trans (out0_3_eq (iblk0 V c 0 t) (iblk0 V c 1 t) (iblk0 V c 2 t)))

theorem p_final2 :
    (dat2 V c).arrAt 3 cfg2.N
      = projG (V c (Pipeline.arrRef spec2 0)) (V c (Pipeline.arrRef spec2 1)) (V c (Pipeline.arrRef spec2 2)) :=
  proj_final2 (dat2 V c) _ _ _ (fun t => (after2_3 V c t).trans ((out2_3_eq (iblk2 V c 0 t) (iblk2 V c 1 t) (iblk2 V c 2 t)).trans
    (k2_pay1_eq (iblk2 V c 0 t) (iblk2 V c 1 t) (iblk2 V c 2 t))))

theorem p_final4 :
    (dat4 V c).arrAt 3 cfg4.N
      = projG (V c (Pipeline.arrRef spec4 0)) (V c (Pipeline.arrRef spec4 1)) (V c (Pipeline.arrRef spec4 2)) :=
  proj_final4 (dat4 V c) _ _ _ (fun t => (after4_3 V c t).trans ((out4_3_eq (iblk4 V c 0 t) (iblk4 V c 1 t) (iblk4 V c 2 t)).trans
    (k4_pay1_eq (iblk4 V c 0 t) (iblk4 V c 1 t) (iblk4 V c 2 t))))

end Cert.KernelIdeal.Val

end
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.PostArray1.lean ====
/-
  From blocks to arrays, for the post kernel of region 1.

  Grid point t reads rows 5000·t … 5000·t + 4999 of the aggregated matrix and of the normalisation column, and
  the slope; it writes back the same rows of the rectified matrix. The running total, reset at the first point,
  has after point t the column sums of the rectified rows 0 … 5000·(t+1) − 1; it is written out after the last
  point, when it holds the column sums of all 50000 rows.
-/
import proofs.«172984_j19241453486477_1_alg».proof.Proof.PostRegion1
import proofs.«172984_j19241453486477_1_alg».proof.Proof.PayloadReads
import proofs.«172984_j19241453486477_1_alg».proof.Proof.LibBlockSum
import Idealize.ShloMosaic.Lib.Pipeline.Value

set_option maxRecDepth 16384

noncomputable section

open scoped BigOperators
open Idealize.ShloMosaic Idealize.ShloMosaic.ValueIdx Idealize.ShloMosaic.TcCoe

namespace Cert.KernelIdeal.Val

open Cert.KernelIdeal Cert.KernelIdeal.Gen Cert.KernelIdeal.Hand
open Idealize.ShloMosaic.Pipeline (Dat)

/-- The rectified scaling of the aggregated matrix: entry (i, q) is the rectifier, with the slope, of `agg[i,q] · n[i]`. -/
def postH (agg : S50000x128.Idx → Elt Ideal .f32) (n : S50000x1.Idx → Elt Ideal .f32) (a : S1x1.Idx → Elt Ideal .f32) :
    S50000x128.Idx → Elt Ideal .f32 :=
  fun i => prelu (a (ix2 (0 : Fin 1) (0 : Fin 1))) (agg (ix2 (i 0) (i 1)) * n (ix2 (i 0) (0 : Fin 1)))

/-- The column sums of a 50000-row matrix from zero, as a one-row matrix. -/
def colSums (x : S50000x128.Idx → Elt Ideal .f32) : S1x128.Idx → Elt Ideal .f32 :=
  fun j => 0 + ∑ r : Fin 50000, x (ix2 r (j 1))

/-- The index maps of region 1's five windows, decided over its ten points. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0 :=
  (by decide +kernel : ∀ t : Fin grid1.N, _)

/-- Entry `y` of the post body's block result, over the literal block shapes. -/
theorem post_entry (x0 : Vec Ideal S5000x128 .f32) (x1 : Vec Ideal S5000x1 .f32) (x2 : Vec Ideal S1x1 .f32) (y : S5000x128.Idx) :
    k1_pay2 (F := Ideal) x0 x1 x2 y = prelu (x2 (ix2 (0 : Fin 1) (0 : Fin 1))) (x0 (ix2 (y 0) (y 1)) * x1 (ix2 (y 0) (0 : Fin 1))) := by
  obtain ⟨p, q, rfl⟩ : ∃ (p : Fin 5000) (q : Fin 128), y = ix2 p q := ⟨y 0, y 1, eq_ix2 y⟩
  exact post_apply x0 x1 x2 p q

section
variable (a0 : S50000x128.Idx → Elt Ideal .f32) (a1 : S50000x1.Idx → Elt Ideal .f32) (a2 : S1x1.Idx → Elt Ideal .f32)

/-- What point `t` stores into the first output's block, entry by entry: the rectified scaling at the entry's place
    in the whole matrix. -/
theorem post_block1 (t : Fin cfg1.N) (j : ((cfg1.win 3).xblock (grid1.coords t)).Idx) :
    k1_pay2 (F := Ideal) (((cfg1.win 0).blk t).view.read (Elt Ideal) a0) (((cfg1.win 1).blk t).view.read (Elt Ideal) a1)
        (((cfg1.win 2).blk t).view.read (Elt Ideal) a2) j
      = postH a0 a1 a2 (((cfg1.win 3).blk t).view.emb j) := by
  obtain ⟨e0, e1, e2, e3, e4, e5, e6, e7, -, -⟩ := idx_facts1 t
  refine (post_entry _ _ _ j).trans ?_
  unfold postH
  show prelu (a2 (((cfg1.win 2).blk t).view.emb (ix2 (0 : Fin 1) (0 : Fin 1))))
      (a0 (((cfg1.win 0).blk t).view.emb (ix2 (j 0) (j 1))) * a1 (((cfg1.win 1).blk t).view.emb (ix2 (j 0) (0 : Fin 1))))
    = prelu (a2 (ix2 (0 : Fin 1) (0 : Fin 1)))
      (a0 (ix2 ((((cfg1.win 3).blk t).view.emb j) 0) ((((cfg1.win 3).blk t).view.emb j) 1))
        * a1 (ix2 ((((cfg1.win 3).blk t).view.emb j) 0) (0 : Fin 1)))
  refine congrArg₂ prelu (congrArg a2 ?_) (congrArg₂ (· * ·) (congrArg a0 ?_) (congrArg a1 ?_))
  · funext a; apply Fin.ext
    match a with
    | ⟨0, _⟩ => show win1_2.index t (0 : Fin 2) * 1 + 1 * 0 = 0; omega
    | ⟨1, _⟩ => show win1_2.index t (1 : Fin 2) * 1 + 1 * 0 = 0; omega
  · funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega

/-- Row r of block `t` is row 5000·t + r of the matrix. -/
theorem post_row1 (t : Fin cfg1.N) (r : Fin 5000) (q : Fin 128) :
    ((cfg1.win 3).blk t).view.emb (ix2 r q)
      = ix2 (⟨t.val * 5000 + r.val, by have := t.isLt; have h10 : cfg1.N = 10 := N_1; have := r.isLt; omega⟩ : Fin 50000) q := by
  obtain ⟨-, -, -, -, -, -, e6, e7, -, -⟩ := idx_facts1 t
  funext a; apply Fin.ext
  match a with
  | ⟨0, _⟩ => show win1_3.index t (0 : Fin 2) * 5000 + 1 * r.val = t.val * 5000 + r.val; omega
  | ⟨1, _⟩ => show win1_3.index t (1 : Fin 2) * 128 + 1 * q.val = q.val; omega

variable {c : Dev nD} (dat : Dat τ (Elt Ideal) Unit ℕ (UR sig nD τ) ℕ cfg1 c)

/-- What point `t` writes back into the first output is block `t` of the rectified matrix. -/
theorem post_flushed1
    (h3 : ∀ t, dat.after 3 t = k1_pay2 (F := Ideal) (((cfg1.win 0).blk t).view.read (Elt Ideal) a0)
      (((cfg1.win 1).blk t).view.read (Elt Ideal) a1) (((cfg1.win 2).blk t).view.read (Elt Ideal) a2))
    (t : Fin cfg1.N) :
    dat.flushed 3 t = ((cfg1.win 3).blk t).view.read (Elt Ideal) (postH a0 a1 a2) := by
  show (cfg1.win 3).cut (grid1.coords t) (dat.after 3 t) = _
  rw [h3 t]
  funext j
  exact post_block1 a0 a1 a2 t j

theorem mem_blk1_3 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v27_0).slice (win1_3.rect t)).set ↔ _
  rw [View.set_slice_whole, Rect.mem_set_unit]
  exact Iff.rfl

theorem post_cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  refine ⟨t, flush1_3 t, ?_⟩
  rw [mem_blk1_3]
  obtain ⟨-, -, -, -, -, -, e6, e7, -, -⟩ := idx_facts1 t
  have ht : t.val = (i 0).val / 5000 := rfl
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The first output array of a post region, whole: the rectified scaling of the aggregated matrix. -/
theorem post_final1
    (h3 : ∀ t, dat.after 3 t = k1_pay2 (F := Ideal) (((cfg1.win 0).blk t).view.read (Elt Ideal) a0)
      (((cfg1.win 1).blk t).view.read (Elt Ideal) a1) (((cfg1.win 2).blk t).view.read (Elt Ideal) a2)) :
    dat.arrAt 3 cfg1.N = postH a0 a1 a2 :=
  dat.arrAt_eq_of_cover 3 (postH a0 a1 a2) (fun t _ => post_flushed1 a0 a1 a2 dat h3 t) post_cover1

end

end Cert.KernelIdeal.Val

end
-- ==== Proof.PostSum1.lean ====
/-
  The running total of the post kernel of region 1, read back: after point t it holds, in column q, zero plus the
  sums over the first t + 1 blocks of the rectified entries of that column; after the last point that is zero plus
  the sum of the column over all 50000 rows, the sum over 50000 = 10 · 5000 indices taken block by block.
-/
import proofs.«172984_j19241453486477_1_alg».proof.Proof.PostArray1

set_option maxRecDepth 16384

noncomputable section

open scoped BigOperators
open Idealize.ShloMosaic Idealize.ShloMosaic.ValueIdx Idealize.ShloMosaic.TcCoe

namespace Cert.KernelIdeal.Val

open Cert.KernelIdeal Cert.KernelIdeal.Gen Cert.KernelIdeal.Hand
open Idealize.ShloMosaic.Pipeline (Dat)

/-- Column q of a 50000-row matrix summed over the 5000 rows of block t (nothing past the tenth block). -/
def tileSum (x : S50000x128.Idx → Elt Ideal .f32) (q : Fin 128) (t : ℕ) : Elt Ideal .f32 :=
  if ht : t < 10 then ∑ r : Fin 5000, x (ix2 (⟨t * 5000 + r.val, by have := r.isLt; omega⟩ : Fin 50000) q) else 0

/-- Ten blocks of 5000 rows are all 50000 rows. -/
theorem tiles_all (x : S50000x128.Idx → Elt Ideal .f32) (q : Fin 128) :
    ∑ t ∈ Finset.range 10, tileSum x q t = ∑ r : Fin 50000, x (ix2 r q) := by
  rw [Cert.BlockSum.sum_blocks_of_eq 10 5000 50000 rfl (fun r : Fin 50000 => x (ix2 r q)), ← Fin.sum_univ_eq_sum_range]
  refine Finset.sum_congr rfl fun t _ => ?_
  unfold tileSum
  rw [dif_pos t.isLt]

section
variable (V : (c : Dev nD) → (b : Ref sig .tc) → Buf (Elt Ideal) ((c : Thread nD τ).loc b)) (c : Dev nD)

set_option maxHeartbeats 1000000 in
/-- The running total after point n, column q. -/
theorem acc1_entry (n : ℕ) (hn : n < cfg1.N) (q : Fin 128) :
    acc1 V c n hn (ix2 (0 : Fin 1) q)
      = 0 + ∑ t ∈ Finset.range (n + 1),
          tileSum (postH (V c (Pipeline.arrRef spec1 0)) (V c (Pipeline.arrRef spec1 1)) (V c (Pipeline.arrRef spec1 2))) q t := by
  have hN : cfg1.N = 10 := N_1
  induction n with
  | zero =>
    rw [acc1_zero]
    refine (accum_apply (iblk1 V c 0 ⟨0, hn⟩) (iblk1 V c 1 ⟨0, hn⟩) (iblk1 V c 2 ⟨0, hn⟩) (k1_pay1 (F := Ideal)) q).trans ?_
    rw [reset_apply, Finset.sum_range_one]
    congr 1
    unfold tileSum
    rw [dif_pos (by decide)]
    refine Finset.sum_congr rfl fun r _ => ?_
    refine (post_block1 (V c (Pipeline.arrRef spec1 0)) (V c (Pipeline.arrRef spec1 1)) (V c (Pipeline.arrRef spec1 2)) ⟨0, hn⟩ (ix2 r q)).trans ?_
    exact congrArg _ ((post_row1 ⟨0, hn⟩ r q).trans (by simp))
  | succ n ih =>
    rw [acc1_succ]
    refine (accum_apply (iblk1 V c 0 ⟨n + 1, hn⟩) (iblk1 V c 1 ⟨n + 1, hn⟩) (iblk1 V c 2 ⟨n + 1, hn⟩) (acc1 V c n (Nat.lt_of_succ_lt hn)) q).trans ?_
    rw [ih (Nat.lt_of_succ_lt hn), Finset.sum_range_succ _ (n + 1), ← add_assoc]
    congr 1
    unfold tileSum
    rw [dif_pos (by omega)]
    refine Finset.sum_congr rfl fun r _ => ?_
    refine (post_block1 (V c (Pipeline.arrRef spec1 0)) (V c (Pipeline.arrRef spec1 1)) (V c (Pipeline.arrRef spec1 2)) ⟨n + 1, hn⟩ (ix2 r q)).trans ?_
    exact congrArg _ (post_row1 ⟨n + 1, hn⟩ r q)

/-- The running total after the last point: the column sums of the whole rectified matrix. -/
theorem acc1_last (h : 9 < cfg1.N) (y : S1x128.Idx) :
    acc1 V c 9 h y
      = colSums (postH (V c (Pipeline.arrRef spec1 0)) (V c (Pipeline.arrRef spec1 1)) (V c (Pipeline.arrRef spec1 2))) (ix2 (0 : Fin 1) (y 1)) := by
  obtain ⟨z, q, rfl⟩ : ∃ (z : Fin 1) (q : Fin 128), y = ix2 z q := ⟨y 0, y 1, eq_ix2 y⟩
  obtain rfl : z = 0 := Subsingleton.elim _ _
  rw [acc1_entry V c 9 h q, tiles_all]
  rfl

theorem mem_blk1_4 (t : Fin cfg1.N) (i : S1x128.Idx) :
    i ∈ ((cfg1.win 4).blk t).view.set ↔ ∀ a : Fin 2, win1_4.index t a * S1x128.size a ≤ (i a).val
      ∧ (i a).val < win1_4.index t a * S1x128.size a + S1x128.size a := by
  show i ∈ ((View.whole main_v27_1).slice (win1_4.rect t)).set ↔ _
  rw [View.set_slice_whole, Rect.mem_set_unit]
  exact Iff.rfl

set_option maxHeartbeats 1000000 in
/-- The second output array of the post region, whole: the column sums of the rectified matrix. It is written back
    once, after the last point. -/
theorem hg_final1 :
    (dat1 V c).arrAt 4 cfg1.N
      = colSums (postH (V c (Pipeline.arrRef spec1 0)) (V c (Pipeline.arrRef spec1 1)) (V c (Pipeline.arrRef spec1 2))) := by
  have hN : cfg1.N = 10 := N_1
  refine (dat1 V c).arrAt_eq_of_cover 4 _ (fun t hf => ?_) (fun i => ?_)
  · have ht : t.val % 10 = 9 := (flush1_4 t).mp hf
    obtain ⟨-, -, -, -, -, -, -, -, e8, e9⟩ := idx_facts1 t
    obtain ⟨tv, htl⟩ := t
    have ht9 : tv = 9 := by have : tv < 10 := hN ▸ htl; dsimp only at ht; omega
    subst ht9
    show (cfg1.win 4).cut (grid1.coords ⟨9, htl⟩) ((dat1 V c).after 4 ⟨9, htl⟩) = _
    rw [after1_4_last V c htl]
    funext j
    refine (acc1_last V c htl j).trans ?_
    generalize postH (V c (Pipeline.arrRef spec1 0)) (V c (Pipeline.arrRef spec1 1)) (V c (Pipeline.arrRef spec1 2)) = X
    have e : (j 1 : Fin 128) = ((((cfg1.win 4).blk ⟨9, htl⟩).view.emb j) 1) := Fin.ext (by
      show (j 1).val = win1_4.index ⟨9, htl⟩ (1 : Fin 2) * 128 + 1 * (j 1).val
      omega)
    show (0 : Elt Ideal .f32) + ∑ r : Fin 50000, X (ix2 r (j 1)) = 0 + ∑ r : Fin 50000, X (ix2 r ((((cfg1.win 4).blk ⟨9, htl⟩).view.emb j) 1))
    rw [← e]
  · have hi0 : (i 0).val < 1 := (i 0).isLt
    have hi1 : (i 1).val < 128 := (i 1).isLt
    let t : Fin cfg1.N := ⟨9, by rw [hN]; decide⟩
    refine ⟨t, (flush1_4 t).mpr (by show 9 % 10 = 9; rfl), ?_⟩
    rw [mem_blk1_4]
    obtain ⟨-, -, -, -, -, -, -, -, e8, e9⟩ := idx_facts1 t
    intro a
    match a with
    | ⟨0, _⟩ => show win1_4.index t (0 : Fin 2) * 1 ≤ (i 0).val ∧ (i 0).val < win1_4.index t (0 : Fin 2) * 1 + 1; omega
    | ⟨1, _⟩ => show win1_4.index t (1 : Fin 2) * 128 ≤ (i 1).val ∧ (i 1).val < win1_4.index t (1 : Fin 2) * 128 + 128; omega

/-- The first output array of the post region, whole. -/
theorem h_final1 :
    (dat1 V c).arrAt 3 cfg1.N
      = postH (V c (Pipeline.arrRef spec1 0)) (V c (Pipeline.arrRef spec1 1)) (V c (Pipeline.arrRef spec1 2)) :=
  post_final1 _ _ _ (dat1 V c) (fun t => after1_3 V c t)

end

end Cert.KernelIdeal.Val

end
-- ==== Proof.PostArray3.lean ====
/-
  From blocks to arrays, for the post kernel of region 3.

  Grid point t reads rows 5000·t … 5000·t + 4999 of the aggregated matrix and of the normalisation column, and
  the slope; it writes back the same rows of the rectified matrix. The running total, reset at the first point,
  has after point t the column sums of the rectified rows 0 … 5000·(t+1) − 1; it is written out after the last
  point, when it holds the column sums of all 50000 rows.
-/
import proofs.«172984_j19241453486477_1_alg».proof.Proof.PostRegion3
import proofs.«172984_j19241453486477_1_alg».proof.Proof.PostArray1
import proofs.«172984_j19241453486477_1_alg».proof.Proof.PayloadReads
import proofs.«172984_j19241453486477_1_alg».proof.Proof.LibBlockSum
import Idealize.ShloMosaic.Lib.Pipeline.Value

set_option maxRecDepth 16384

noncomputable section

open scoped BigOperators
open Idealize.ShloMosaic Idealize.ShloMosaic.ValueIdx Idealize.ShloMosaic.TcCoe

namespace Cert.KernelIdeal.Val

open Cert.KernelIdeal Cert.KernelIdeal.Gen Cert.KernelIdeal.Hand
open Idealize.ShloMosaic.Pipeline (Dat)

/-- The index maps of region 3's five windows, decided over its ten points. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0 :=
  (by decide +kernel : ∀ t : Fin grid3.N, _)

section
variable (a0 : S50000x128.Idx → Elt Ideal .f32) (a1 : S50000x1.Idx → Elt Ideal .f32) (a2 : S1x1.Idx → Elt Ideal .f32)

/-- What point `t` stores into the first output's block, entry by entry: the rectified scaling at the entry's place
    in the whole matrix. -/
theorem post_block3 (t : Fin cfg3.N) (j : ((cfg3.win 3).xblock (grid3.coords t)).Idx) :
    k1_pay2 (F := Ideal) (((cfg3.win 0).blk t).view.read (Elt Ideal) a0) (((cfg3.win 1).blk t).view.read (Elt Ideal) a1)
        (((cfg3.win 2).blk t).view.read (Elt Ideal) a2) j
      = postH a0 a1 a2 (((cfg3.win 3).blk t).view.emb j) := by
  obtain ⟨e0, e1, e2, e3, e4, e5, e6, e7, -, -⟩ := idx_facts3 t
  refine (post_entry _ _ _ j).trans ?_
  unfold postH
  show prelu (a2 (((cfg3.win 2).blk t).view.emb (ix2 (0 : Fin 1) (0 : Fin 1))))
      (a0 (((cfg3.win 0).blk t).view.emb (ix2 (j 0) (j 1))) * a1 (((cfg3.win 1).blk t).view.emb (ix2 (j 0) (0 : Fin 1))))
    = prelu (a2 (ix2 (0 : Fin 1) (0 : Fin 1)))
      (a0 (ix2 ((((cfg3.win 3).blk t).view.emb j) 0) ((((cfg3.win 3).blk t).view.emb j) 1))
        * a1 (ix2 ((((cfg3.win 3).blk t).view.emb j) 0) (0 : Fin 1)))
  refine congrArg₂ prelu (congrArg a2 ?_) (congrArg₂ (· * ·) (congrArg a0 ?_) (congrArg a1 ?_))
  · funext a; apply Fin.ext
    match a with
    | ⟨0, _⟩ => show win3_2.index t (0 : Fin 2) * 1 + 1 * 0 = 0; omega
    | ⟨1, _⟩ => show win3_2.index t (1 : Fin 2) * 1 + 1 * 0 = 0; omega
  · funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  · funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega

/-- Row r of block `t` is row 5000·t + r of the matrix. -/
theorem post_row3 (t : Fin cfg3.N) (r : Fin 5000) (q : Fin 128) :
    ((cfg3.win 3).blk t).view.emb (ix2 r q)
      = ix2 (⟨t.val * 5000 + r.val, by have := t.isLt; have h10 : cfg3.N = 10 := N_3; have := r.isLt; omega⟩ : Fin 50000) q := by
  obtain ⟨-, -, -, -, -, -, e6, e7, -, -⟩ := idx_facts3 t
  funext a; apply Fin.ext
  match a with
  | ⟨0, _⟩ => show win3_3.index t (0 : Fin 2) * 5000 + 1 * r.val = t.val * 5000 + r.val; omega
  | ⟨1, _⟩ => show win3_3.index t (1 : Fin 2) * 128 + 1 * q.val = q.val; omega

variable {c : Dev nD} (dat : Dat τ (Elt Ideal) Unit ℕ (UR sig nD τ) ℕ cfg3 c)

/-- What point `t` writes back into the first output is block `t` of the rectified matrix. -/
theorem post_flushed3
    (h3 : ∀ t, dat.after 3 t = k1_pay2 (F := Ideal) (((cfg3.win 0).blk t).view.read (Elt Ideal) a0)
      (((cfg3.win 1).blk t).view.read (Elt Ideal) a1) (((cfg3.win 2).blk t).view.read (Elt Ideal) a2))
    (t : Fin cfg3.N) :
    dat.flushed 3 t = ((cfg3.win 3).blk t).view.read (Elt Ideal) (postH a0 a1 a2) := by
  show (cfg3.win 3).cut (grid3.coords t) (dat.after 3 t) = _
  rw [h3 t]
  funext j
  exact post_block3 a0 a1 a2 t j

theorem mem_blk3_3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v40_0).slice (win3_3.rect t)).set ↔ _
  rw [View.set_slice_whole, Rect.mem_set_unit]
  exact Iff.rfl

theorem post_cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  refine ⟨t, flush3_3 t, ?_⟩
  rw [mem_blk3_3]
  obtain ⟨-, -, -, -, -, -, e6, e7, -, -⟩ := idx_facts3 t
  have ht : t.val = (i 0).val / 5000 := rfl
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The first output array of a post region, whole: the rectified scaling of the aggregated matrix. -/
theorem post_final3
    (h3 : ∀ t, dat.after 3 t = k1_pay2 (F := Ideal) (((cfg3.win 0).blk t).view.read (Elt Ideal) a0)
      (((cfg3.win 1).blk t).view.read (Elt Ideal) a1) (((cfg3.win 2).blk t).view.read (Elt Ideal) a2)) :
    dat.arrAt 3 cfg3.N = postH a0 a1 a2 :=
  dat.arrAt_eq_of_cover 3 (postH a0 a1 a2) (fun t _ => post_flushed3 a0 a1 a2 dat h3 t) post_cover3

end

end Cert.KernelIdeal.Val

end
-- ==== Proof.PostSum3.lean ====
/-
  The running total of the post kernel of region 3, read back: after point t it holds, in column q, zero plus the
  sums over the first t + 1 blocks of the rectified entries of that column; after the last point that is zero plus
  the sum of the column over all 50000 rows, the sum over 50000 = 10 · 5000 indices taken block by block.
-/
import proofs.«172984_j19241453486477_1_alg».proof.Proof.PostArray3
import proofs.«172984_j19241453486477_1_alg».proof.Proof.PostSum1

set_option maxRecDepth 16384

noncomputable section

open scoped BigOperators
open Idealize.ShloMosaic Idealize.ShloMosaic.ValueIdx Idealize.ShloMosaic.TcCoe

namespace Cert.KernelIdeal.Val

open Cert.KernelIdeal Cert.KernelIdeal.Gen Cert.KernelIdeal.Hand
open Idealize.ShloMosaic.Pipeline (Dat)

section
variable (V : (c : Dev nD) → (b : Ref sig .tc) → Buf (Elt Ideal) ((c : Thread nD τ).loc b)) (c : Dev nD)

set_option maxHeartbeats 1000000 in
/-- The running total after point n, column q. -/
theorem acc3_entry (n : ℕ) (hn : n < cfg3.N) (q : Fin 128) :
    acc3 V c n hn (ix2 (0 : Fin 1) q)
      = 0 + ∑ t ∈ Finset.range (n + 1),
          tileSum (postH (V c (Pipeline.arrRef spec3 0)) (V c (Pipeline.arrRef spec3 1)) (V c (Pipeline.arrRef spec3 2))) q t := by
  have hN : cfg3.N = 10 := N_3
  induction n with
  | zero =>
    rw [acc3_zero, k3_pay3_eq, k3_pay1_eq]
    refine (accum_apply (iblk3 V c 0 ⟨0, hn⟩) (iblk3 V c 1 ⟨0, hn⟩) (iblk3 V c 2 ⟨0, hn⟩) (k1_pay1 (F := Ideal)) q).trans ?_
    rw [reset_apply, Finset.sum_range_one]
    congr 1
    unfold tileSum
    rw [dif_pos (by decide)]
    refine Finset.sum_congr rfl fun r _ => ?_
    refine (post_block3 (V c (Pipeline.arrRef spec3 0)) (V c (Pipeline.arrRef spec3 1)) (V c (Pipeline.arrRef spec3 2)) ⟨0, hn⟩ (ix2 r q)).trans ?_
    exact congrArg _ ((post_row3 ⟨0, hn⟩ r q).trans (by simp))
  | succ n ih =>
    rw [acc3_succ, k3_pay3_eq]
    refine (accum_apply (iblk3 V c 0 ⟨n + 1, hn⟩) (iblk3 V c 1 ⟨n + 1, hn⟩) (iblk3 V c 2 ⟨n + 1, hn⟩) (acc3 V c n (Nat.lt_of_succ_lt hn)) q).trans ?_
    rw [ih (Nat.lt_of_succ_lt hn), Finset.sum_range_succ _ (n + 1), ← add_assoc]
    congr 1
    unfold tileSum
    rw [dif_pos (by omega)]
    refine Finset.sum_congr rfl fun r _ => ?_
    refine (post_block3 (V c (Pipeline.arrRef spec3 0)) (V c (Pipeline.arrRef spec3 1)) (V c (Pipeline.arrRef spec3 2)) ⟨n + 1, hn⟩ (ix2 r q)).trans ?_
    exact congrArg _ (post_row3 ⟨n + 1, hn⟩ r q)

/-- The running total after the last point: the column sums of the whole rectified matrix. -/
theorem acc3_last (h : 9 < cfg3.N) (y : S1x128.Idx) :
    acc3 V c 9 h y
      = colSums (postH (V c (Pipeline.arrRef spec3 0)) (V c (Pipeline.arrRef spec3 1)) (V c (Pipeline.arrRef spec3 2))) (ix2 (0 : Fin 1) (y 1)) := by
  obtain ⟨z, q, rfl⟩ : ∃ (z : Fin 1) (q : Fin 128), y = ix2 z q := ⟨y 0, y 1, eq_ix2 y⟩
  obtain rfl : z = 0 := Subsingleton.elim _ _
  rw [acc3_entry V c 9 h q, tiles_all]
  rfl

theorem mem_blk3_4 (t : Fin cfg3.N) (i : S1x128.Idx) :
    i ∈ ((cfg3.win 4).blk t).view.set ↔ ∀ a : Fin 2, win3_4.index t a * S1x128.size a ≤ (i a).val
      ∧ (i a).val < win3_4.index t a * S1x128.size a + S1x128.size a := by
  show i ∈ ((View.whole main_v40_1).slice (win3_4.rect t)).set ↔ _
  rw [View.set_slice_whole, Rect.mem_set_unit]
  exact Iff.rfl

set_option maxHeartbeats 1000000 in
/-- The second output array of the post region, whole: the column sums of the rectified matrix. It is written back
    once, after the last point. -/
theorem hg_final3 :
    (dat3 V c).arrAt 4 cfg3.N
      = colSums (postH (V c (Pipeline.arrRef spec3 0)) (V c (Pipeline.arrRef spec3 1)) (V c (Pipeline.arrRef spec3 2))) := by
  have hN : cfg3.N = 10 := N_3
  refine (dat3 V c).arrAt_eq_of_cover 4 _ (fun t hf => ?_) (fun i => ?_)
  · have ht : t.val % 10 = 9 := (flush3_4 t).mp hf
    obtain ⟨-, -, -, -, -, -, -, -, e8, e9⟩ := idx_facts3 t
    obtain ⟨tv, htl⟩ := t
    have ht9 : tv = 9 := by have : tv < 10 := hN ▸ htl; dsimp only at ht; omega
    subst ht9
    show (cfg3.win 4).cut (grid3.coords ⟨9, htl⟩) ((dat3 V c).after 4 ⟨9, htl⟩) = _
    rw [after3_4_last V c htl]
    funext j
    refine (acc3_last V c htl j).trans ?_
    generalize postH (V c (Pipeline.arrRef spec3 0)) (V c (Pipeline.arrRef spec3 1)) (V c (Pipeline.arrRef spec3 2)) = X
    have e : (j 1 : Fin 128) = ((((cfg3.win 4).blk ⟨9, htl⟩).view.emb j) 1) := Fin.ext (by
      show (j 1).val = win3_4.index ⟨9, htl⟩ (1 : Fin 2) * 128 + 1 * (j 1).val
      omega)
    show (0 : Elt Ideal .f32) + ∑ r : Fin 50000, X (ix2 r (j 1)) = 0 + ∑ r : Fin 50000, X (ix2 r ((((cfg3.win 4).blk ⟨9, htl⟩).view.emb j) 1))
    rw [← e]
  · have hi0 : (i 0).val < 1 := (i 0).isLt
    have hi1 : (i 1).val < 128 := (i 1).isLt
    let t : Fin cfg3.N := ⟨9, by rw [hN]; decide⟩
    refine ⟨t, (flush3_4 t).mpr (by show 9 % 10 = 9; rfl), ?_⟩
    rw [mem_blk3_4]
    obtain ⟨-, -, -, -, -, -, -, -, e8, e9⟩ := idx_facts3 t
    intro a
    match a with
    | ⟨0, _⟩ => show win3_4.index t (0 : Fin 2) * 1 ≤ (i 0).val ∧ (i 0).val < win3_4.index t (0 : Fin 2) * 1 + 1; omega
    | ⟨1, _⟩ => show win3_4.index t (1 : Fin 2) * 128 ≤ (i 1).val ∧ (i 1).val < win3_4.index t (1 : Fin 2) * 128 + 128; omega

/-- The first output array of the post region, whole. -/
theorem h_final3 :
    (dat3 V c).arrAt 3 cfg3.N
      = postH (V c (Pipeline.arrRef spec3 0)) (V c (Pipeline.arrRef spec3 1)) (V c (Pipeline.arrRef spec3 2)) :=
  post_final3 _ _ _ (dat3 V c) (fun t => by rw [after3_3, k3_pay2_eq] <;> rfl)

end

end Cert.KernelIdeal.Val

end
-- ==== Proof.PostArray5.lean ====
/-
  From blocks to arrays, for the post kernel of region 5.

  Grid point t reads rows 5000·t … 5000·t + 4999 of the aggregated matrix and of the normalisation column, and
  the slope; it writes back the same rows of the rectified matrix. The running total, reset at the first point,
  has after point t the column sums of the rectified rows 0 … 5000·(t+1) − 1; it is written out after the last
  point, when it holds the column sums of all 50000 rows.
-/
import proofs.«172984_j19241453486477_1_alg».proof.Proof.PostRegion5
import proofs.«172984_j19241453486477_1_alg».proof.Proof.PostArray1
import proofs.«172984_j19241453486477_1_alg».proof.Proof.PayloadReads
import proofs.«172984_j19241453486477_1_alg».proof.Proof.LibBlockSum
import Idealize.ShloMosaic.Lib.Pipeline.Value

set_option maxRecDepth 16384

noncomputable section

open scoped BigOperators
open Idealize.ShloMosaic Idealize.ShloMosaic.ValueIdx Idealize.ShloMosaic.TcCoe

namespace Cert.KernelIdeal.Val

open Cert.KernelIdeal Cert.KernelIdeal.Gen Cert.KernelIdeal.Hand
open Idealize.ShloMosaic.Pipeline (Dat)

/-- The index maps of region 5's five windows, decided over its ten points. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0 :=
  (by decide +kernel : ∀ t : Fin grid5.N, _)

section
variable (a0 : S50000x128.Idx → Elt Ideal .f32) (a1 : S50000x1.Idx → Elt Ideal .f32) (a2 : S1x1.Idx → Elt Ideal .f32)

/-- What point `t` stores into the first output's block, entry by entry: the rectified scaling at the entry's place
    in the whole matrix. -/
theorem post_block5 (t : Fin cfg5.N) (j : ((cfg5.win 3).xblock (grid5.coords t)).Idx) :
    k1_pay2 (F := Ideal) (((cfg5.win 0).blk t).view.read (Elt Ideal) a0) (((cfg5.win 1).blk t).view.read (Elt Ideal) a1)
        (((cfg5.win 2).blk t).view.read (Elt Ideal) a2) j
      = postH a0 a1 a2 (((cfg5.win 3).blk t).view.emb j) := by
  obtain ⟨e0, e1, e2, e3, e4, e5, e6, e7, -, -⟩ := idx_facts5 t
  refine (post_entry _ _ _ j).trans ?_
  unfold postH
  show prelu (a2 (((cfg5.win 2).blk t).view.emb (ix2 (0 : Fin 1) (0 : Fin 1))))
      (a0 (((cfg5.win 0).blk t).view.emb (ix2 (j 0) (j 1))) * a1 (((cfg5.win 1).blk t).view.emb (ix2 (j 0) (0 : Fin 1))))
    = prelu (a2 (ix2 (0 : Fin 1) (0 : Fin 1)))
      (a0 (ix2 ((((cfg5.win 3).blk t).view.emb j) 0) ((((cfg5.win 3).blk t).view.emb j) 1))
        * a1 (ix2 ((((cfg5.win 3).blk t).view.emb j) 0) (0 : Fin 1)))
  refine congrArg₂ prelu (congrArg a2 ?_) (congrArg₂ (· * ·) (congrArg a0 ?_) (congrArg a1 ?_))
  · funext a; apply Fin.ext
    match a with
    | ⟨0, _⟩ => show win5_2.index t (0 : Fin 2) * 1 + 1 * 0 = 0; omega
    | ⟨1, _⟩ => show win5_2.index t (1 : Fin 2) * 1 + 1 * 0 = 0; omega
  · funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  · funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 1 + 1 * 0 = 0; omega

/-- Row r of block `t` is row 5000·t + r of the matrix. -/
theorem post_row5 (t : Fin cfg5.N) (r : Fin 5000) (q : Fin 128) :
    ((cfg5.win 3).blk t).view.emb (ix2 r q)
      = ix2 (⟨t.val * 5000 + r.val, by have := t.isLt; have h10 : cfg5.N = 10 := N_5; have := r.isLt; omega⟩ : Fin 50000) q := by
  obtain ⟨-, -, -, -, -, -, e6, e7, -, -⟩ := idx_facts5 t
  funext a; apply Fin.ext
  match a with
  | ⟨0, _⟩ => show win5_3.index t (0 : Fin 2) * 5000 + 1 * r.val = t.val * 5000 + r.val; omega
  | ⟨1, _⟩ => show win5_3.index t (1 : Fin 2) * 128 + 1 * q.val = q.val; omega

variable {c : Dev nD} (dat : Dat τ (Elt Ideal) Unit ℕ (UR sig nD τ) ℕ cfg5 c)

/-- What point `t` writes back into the first output is block `t` of the rectified matrix. -/
theorem post_flushed5
    (h3 : ∀ t, dat.after 3 t = k1_pay2 (F := Ideal) (((cfg5.win 0).blk t).view.read (Elt Ideal) a0)
      (((cfg5.win 1).blk t).view.read (Elt Ideal) a1) (((cfg5.win 2).blk t).view.read (Elt Ideal) a2))
    (t : Fin cfg5.N) :
    dat.flushed 3 t = ((cfg5.win 3).blk t).view.read (Elt Ideal) (postH a0 a1 a2) := by
  show (cfg5.win 3).cut (grid5.coords t) (dat.after 3 t) = _
  rw [h3 t]
  funext j
  exact post_block5 a0 a1 a2 t j

theorem mem_blk5_3 (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v53_0).slice (win5_3.rect t)).set ↔ _
  rw [View.set_slice_whole, Rect.mem_set_unit]
  exact Iff.rfl

theorem post_cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  refine ⟨t, flush5_3 t, ?_⟩
  rw [mem_blk5_3]
  obtain ⟨-, -, -, -, -, -, e6, e7, -, -⟩ := idx_facts5 t
  have ht : t.val = (i 0).val / 5000 := rfl
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The first output array of a post region, whole: the rectified scaling of the aggregated matrix. -/
theorem post_final5
    (h3 : ∀ t, dat.after 3 t = k1_pay2 (F := Ideal) (((cfg5.win 0).blk t).view.read (Elt Ideal) a0)
      (((cfg5.win 1).blk t).view.read (Elt Ideal) a1) (((cfg5.win 2).blk t).view.read (Elt Ideal) a2)) :
    dat.arrAt 3 cfg5.N = postH a0 a1 a2 :=
  dat.arrAt_eq_of_cover 3 (postH a0 a1 a2) (fun t _ => post_flushed5 a0 a1 a2 dat h3 t) post_cover5

end

end Cert.KernelIdeal.Val

end
-- ==== Proof.PostSum5.lean ====
/-
  The running total of the post kernel of region 5, read back: after point t it holds, in column q, zero plus the
  sums over the first t + 1 blocks of the rectified entries of that column; after the last point that is zero plus
  the sum of the column over all 50000 rows, the sum over 50000 = 10 · 5000 indices taken block by block.
-/
import proofs.«172984_j19241453486477_1_alg».proof.Proof.PostArray5
import proofs.«172984_j19241453486477_1_alg».proof.Proof.PostSum1

set_option maxRecDepth 16384

noncomputable section

open scoped BigOperators
open Idealize.ShloMosaic Idealize.ShloMosaic.ValueIdx Idealize.ShloMosaic.TcCoe

namespace Cert.KernelIdeal.Val

open Cert.KernelIdeal Cert.KernelIdeal.Gen Cert.KernelIdeal.Hand
open Idealize.ShloMosaic.Pipeline (Dat)

section
variable (V : (c : Dev nD) → (b : Ref sig .tc) → Buf (Elt Ideal) ((c : Thread nD τ).loc b)) (c : Dev nD)

set_option maxHeartbeats 1000000 in
/-- The running total after point n, column q. -/
theorem acc5_entry (n : ℕ) (hn : n < cfg5.N) (q : Fin 128) :
    acc5 V c n hn (ix2 (0 : Fin 1) q)
      = 0 + ∑ t ∈ Finset.range (n + 1),
          tileSum (postH (V c (Pipeline.arrRef spec5 0)) (V c (Pipeline.arrRef spec5 1)) (V c (Pipeline.arrRef spec5 2))) q t := by
  have hN : cfg5.N = 10 := N_5
  induction n with
  | zero =>
    rw [acc5_zero, k5_pay3_eq, k5_pay1_eq]
    refine (accum_apply (iblk5 V c 0 ⟨0, hn⟩) (iblk5 V c 1 ⟨0, hn⟩) (iblk5 V c 2 ⟨0, hn⟩) (k1_pay1 (F := Ideal)) q).trans ?_
    rw [reset_apply, Finset.sum_range_one]
    congr 1
    unfold tileSum
    rw [dif_pos (by decide)]
    refine Finset.sum_congr rfl fun r _ => ?_
    refine (post_block5 (V c (Pipeline.arrRef spec5 0)) (V c (Pipeline.arrRef spec5 1)) (V c (Pipeline.arrRef spec5 2)) ⟨0, hn⟩ (ix2 r q)).trans ?_
    exact congrArg _ ((post_row5 ⟨0, hn⟩ r q).trans (by simp))
  | succ n ih =>
    rw [acc5_succ, k5_pay3_eq]
    refine (accum_apply (iblk5 V c 0 ⟨n + 1, hn⟩) (iblk5 V c 1 ⟨n + 1, hn⟩) (iblk5 V c 2 ⟨n + 1, hn⟩) (acc5 V c n (Nat.lt_of_succ_lt hn)) q).trans ?_
    rw [ih (Nat.lt_of_succ_lt hn), Finset.sum_range_succ _ (n + 1), ← add_assoc]
    congr 1
    unfold tileSum
    rw [dif_pos (by omega)]
    refine Finset.sum_congr rfl fun r _ => ?_
    refine (post_block5 (V c (Pipeline.arrRef spec5 0)) (V c (Pipeline.arrRef spec5 1)) (V c (Pipeline.arrRef spec5 2)) ⟨n + 1, hn⟩ (ix2 r q)).trans ?_
    exact congrArg _ (post_row5 ⟨n + 1, hn⟩ r q)

/-- The running total after the last point: the column sums of the whole rectified matrix. -/
theorem acc5_last (h : 9 < cfg5.N) (y : S1x128.Idx) :
    acc5 V c 9 h y
      = colSums (postH (V c (Pipeline.arrRef spec5 0)) (V c (Pipeline.arrRef spec5 1)) (V c (Pipeline.arrRef spec5 2))) (ix2 (0 : Fin 1) (y 1)) := by
  obtain ⟨z, q, rfl⟩ : ∃ (z : Fin 1) (q : Fin 128), y = ix2 z q := ⟨y 0, y 1, eq_ix2 y⟩
  obtain rfl : z = 0 := Subsingleton.elim _ _
  rw [acc5_entry V c 9 h q, tiles_all]
  rfl

theorem mem_blk5_4 (t : Fin cfg5.N) (i : S1x128.Idx) :
    i ∈ ((cfg5.win 4).blk t).view.set ↔ ∀ a : Fin 2, win5_4.index t a * S1x128.size a ≤ (i a).val
      ∧ (i a).val < win5_4.index t a * S1x128.size a + S1x128.size a := by
  show i ∈ ((View.whole main_v53_1).slice (win5_4.rect t)).set ↔ _
  rw [View.set_slice_whole, Rect.mem_set_unit]
  exact Iff.rfl

set_option maxHeartbeats 1000000 in
/-- The second output array of the post region, whole: the column sums of the rectified matrix. It is written back
    once, after the last point. -/
theorem hg_final5 :
    (dat5 V c).arrAt 4 cfg5.N
      = colSums (postH (V c (Pipeline.arrRef spec5 0)) (V c (Pipeline.arrRef spec5 1)) (V c (Pipeline.arrRef spec5 2))) := by
  have hN : cfg5.N = 10 := N_5
  refine (dat5 V c).arrAt_eq_of_cover 4 _ (fun t hf => ?_) (fun i => ?_)
  · have ht : t.val % 10 = 9 := (flush5_4 t).mp hf
    obtain ⟨-, -, -, -, -, -, -, -, e8, e9⟩ := idx_facts5 t
    obtain ⟨tv, htl⟩ := t
    have ht9 : tv = 9 := by have : tv < 10 := hN ▸ htl; dsimp only at ht; omega
    subst ht9
    show (cfg5.win 4).cut (grid5.coords ⟨9, htl⟩) ((dat5 V c).after 4 ⟨9, htl⟩) = _
    rw [after5_4_last V c htl]
    funext j
    refine (acc5_last V c htl j).trans ?_
    generalize postH (V c (Pipeline.arrRef spec5 0)) (V c (Pipeline.arrRef spec5 1)) (V c (Pipeline.arrRef spec5 2)) = X
    have e : (j 1 : Fin 128) = ((((cfg5.win 4).blk ⟨9, htl⟩).view.emb j) 1) := Fin.ext (by
      show (j 1).val = win5_4.index ⟨9, htl⟩ (1 : Fin 2) * 128 + 1 * (j 1).val
      omega)
    show (0 : Elt Ideal .f32) + ∑ r : Fin 50000, X (ix2 r (j 1)) = 0 + ∑ r : Fin 50000, X (ix2 r ((((cfg5.win 4).blk ⟨9, htl⟩).view.emb j) 1))
    rw [← e]
  · have hi0 : (i 0).val < 1 := (i 0).isLt
    have hi1 : (i 1).val < 128 := (i 1).isLt
    let t : Fin cfg5.N := ⟨9, by rw [hN]; decide⟩
    refine ⟨t, (flush5_4 t).mpr (by show 9 % 10 = 9; rfl), ?_⟩
    rw [mem_blk5_4]
    obtain ⟨-, -, -, -, -, -, -, -, e8, e9⟩ := idx_facts5 t
    intro a
    match a with
    | ⟨0, _⟩ => show win5_4.index t (0 : Fin 2) * 1 ≤ (i 0).val ∧ (i 0).val < win5_4.index t (0 : Fin 2) * 1 + 1; omega
    | ⟨1, _⟩ => show win5_4.index t (1 : Fin 2) * 128 ≤ (i 1).val ∧ (i 1).val < win5_4.index t (1 : Fin 2) * 128 + 128; omega

/-- The first output array of the post region, whole. -/
theorem h_final5 :
    (dat5 V c).arrAt 3 cfg5.N
      = postH (V c (Pipeline.arrRef spec5 0)) (V c (Pipeline.arrRef spec5 1)) (V c (Pipeline.arrRef spec5 2)) :=
  post_final5 _ _ _ (dat5 V c) (fun t => by rw [after5_3, k5_pay2_eq] <;> rfl)

end

end Cert.KernelIdeal.Val

end
-- ==== Proof.KFinal.lean ====
/- The kernel's results as functions of its arguments, at the extended reals: three layers, each the projected matrix
   of the layer before (the features, for the first), one round of message passing, and the rectified scaling; the first
   result is the third layer's rows, the second the three layers' column sums side by side. Each boundary value of the
   run is named by the layer functions below, layer by layer, and the run's post is read at the two result buffers. -/
import proofs.«172984_j19241453486477_1_alg».proof.Proof.KValues
import proofs.«172984_j19241453486477_1_alg».proof.Proof.ProjFinal
import proofs.«172984_j19241453486477_1_alg».proof.Proof.PostSum1
import proofs.«172984_j19241453486477_1_alg».proof.Proof.PostSum3
import proofs.«172984_j19241453486477_1_alg».proof.Proof.PostSum5

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.StableHlo
open Idealize.ShloMosaic.Pipeline (Dat)

variable (m : (ℓ : Loc nD τ sig) → Buf (Elt Ideal) ℓ)

/-! ## The layer functions -/

/-- The normalisation factors of the source list, as a column, -/
def ncolS (c : Dev nD) : S50000x1.Idx → Elt Ideal .f32 := shapeCast S50000x1 (norm (m ((c.tc : Thread nD τ).loc main_arg1))) shapeCasts_S50000_S50000x1
/-- and of the destination list. -/
def ncolD (c : Dev nD) : S50000x1.Idx → Elt Ideal .f32 := shapeCast S50000x1 (norm (m ((c.tc : Thread nD τ).loc main_arg2))) shapeCasts_S50000_S50000x1
/-- The three layers' slopes, each as a 1×1 array. -/
def slope6 (c : Dev nD) : S1x1.Idx → Elt Ideal .f32 := shapeCast S1x1 ((m ((c.tc : Thread nD τ).loc main_arg6)) : FVec Ideal S1 .f32) shapeCasts_S1_S1x1
def slope7 (c : Dev nD) : S1x1.Idx → Elt Ideal .f32 := shapeCast S1x1 ((m ((c.tc : Thread nD τ).loc main_arg7)) : FVec Ideal S1 .f32) shapeCasts_S1_S1x1
def slope8 (c : Dev nD) : S1x1.Idx → Elt Ideal .f32 := shapeCast S1x1 ((m ((c.tc : Thread nD τ).loc main_arg8)) : FVec Ideal S1 .f32) shapeCasts_S1_S1x1
/-- Layer 1's rows: the features projected, passed along the edges, scaled and rectified. -/
def kh1 (c : Dev nD) : S50000x128.Idx → Elt Ideal .f32 :=
  postH (spmm (projG (m ((c.tc : Thread nD τ).loc main_arg0)) (ncolS m c) (m ((c.tc : Thread nD τ).loc main_arg3))) (m ((c.tc : Thread nD τ).loc main_arg1)) (m ((c.tc : Thread nD τ).loc main_arg2))) (ncolD m c) (slope6 m c)
/-- Layer 2's rows, from layer 1's. -/
def kh2 (c : Dev nD) : S50000x128.Idx → Elt Ideal .f32 :=
  postH (spmm (projG (kh1 m c) (ncolS m c) (m ((c.tc : Thread nD τ).loc main_arg4))) (m ((c.tc : Thread nD τ).loc main_arg1)) (m ((c.tc : Thread nD τ).loc main_arg2))) (ncolD m c) (slope7 m c)
/-- Layer 3's rows, from layer 2's. -/
def kh3 (c : Dev nD) : S50000x128.Idx → Elt Ideal .f32 :=
  postH (spmm (projG (kh2 m c) (ncolS m c) (m ((c.tc : Thread nD τ).loc main_arg5))) (m ((c.tc : Thread nD τ).loc main_arg1)) (m ((c.tc : Thread nD τ).loc main_arg2))) (ncolD m c) (slope8 m c)
/-- The three layers' column sums side by side. -/
def kg (c : Dev nD) : S1x384.Idx → Elt Ideal .f32 :=
  concatenate S1x384 1 [⟨S1x128, colSums (kh1 m c)⟩, ⟨S1x128, colSums (kh2 m c)⟩, ⟨S1x128, colSums (kh3 m c)⟩] concatenates_S1x128_S1x128_S1x128_S1x384_d1

variable (ρ : Dev nD → PrngReg)

/-! ## The boundary values of the run, layer by layer -/

/-! ### Layer 1 -/

/-- Region 0 leaves the projected matrix of the features. -/
theorem proj1 (c : Dev nD) : (W6 m ρ c (Proc.devRef .tc main_v15) : S50000x128.Idx → Elt Ideal .f32)
    = projG (m ((c.tc : Thread nD τ).loc main_arg0)) (ncolS m c) (m ((c.tc : Thread nD τ).loc main_arg3)) := by
  rw [W6_v15, p_final0 (Vin0 m ρ) c]
  show projG (W5 m ρ c (Proc.devRef .tc main_arg0)) (W5 m ρ c (Proc.devRef .tc main_v10)) (W5 m ρ c (Proc.devRef .tc main_arg3)) = _
  rw [W5_main_arg0 m ρ c, E5_v10 m ρ c, W5_main_arg3 m ρ c]
  rfl

/-- The stretch after it leaves one round of message passing over those rows. -/
theorem agg1 (c : Dev nD) : (W7 m ρ c (Proc.devRef .tc main_v25) : S50000x128.Idx → Elt Ideal .f32)
    = spmm (projG (m ((c.tc : Thread nD τ).loc main_arg0)) (ncolS m c) (m ((c.tc : Thread nD τ).loc main_arg3))) (m ((c.tc : Thread nD τ).loc main_arg1)) (m ((c.tc : Thread nD τ).loc main_arg2)) := by
  rw [W7_v25 m ρ c, proj1 m ρ c]

/-- The arrays region 1 finds make layer 1's rows. -/
theorem post1_arrays (c : Dev nD) :
    postH (Vin1 m ρ c (Pipeline.arrRef spec1 0)) (Vin1 m ρ c (Pipeline.arrRef spec1 1)) (Vin1 m ρ c (Pipeline.arrRef spec1 2)) = kh1 m c := by
  show postH (W7 m ρ c (Proc.devRef .tc main_v25)) (W7 m ρ c (Proc.devRef .tc main_v14)) (W7 m ρ c (Proc.devRef .tc main_v26)) = _
  rw [agg1 m ρ c, W7_v14 m ρ c, E5_v14 m ρ c, W7_v26 m ρ c]
  rfl

/-- Region 1 leaves layer 1's rows and their column sums. -/
theorem rows1 (c : Dev nD) : (W8 m ρ c (Proc.devRef .tc main_v27_0) : S50000x128.Idx → Elt Ideal .f32) = kh1 m c :=
  (W8_v27_0 m ρ c).trans ((h_final1 (Vin1 m ρ) c).trans (post1_arrays m ρ c))
theorem sums1 (c : Dev nD) : (W8 m ρ c (Proc.devRef .tc main_v27_1) : S1x128.Idx → Elt Ideal .f32) = colSums (kh1 m c) :=
  (W8_v27_1 m ρ c).trans ((hg_final1 (Vin1 m ρ) c).trans (congrArg colSums (post1_arrays m ρ c)))

/-! ### Layer 2 -/

/-- Region 2 leaves the projected matrix of layer 1's rows. -/
theorem proj2 (c : Dev nD) : (W9 m ρ c (Proc.devRef .tc main_v28) : S50000x128.Idx → Elt Ideal .f32)
    = projG (kh1 m c) (ncolS m c) (m ((c.tc : Thread nD τ).loc main_arg4)) := by
  rw [W9_v28, p_final2 (Vin2 m ρ) c]
  show projG (W8 m ρ c (Proc.devRef .tc main_v27_0)) (W8 m ρ c (Proc.devRef .tc main_v10)) (W8 m ρ c (Proc.devRef .tc main_arg4)) = _
  rw [rows1 m ρ c, W8_v10 m ρ c, E5_v10 m ρ c, W8_main_arg4 m ρ c]
  rfl

/-- The stretch after it leaves one round of message passing over those rows. -/
theorem agg2 (c : Dev nD) : (W10 m ρ c (Proc.devRef .tc main_v38) : S50000x128.Idx → Elt Ideal .f32)
    = spmm (projG (kh1 m c) (ncolS m c) (m ((c.tc : Thread nD τ).loc main_arg4))) (m ((c.tc : Thread nD τ).loc main_arg1)) (m ((c.tc : Thread nD τ).loc main_arg2)) := by
  rw [W10_v38 m ρ c, proj2 m ρ c]

/-- The arrays region 3 finds make layer 2's rows. -/
theorem post2_arrays (c : Dev nD) :
    postH (Vin3 m ρ c (Pipeline.arrRef spec3 0)) (Vin3 m ρ c (Pipeline.arrRef spec3 1)) (Vin3 m ρ c (Pipeline.arrRef spec3 2)) = kh2 m c := by
  show postH (W10 m ρ c (Proc.devRef .tc main_v38)) (W10 m ρ c (Proc.devRef .tc main_v14)) (W10 m ρ c (Proc.devRef .tc main_v39)) = _
  rw [agg2 m ρ c, W10_v14 m ρ c, E5_v14 m ρ c, W10_v39 m ρ c]
  rfl

/-- Region 3 leaves layer 2's rows and their column sums. -/
theorem rows2 (c : Dev nD) : (W11 m ρ c (Proc.devRef .tc main_v40_0) : S50000x128.Idx → Elt Ideal .f32) = kh2 m c :=
  (W11_v40_0 m ρ c).trans ((h_final3 (Vin3 m ρ) c).trans (post2_arrays m ρ c))
theorem sums2 (c : Dev nD) : (W11 m ρ c (Proc.devRef .tc main_v40_1) : S1x128.Idx → Elt Ideal .f32) = colSums (kh2 m c) :=
  (W11_v40_1 m ρ c).trans ((hg_final3 (Vin3 m ρ) c).trans (congrArg colSums (post2_arrays m ρ c)))

/-! ### Layer 3 -/

/-- Region 4 leaves the projected matrix of layer 2's rows. -/
theorem proj3 (c : Dev nD) : (W12 m ρ c (Proc.devRef .tc main_v41) : S50000x128.Idx → Elt Ideal .f32)
    = projG (kh2 m c) (ncolS m c) (m ((c.tc : Thread nD τ).loc main_arg5)) := by
  rw [W12_v41, p_final4 (Vin4 m ρ) c]
  show projG (W11 m ρ c (Proc.devRef .tc main_v40_0)) (W11 m ρ c (Proc.devRef .tc main_v10)) (W11 m ρ c (Proc.devRef .tc main_arg5)) = _
  rw [rows2 m ρ c, W11_v10 m ρ c, E5_v10 m ρ c, W11_main_arg5 m ρ c]
  rfl

/-- The stretch after it leaves one round of message passing over those rows. -/
theorem agg3 (c : Dev nD) : (W13 m ρ c (Proc.devRef .tc main_v51) : S50000x128.Idx → Elt Ideal .f32)
    = spmm (projG (kh2 m c) (ncolS m c) (m ((c.tc : Thread nD τ).loc main_arg5))) (m ((c.tc : Thread nD τ).loc main_arg1)) (m ((c.tc : Thread nD τ).loc main_arg2)) := by
  rw [W13_v51 m ρ c, proj3 m ρ c]

/-- The arrays region 5 finds make layer 3's rows. -/
theorem post3_arrays (c : Dev nD) :
    postH (Vin5 m ρ c (Pipeline.arrRef spec5 0)) (Vin5 m ρ c (Pipeline.arrRef spec5 1)) (Vin5 m ρ c (Pipeline.arrRef spec5 2)) = kh3 m c := by
  show postH (W13 m ρ c (Proc.devRef .tc main_v51)) (W13 m ρ c (Proc.devRef .tc main_v14)) (W13 m ρ c (Proc.devRef .tc main_v52)) = _
  rw [agg3 m ρ c, W13_v14 m ρ c, E5_v14 m ρ c, W13_v52 m ρ c]
  rfl

/-- Region 5 leaves layer 3's rows and their column sums. -/
theorem rows3 (c : Dev nD) : (W14 m ρ c (Proc.devRef .tc main_v53_0) : S50000x128.Idx → Elt Ideal .f32) = kh3 m c :=
  (W14_v53_0 m ρ c).trans ((h_final5 (Vin5 m ρ) c).trans (post3_arrays m ρ c))
theorem sums3 (c : Dev nD) : (W14 m ρ c (Proc.devRef .tc main_v53_1) : S1x128.Idx → Elt Ideal .f32) = colSums (kh3 m c) :=
  (W14_v53_1 m ρ c).trans ((hg_final5 (Vin5 m ρ) c).trans (congrArg colSums (post3_arrays m ρ c)))

/-! ## The two results at the end of the run -/

theorem final_rows (c : Dev nD) : (W15 m ρ c (Proc.devRef .tc main_v53_0) : S50000x128.Idx → Elt Ideal .f32) = kh3 m c :=
  (W15_v53_0 m ρ c).trans (rows3 m ρ c)

theorem final_sums (c : Dev nD) : (W15 m ρ c (Proc.devRef .tc main_v54) : S1x384.Idx → Elt Ideal .f32) = kg m c := by
  rw [W15_v54 m ρ c, W14_v27_1 m ρ c, sums1 m ρ c, W14_v40_1 m ρ c, sums2 m ρ c, sums3 m ρ c]
  rfl

/-- THE KERNEL'S VALUE RUN: every weakly fair execution terminates, nothing faulting, with the third layer's rows in the
    first result buffer, the three layers' column sums in the second, and every argument as launched. -/
theorem kernel_run : θ_run (defs (F := Ideal)) (onTc (τ := τ) (main (F := Ideal))) ⟨m, fun _ => 0, ρ⟩ (fun r => ∀ c : Dev nD,
      r.2.mem ((c.tc : Thread nD τ).loc main_v53_0) = kh3 m c
      ∧ r.2.mem ((c.tc : Thread nD τ).loc main_v54) = kg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_v53_0 (by decide))).trans (final_rows m ρ c),
      (h c _ (mem_uc main_v54 (by decide))).trans (final_sums m ρ c),
      (h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c),
      (h c _ (mem_uc main_arg7 (by decide))).trans (W15_main_arg7 m ρ c),
      (h c _ (mem_uc main_arg8 (by decide))).trans (W15_main_arg8 m ρ c)⟩) (run_all m ρ)

end Cert.KernelIdeal.Val

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.Bridge.lean ====
/-
  The two programs' layer steps are the same functions of arrays over the extended reals.

  Projection: both are the sum over k of (h[i,k] · n[i]) · W[k,q] — the kernel's blockwise matrix products against
  one whole contraction. Rectified scaling: both are the rectifier, with the slope, of agg[i,q] · n[i]. Column sums:
  both are zero plus the sum of the column over all 50000 rows. The graph steps are spelt with the same host
  operations on both sides.
-/
import proofs.«172984_j19241453486477_1_alg».proof.Proof.ProjArray
import proofs.«172984_j19241453486477_1_alg».proof.Proof.PostArray1
import proofs.«172984_j19241453486477_1_alg».proof.Proof.RefOps
import proofs.«172984_j19241453486477_1_alg».proof.Proof.KHostFns
import proofs.«172984_j19241453486477_1_alg».proof.Proof.LibColumnReads

set_option maxRecDepth 16384

noncomputable section

open scoped BigOperators
open Idealize.ShloMosaic Idealize.ShloMosaic.ValueIdx

namespace Cert.Bridge

open Cert.KernelIdeal.Val Cert.ReferenceIdeal.RefOps

theorem norm_eq (s : IVec Cert.KernelIdeal.S800000 32) : Cert.KernelIdeal.Val.norm s = Cert.ReferenceIdeal.RefOps.norm s := rfl

theorem spmm_eq (P : FVec Ideal Cert.KernelIdeal.S50000x128 .f32) (s d : IVec Cert.KernelIdeal.S800000 32) :
    Cert.KernelIdeal.Val.spmm P s d = Cert.ReferenceIdeal.RefOps.spmm P s d := rfl

theorem prelu_eq (a x : EReal) : Cert.KernelIdeal.Val.prelu a x = Cert.ReferenceIdeal.RefOps.prelu a x := rfl

/-- The kernel's projected matrix is the reference's projection step, when the kernel's normalisation column holds
    the reference's normalisation vector. -/
theorem proj_eq (h : FVec Ideal Cert.KernelIdeal.S50000x128 .f32) (ncol : FVec Ideal Cert.KernelIdeal.S50000x1 .f32)
    (nv : FVec Ideal Cert.ReferenceIdeal.S50000 .f32) (W : FVec Ideal Cert.KernelIdeal.S128x128 .f32)
    (hn : ∀ p : Fin 50000, ncol (ix2 p (0 : Fin 1)) = nv (ix1 p)) :
    projG h ncol W = refProj h nv W := by
  funext i
  obtain ⟨p, q, rfl⟩ : ∃ (p : Fin 50000) (q : Fin 128), i = ix2 p q := ⟨i 0, i 1, eq_ix2 i⟩
  rw [refProj_apply]
  unfold projG
  refine Finset.sum_congr rfl fun k _ => ?_
  rw [← hn p]

/-- The kernel's rectified matrix is the reference's rectified scaling step. -/
theorem post_eq (agg : FVec Ideal Cert.KernelIdeal.S50000x128 .f32) (ncol : FVec Ideal Cert.KernelIdeal.S50000x1 .f32)
    (nv : FVec Ideal Cert.ReferenceIdeal.S50000 .f32) (a11 : FVec Ideal Cert.KernelIdeal.S1x1 .f32) (a : FVec Ideal Cert.ReferenceIdeal.S1 .f32)
    (hn : ∀ p : Fin 50000, ncol (ix2 p (0 : Fin 1)) = nv (ix1 p)) (ha : a11 (ix2 (0 : Fin 1) (0 : Fin 1)) = a (ix1 (0 : Fin 1))) :
    postH agg ncol a11 = refPost agg nv a := by
  funext i
  obtain ⟨p, q, rfl⟩ : ∃ (p : Fin 50000) (q : Fin 128), i = ix2 p q := ⟨i 0, i 1, eq_ix2 i⟩
  rw [refPost_apply, ← hn p, ← ha]
  rfl

/-- The kernel's accumulated column sums are the reference's. -/
theorem sums_eq (x : FVec Ideal Cert.KernelIdeal.S50000x128 .f32) : colSums x = refSum x := by
  funext j
  obtain ⟨z, q, rfl⟩ : ∃ (z : Fin 1) (q : Fin 128), j = ix2 z q := ⟨j 0, j 1, eq_ix2 j⟩
  obtain rfl : z = 0 := Subsingleton.elim _ _
  rw [refSum_apply]
  rfl

/-- One whole layer: the kernel's project–pass–rectify chain over its reshaped normalisation columns and slope
    is the reference's layer. -/
theorem layer_eq (h : FVec Ideal Cert.KernelIdeal.S50000x128 .f32) (s d : IVec Cert.KernelIdeal.S800000 32)
    (W : FVec Ideal Cert.KernelIdeal.S128x128 .f32) (a : FVec Ideal Cert.KernelIdeal.S1 .f32)
    (hc : Cert.KernelIdeal.S50000.ShapeCasts Cert.KernelIdeal.S50000x1) (ha : Cert.KernelIdeal.S1.ShapeCasts Cert.KernelIdeal.S1x1) :
    postH (Cert.KernelIdeal.Val.spmm (projG h (shapeCast Cert.KernelIdeal.S50000x1 (Cert.KernelIdeal.Val.norm s) hc) W) s d)
        (shapeCast Cert.KernelIdeal.S50000x1 (Cert.KernelIdeal.Val.norm d) hc)
        (shapeCast Cert.KernelIdeal.S1x1 a ha)
      = layer h s d W a := by
  have e1 := proj_eq h (shapeCast Cert.KernelIdeal.S50000x1 (Cert.KernelIdeal.Val.norm s) hc)
    (Cert.ReferenceIdeal.RefOps.norm s) W
    (fun p => (Cert.Lib.ColumnReads.shapeCast_a_a1_apply _ _ p (0 : Fin 1)).trans (congrFun (norm_eq s) _))
  have e2 := post_eq (Cert.KernelIdeal.Val.spmm (projG h (shapeCast Cert.KernelIdeal.S50000x1 (Cert.KernelIdeal.Val.norm s) hc) W) s d)
    (shapeCast Cert.KernelIdeal.S50000x1 (Cert.KernelIdeal.Val.norm d) hc)
    (Cert.ReferenceIdeal.RefOps.norm d) (shapeCast Cert.KernelIdeal.S1x1 a ha) a
    (fun p => (Cert.Lib.ColumnReads.shapeCast_a_a1_apply _ _ p (0 : Fin 1)).trans (congrFun (norm_eq d) _))
    (Cert.Lib.ColumnReads.shapeCast_a_a1_apply _ _ (0 : Fin 1) (0 : Fin 1))
  rw [e2, e1, spmm_eq]
  rfl

end Cert.Bridge

end
-- ==== Proof.LibPairConcat.lean ====
/-
  Two arrays laid end to end along one axis of a rank-2 array, read at an index from its coordinates: for any
  extents and any element type, the first piece where the coordinate on that axis is below the first piece's
  extent, and the second piece, the first extent less, from there on. Stated for pieces side by side
  ([a, k₁] and [a, k₂] into [a, n], along axis 1) and for pieces stacked ([k₁, b] and [k₂, b] into [n, b], along
  axis 0).
-/
import Idealize.ShloMosaic.Lib.Pipeline.Value
import Idealize.ShloMosaic.Lib.ValueIdx

noncomputable section

open Idealize.ShloMosaic Idealize.ShloMosaic.ValueIdx

namespace Cert.Lib.PairConcat

variable {α : Type}

/-- Side by side, a column of the first piece: the first piece at the same row and column. -/
theorem concat_axis1_left {a k₁ k₂ n : ℕ} (u : (⟨2, ![a, k₁]⟩ : Shape).Idx → α) (v : (⟨2, ![a, k₂]⟩ : Shape).Idx → α)
    (h : Shape.Concatenates [⟨2, ![a, k₁]⟩, ⟨2, ![a, k₂]⟩] ⟨2, ![a, n]⟩ 1) (p : Fin a) (q : Fin n) (hq : q.val < k₁) :
    concatenate ⟨2, ![a, n]⟩ 1 [⟨⟨2, ![a, k₁]⟩, u⟩, ⟨⟨2, ![a, k₂]⟩, v⟩] h (ix2 p q) = u (ix2 p ⟨q.val, hq⟩) :=
  concatenate_pair_apply_left 1 u v h (ix2 p q) rfl (ix2 p ⟨q.val, hq⟩)
    (fun b => match b with | ⟨0, _⟩ => rfl | ⟨1, _⟩ => rfl)

/-- Side by side, a column past the first piece: the second piece at the same row, the column less the first
    piece's width. -/
theorem concat_axis1_right {a k₁ k₂ n : ℕ} (u : (⟨2, ![a, k₁]⟩ : Shape).Idx → α) (v : (⟨2, ![a, k₂]⟩ : Shape).Idx → α)
    (h : Shape.Concatenates [⟨2, ![a, k₁]⟩, ⟨2, ![a, k₂]⟩] ⟨2, ![a, n]⟩ 1) (p : Fin a) (q : Fin n) (hq : k₁ ≤ q.val)
    (hq₂ : q.val - k₁ < k₂) :
    concatenate ⟨2, ![a, n]⟩ 1 [⟨⟨2, ![a, k₁]⟩, u⟩, ⟨⟨2, ![a, k₂]⟩, v⟩] h (ix2 p q) = v (ix2 p ⟨q.val - k₁, hq₂⟩) :=
  concatenate_pair_apply_right 1 u v h (ix2 p q) rfl rfl (ix2 p ⟨q.val - k₁, hq₂⟩)
    (fun b hb => match b, hb with | ⟨0, _⟩, _ => rfl | ⟨1, _⟩, hb => absurd rfl hb)
    (by show q.val - k₁ + k₁ = q.val; omega)

/-- Stacked, a row of the first piece: the first piece at the same row and column. -/
theorem concat_axis0_left {k₁ k₂ n b : ℕ} (u : (⟨2, ![k₁, b]⟩ : Shape).Idx → α) (v : (⟨2, ![k₂, b]⟩ : Shape).Idx → α)
    (h : Shape.Concatenates [⟨2, ![k₁, b]⟩, ⟨2, ![k₂, b]⟩] ⟨2, ![n, b]⟩ 0) (q : Fin n) (c : Fin b) (hq : q.val < k₁) :
    concatenate ⟨2, ![n, b]⟩ 0 [⟨⟨2, ![k₁, b]⟩, u⟩, ⟨⟨2, ![k₂, b]⟩, v⟩] h (ix2 q c) = u (ix2 ⟨q.val, hq⟩ c) :=
  concatenate_pair_apply_left 0 u v h (ix2 q c) rfl (ix2 ⟨q.val, hq⟩ c)
    (fun b => match b with | ⟨0, _⟩ => rfl | ⟨1, _⟩ => rfl)

/-- Stacked, a row past the first piece: the second piece at the row less the first piece's height, same column. -/
theorem concat_axis0_right {k₁ k₂ n b : ℕ} (u : (⟨2, ![k₁, b]⟩ : Shape).Idx → α) (v : (⟨2, ![k₂, b]⟩ : Shape).Idx → α)
    (h : Shape.Concatenates [⟨2, ![k₁, b]⟩, ⟨2, ![k₂, b]⟩] ⟨2, ![n, b]⟩ 0) (q : Fin n) (c : Fin b) (hq : k₁ ≤ q.val)
    (hq₂ : q.val - k₁ < k₂) :
    concatenate ⟨2, ![n, b]⟩ 0 [⟨⟨2, ![k₁, b]⟩, u⟩, ⟨⟨2, ![k₂, b]⟩, v⟩] h (ix2 q c) = v (ix2 ⟨q.val - k₁, hq₂⟩ c) :=
  concatenate_pair_apply_right 0 u v h (ix2 q c) rfl rfl (ix2 ⟨q.val - k₁, hq₂⟩ c)
    (fun b hb => match b, hb with | ⟨0, _⟩, hb => absurd rfl hb | ⟨1, _⟩, _ => rfl)
    (by show q.val - k₁ + k₁ = q.val; omega)

end Cert.Lib.PairConcat

end
-- ==== Proof.Concat3.lean ====
/-
  Three rows of 128 entries laid side by side in one step are the same 384-entry row as the first two laid side
  by side and the third appended: entry q comes from piece q / 128, at q mod 128, either way.
-/
import proofs.«172984_j19241453486477_1_alg».proof.Proof.LibPairConcat
import Idealize.ShloMosaic.Lib.Pipeline.Value
import Idealize.ShloMosaic.Lib.ValueIdx

set_option maxRecDepth 16384

noncomputable section

open Idealize.ShloMosaic Idealize.ShloMosaic.ValueIdx

namespace Cert.Concat3

variable {α : Type}

theorem concat3_eq (u v w : (⟨2, ![1, 128]⟩ : Shape).Idx → α)
    (h3 : Shape.Concatenates [⟨2, ![1, 128]⟩, ⟨2, ![1, 128]⟩, ⟨2, ![1, 128]⟩] ⟨2, ![1, 384]⟩ 1)
    (h2 : Shape.Concatenates [⟨2, ![1, 128]⟩, ⟨2, ![1, 128]⟩] ⟨2, ![1, 256]⟩ 1)
    (h21 : Shape.Concatenates [⟨2, ![1, 256]⟩, ⟨2, ![1, 128]⟩] ⟨2, ![1, 384]⟩ 1) :
    concatenate ⟨2, ![1, 384]⟩ 1 [⟨⟨2, ![1, 128]⟩, u⟩, ⟨⟨2, ![1, 128]⟩, v⟩, ⟨⟨2, ![1, 128]⟩, w⟩] h3
      = concatenate ⟨2, ![1, 384]⟩ 1
          [⟨⟨2, ![1, 256]⟩, concatenate ⟨2, ![1, 256]⟩ 1 [⟨⟨2, ![1, 128]⟩, u⟩, ⟨⟨2, ![1, 128]⟩, v⟩] h2⟩, ⟨⟨2, ![1, 128]⟩, w⟩] h21 := by
  funext j
  obtain ⟨z, q, rfl⟩ : ∃ (z : Fin 1) (q : Fin 384), j = ix2 z q := ⟨j 0, j 1, eq_ix2 j⟩
  have hq := q.isLt
  by_cases h1 : q.val < 128
  · rw [Cert.Lib.PairConcat.concat_axis1_left _ w h21 z q (by omega),
      Cert.Lib.PairConcat.concat_axis1_left u v h2 z ⟨q.val, by omega⟩ h1]
    exact concatenate_apply_piece 1 [⟨⟨2, ![1, 128]⟩, u⟩, ⟨⟨2, ![1, 128]⟩, v⟩, ⟨⟨2, ![1, 128]⟩, w⟩] h3 (ix2 z q) 0 (by show 0 < 3; omega) _ u rfl rfl 0 rfl (ix2 z ⟨q.val, h1⟩)
      (fun b hb => match b, hb with | ⟨0, _⟩, _ => rfl | ⟨1, _⟩, hb => absurd rfl hb) (by show 0 + q.val = q.val; omega)
  · by_cases h2' : q.val < 256
    · rw [Cert.Lib.PairConcat.concat_axis1_left _ w h21 z q h2',
        Cert.Lib.PairConcat.concat_axis1_right u v h2 z ⟨q.val, h2'⟩ (by show 128 ≤ q.val; omega) (by show q.val - 128 < 128; omega)]
      exact concatenate_apply_piece 1 [⟨⟨2, ![1, 128]⟩, u⟩, ⟨⟨2, ![1, 128]⟩, v⟩, ⟨⟨2, ![1, 128]⟩, w⟩] h3 (ix2 z q) 1 (by show 1 < 3; omega) _ v rfl rfl 128 rfl (ix2 z ⟨q.val - 128, by omega⟩)
        (fun b hb => match b, hb with | ⟨0, _⟩, _ => rfl | ⟨1, _⟩, hb => absurd rfl hb) (by show 128 + (q.val - 128) = q.val; omega)
    · rw [Cert.Lib.PairConcat.concat_axis1_right _ w h21 z q (by omega) (by omega)]
      exact concatenate_apply_piece 1 [⟨⟨2, ![1, 128]⟩, u⟩, ⟨⟨2, ![1, 128]⟩, v⟩, ⟨⟨2, ![1, 128]⟩, w⟩] h3 (ix2 z q) 2 (by show 2 < 3; omega) _ w rfl rfl 256 rfl (ix2 z ⟨q.val - 256, by omega⟩)
        (fun b hb => match b, hb with | ⟨0, _⟩, _ => rfl | ⟨1, _⟩, hb => absurd rfl hb) (by show 256 + (q.val - 256) = q.val; omega)

end Cert.Concat3

end
-- ==== Proof.Final.lean ====
/-
  The two idealized programs compute the same arrays.

  Layer by layer: the kernel's projected matrix, message passing and rectified scaling are the reference's layer
  (the normalisation factors are the same vectors, reshaped to columns on the kernel's side; the slope is the same
  scalar), so the three feature matrices agree, and with them their column sums; the kernel lays its three rows of
  sums side by side in one step, the reference in two.
-/
import proofs.«172984_j19241453486477_1_alg».proof.Proof.KFinal
import proofs.«172984_j19241453486477_1_alg».proof.Proof.RefRun
import proofs.«172984_j19241453486477_1_alg».proof.Proof.Bridge
import proofs.«172984_j19241453486477_1_alg».proof.Proof.Concat3

set_option maxRecDepth 16384

noncomputable section

open Idealize.ShloMosaic Idealize.ShloMosaic.TcCoe Idealize.SL.Sem

namespace Cert.Final

open Cert.KernelIdeal.Val Cert.ReferenceIdeal.RefOps Cert.ReferenceIdeal.RefRun

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same nine argument arrays on core `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable {m m'} {c : Dev Cert.KernelIdeal.nD}

theorem h1_eq (hag : Agree m m' c) : Cert.ReferenceIdeal.RefRun.h1 m' c = kh1 m c := by
  obtain ⟨e0, e1, e2, e3, e4, e5, e6, e7, e8⟩ := hag
  unfold Cert.ReferenceIdeal.RefRun.h1 kh1 ncolS ncolD slope6
  rw [e0, e1, e2, e3, e6]
  exact (Cert.Bridge.layer_eq _ _ _ _ _ _ _).symm

theorem h2_eq (hag : Agree m m' c) : Cert.ReferenceIdeal.RefRun.h2 m' c = kh2 m c := by
  have i1 := h1_eq hag
  obtain ⟨e0, e1, e2, e3, e4, e5, e6, e7, e8⟩ := hag
  unfold Cert.ReferenceIdeal.RefRun.h2 kh2 ncolS ncolD slope7
  rw [i1, e1, e2, e4, e7]
  exact (Cert.Bridge.layer_eq _ _ _ _ _ _ _).symm

theorem h3_eq (hag : Agree m m' c) : Cert.ReferenceIdeal.RefRun.h3 m' c = kh3 m c := by
  have i2 := h2_eq hag
  obtain ⟨e0, e1, e2, e3, e4, e5, e6, e7, e8⟩ := hag
  unfold Cert.ReferenceIdeal.RefRun.h3 kh3 ncolS ncolD slope8
  rw [i2, e1, e2, e5, e8]
  exact (Cert.Bridge.layer_eq _ _ _ _ _ _ _).symm

theorem hg_eq (hag : Agree m m' c) : Cert.ReferenceIdeal.RefRun.hgAll m' c = kg m c := by
  unfold Cert.ReferenceIdeal.RefRun.hgAll kg
  rw [h1_eq hag, h2_eq hag, h3_eq hag, ← Cert.Bridge.sums_eq, ← Cert.Bridge.sums_eq, ← Cert.Bridge.sums_eq]
  exact (Cert.Concat3.concat3_eq _ _ _ _ _ _).symm

end Cert.Final

end
-- ==== Proof.lean ====
/-
  A three-layer graph convolution, kernel against reference, over the extended reals.

  Each layer scales the rows of the feature matrix by the source-side normalisation factors (degree, at least one,
  to the power −1/2) and multiplies by the layer's weight matrix; gathers the projected rows along the edges'
  sources and adds them up at the edges' destinations; scales the rows of the result by the destination-side
  factors and applies the parametric rectifier; and sums the columns of the rectified matrix. The kernel does the
  projection and the rectified scaling block by block (ten blocks of 5000 rows), keeping a running total of the
  column sums; the reference does them on whole matrices. Row by row the blocks are restrictions of the whole-matrix
  functions, the ten blocks cover the 50000 rows, and the running total is the whole column sum taken block by block
  (addition of extended reals is commutative and associative, so no finiteness is needed). The graph steps are the
  same host operations in both programs. The kernel's rows of sums are laid side by side in one step, the
  reference's in two.

  The three frames: each of the kernel's six regions runs its body at every grid point from the contents its host
  prefix leaves, and no region or host operation writes an argument; the reference is host operations only.
  The idealization rewrote nothing, so the kernel's idealized text is its own text read over the extended reals.
-/
import proofs.«172984_j19241453486477_1_alg».proof.Defs
import proofs.«172984_j19241453486477_1_alg».proof.Proof.Gen.Kernel
import proofs.«172984_j19241453486477_1_alg».proof.Proof.Gen.KernelIdeal
import proofs.«172984_j19241453486477_1_alg».proof.Proof.Gen.ReferenceIdeal
import proofs.«172984_j19241453486477_1_alg».proof.Proof.Gen.Pre_finite_inputs
import proofs.«172984_j19241453486477_1_alg».proof.Proof.RunAll
import proofs.«172984_j19241453486477_1_alg».proof.Proof.RunAllB
import proofs.«172984_j19241453486477_1_alg».proof.Proof.RefRun
import proofs.«172984_j19241453486477_1_alg».proof.Proof.KFinal
import proofs.«172984_j19241453486477_1_alg».proof.Proof.Final
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => Cert.Kernel.Hand.frame_all (F := Bits) m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- The reference is host operations only: its run, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefRun.run m ρ)

/-- Both programs end with the same two result arrays: the third layer's feature matrix and the three rows of
    column sums side by side. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.kh3 m c, fun c => Cert.KernelIdeal.Val.kg m c, Cert.KernelIdeal.Val.kernel_run m ρ, ?_⟩
  refine (θ_run Cert.ReferenceIdeal.defs _ _).mono (fun _ h c => ⟨(h c).1.trans ?_, (h c).2.1.trans ?_, (h c).2.2⟩)
    (Cert.ReferenceIdeal.RefRun.run m' ρ')
  · exact Cert.Final.h3_eq (hagree c)
  · exact Cert.Final.hg_eq (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
